-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S64x256 : Shape := ⟨2, ![64, 256]⟩
abbrev S1x192 : Shape := ⟨2, ![1, 192]⟩
abbrev S2x400000 : Shape := ⟨2, ![2, 400000]⟩
abbrev S400000 : Shape := ⟨1, ![400000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S1x192 : S_.BroadcastsInDim S1x192 (![] : Fin 0 → Fin S1x192.rank)
  reducesTo_S1x192_S_d0_1 : S1x192.ReducesTo [0, 1] S_
  reducesTo_S400000_S_d0 : S400000.ReducesTo [0] S_

variable [Facts]

def fn {F : FTy → Type} [FloatOps F] (main_arg0 : FVec F S100000x256 .f32) (main_arg1 : FVec F S64x256 .f32) (main_arg2 : FVec F S1x192 .f32) (main_arg3 : IVec S2x400000 32) (main_arg4 : IVec S400000 32) (main_arg5 : IVec S400000 1) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S1x192 .f32 := Host.absf main_arg2
  let main_cst_2 : FVec F S_ .f32 := constant S_ .f32 0x7F800000#32
  let main_v10 : FVec F S1x192 .f32 := broadcastInDim S1x192 ![] bcast_S_S1x192 main_cst_2
  let main_v11 : IVec S1x192 1 := cmpf .olt main_v9 main_v10
  let main_c_3 : IVec S_ 1 := constantI S_ 1 1#1
  let main_v12 : IVec S_ 1 := (fun x v => Host.reduce IntOp.andi x v reducesTo_S1x192_S_d0_1 h_S_) main_v11 main_c_3
  let main_v13 : IVec S_ 1 := andi main_v8 main_v12
  let main_c_4 : IVec S_ 1 := constantI S_ 1 0#1
  let main_v14 : IVec S_ 1 := (fun x v => Host.reduce IntOp.ori x v reducesTo_S400000_S_d0 h_S_) main_arg5 main_c_4
  let main_v15 : IVec S_ 1 := andi main_v13 main_v14
  main_v15
-- ==== Kernel.lean ====
abbrev S100000x256 : Shape := ⟨2, ![100000, 256]⟩
abbrev S64x256 : Shape := ⟨2, ![64, 256]⟩
abbrev S1x192 : Shape := ⟨2, ![1, 192]⟩
abbrev S2x400000 : Shape := ⟨2, ![2, 400000]⟩
abbrev S400000 : Shape := ⟨1, ![400000]⟩
abbrev S1x64 : Shape := ⟨2, ![1, 64]⟩
abbrev S1x256 : Shape := ⟨2, ![1, 256]⟩
abbrev S2x256 : Shape := ⟨2, ![2, 256]⟩
abbrev S256x2 : Shape := ⟨2, ![256, 2]⟩
abbrev S100000x2 : Shape := ⟨2, ![100000, 2]⟩
abbrev S5000x256 : Shape := ⟨2, ![5000, 256]⟩
abbrev S5000x2 : Shape := ⟨2, ![5000, 2]⟩
abbrev S100000x1 : Shape := ⟨2, ![100000, 1]⟩
abbrev S100000 : Shape := ⟨1, ![100000]⟩
abbrev S1x400000 : Shape := ⟨2, ![1, 400000]⟩
abbrev S_ : Shape := ⟨0, ![]⟩
abbrev S401408 : Shape := ⟨1, ![401408]⟩
abbrev S401408x1 : Shape := ⟨2, ![401408, 1]⟩
abbrev S1x1 : Shape := ⟨2, ![1, 1]⟩
abbrev S8192 : Shape := ⟨1, ![8192]⟩
abbrev S1x8192 : Shape := ⟨2, ![1, 8192]⟩
abbrev S1 : Shape := ⟨1, ![1]⟩

abbrev nBuf : Space → Nat
  | .hbm => 67
  | .vmem => 17
  | .smem => 0
  | _ => 0

abbrev bufTy : (tb : Table) → Fin (tcTables nBuf tb) → BufTy
  | .hbm, ⟨0, _⟩ => ⟨S100000x256, .f32⟩
  | .hbm, ⟨1, _⟩ => ⟨S64x256, .f32⟩
  | .hbm, ⟨2, _⟩ => ⟨S1x192, .f32⟩
  | .hbm, ⟨3, _⟩ => ⟨S2x400000, .i32⟩
  | .hbm, ⟨4, _⟩ => ⟨S400000, .i32⟩
  | .hbm, ⟨5, _⟩ => ⟨S400000, .i1⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x256, .f32⟩
  | .hbm, ⟨12, _⟩ => ⟨S1x256, .f32⟩
  | .hbm, ⟨13, _⟩ => ⟨S2x256, .f32⟩
  | .hbm, ⟨14, _⟩ => ⟨S256x2, .f32⟩
  | .hbm, ⟨15, _⟩ => ⟨S100000x2, .f32⟩
  | .hbm, ⟨16, _⟩ => ⟨S100000x1, .f32⟩
  | .hbm, ⟨17, _⟩ => ⟨S100000, .f32⟩
  | .hbm, ⟨18, _⟩ => ⟨S100000x1, .f32⟩
  | .hbm, ⟨19, _⟩ => ⟨S100000, .f32⟩
  | .hbm, ⟨20, _⟩ => ⟨S1x400000, .i32⟩
  | .hbm, ⟨21, _⟩ => ⟨S400000, .i32⟩
  | .hbm, ⟨22, _⟩ => ⟨S1x400000, .i32⟩
  | .hbm, ⟨23, _⟩ => ⟨S400000, .i32⟩
  | .hbm, ⟨24, _⟩ => ⟨S_, .i32⟩
  | .hbm, ⟨25, _⟩ => ⟨S_, .i32⟩
  | .hbm, ⟨26, _⟩ => ⟨S401408, .i32⟩
  | .hbm, ⟨27, _⟩ => ⟨S_, .i32⟩
  | .hbm, ⟨28, _⟩ => ⟨S_, .i32⟩
  | .hbm, ⟨29, _⟩ => ⟨S401408, .i32⟩
  | .hbm, ⟨30, _⟩ => ⟨S_, .i32⟩
  | .hbm, ⟨31, _⟩ => ⟨S_, .i32⟩
  | .hbm, ⟨32, _⟩ => ⟨S401408, .i32⟩
  | .hbm, ⟨33, _⟩ => ⟨S400000, .i32⟩
  | .hbm, ⟨34, _⟩ => ⟨S_, .i32⟩
  | .hbm, ⟨35, _⟩ => ⟨S_, .i32⟩
  | .hbm, ⟨36, _⟩ => ⟨S401408, .i32⟩
  | .hbm, ⟨37, _⟩ => ⟨S_, .i32⟩
  | .hbm, ⟨38, _⟩ => ⟨S401408, .i32⟩
  | .hbm, ⟨39, _⟩ => ⟨S401408, .i1⟩
  | .hbm, ⟨40, _⟩ => ⟨S_, .i32⟩
  | .hbm, ⟨41, _⟩ => ⟨S401408, .i32⟩
  | .hbm, ⟨42, _⟩ => ⟨S401408, .i32⟩
  | .hbm, ⟨43, _⟩ => ⟨S401408, .i32⟩
  | .hbm, ⟨44, _⟩ => ⟨S401408x1, .i32⟩
  | .hbm, ⟨45, _⟩ => ⟨S401408, .f32⟩
  | .hbm, ⟨46, _⟩ => ⟨S_, .i32⟩
  | .hbm, ⟨47, _⟩ => ⟨S401408, .i32⟩
  | .hbm, ⟨48, _⟩ => ⟨S401408, .i1⟩
  | .hbm, ⟨49, _⟩ => ⟨S_, .i32⟩
  | .hbm, ⟨50, _⟩ => ⟨S401408, .i32⟩
  | .hbm, ⟨51, _⟩ => ⟨S401408, .i32⟩
  | .hbm, ⟨52, _⟩ => ⟨S401408, .i32⟩
  | .hbm, ⟨53, _⟩ => ⟨S401408x1, .i32⟩
  | .hbm, ⟨54, _⟩ => ⟨S401408, .f32⟩
  | .hbm, ⟨55, _⟩ => ⟨S401408, .f32⟩
  | .hbm, ⟨56, _⟩ => ⟨S1x1, .f32⟩
  | .hbm, ⟨57, _⟩ => ⟨S1x1, .f32⟩
  | .hbm, ⟨58, _⟩ => ⟨S400000, .f32⟩
  | .hbm, ⟨59, _⟩ => ⟨S_, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S5000x256, .f32⟩
  | .local _ .vmem, ⟨1, _⟩ => ⟨S5000x256, .f32⟩
  | .local _ .vmem, ⟨2, _⟩ => ⟨S256x2, .f32⟩
  | .local _ .vmem, ⟨3, _⟩ => ⟨S5000x2, .f32⟩
  | .local _ .vmem, ⟨4, _⟩ => ⟨S5000x2, .f32⟩
  | .local _ .vmem, ⟨5, _⟩ => ⟨S8192, .f32⟩
  | .local _ .vmem, ⟨6, _⟩ => ⟨S8192, .f32⟩
  | .local _ .vmem, ⟨7, _⟩ => ⟨S8192, .f32⟩
  | .local _ .vmem, ⟨8, _⟩ => ⟨S8192, .f32⟩
  | .local _ .vmem, ⟨9, _⟩ => ⟨S8192, .i32⟩
  | .local _ .vmem, ⟨10, _⟩ => ⟨S8192, .i32⟩
  | .local _ .vmem, ⟨11, _⟩ => ⟨S8192, .i32⟩
  | .local _ .vmem, ⟨12, _⟩ => ⟨S8192, .i32⟩
  | .local _ .vmem, ⟨13, _⟩ => ⟨S8192, .f32⟩
  | .local _ .vmem, ⟨14, _⟩ => ⟨S8192, .f32⟩
  | .local _ .vmem, ⟨15, _⟩ => ⟨S1x1, .f32⟩
  | .local _ .vmem, ⟨16, _⟩ => ⟨S1x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_c_0 : Ref sig .tc := ⟨.hbm, 27, rfl⟩
abbrev main_call1_v0 : Ref sig .tc := ⟨.hbm, 28, rfl⟩
abbrev main_v19 : Ref sig .tc := ⟨.hbm, 29, rfl⟩
abbrev main_c_1 : Ref sig .tc := ⟨.hbm, 30, rfl⟩
abbrev main_call2_v0 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_call3_v0 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_v37_2 : Ref sig .tc := ⟨.hbm, 57, rfl⟩
abbrev main_v38 : Ref sig .tc := ⟨.hbm, 58, rfl⟩
abbrev main_v39 : Ref sig .tc := ⟨.hbm, 59, rfl⟩
abbrev main_cst : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_call4_v0 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![49], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  slices_S1x192_S1x64_0_0 : S1x192.Slices ![0, 0] S1x64
  slices_S1x192_S1x64_0_64 : S1x192.Slices ![0, 64] S1x64
  slices_S1x192_S1x64_0_128 : S1x192.Slices ![0, 128] S1x64
  concatenates_S1x256_S1x256_S2x256_d0 : Shape.Concatenates [S1x256, S1x256] S2x256 0
  transposes_S2x256_S256x2_1_0 : S2x256.Transposes [1, 0] S256x2
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S5000x2_S5000x2_0_0 : ∀ a, (![0, 0] : Fin 2 → Nat) a + S5000x2.size a ≤ S5000x2.size a
  h_S5000x2 : 0 < S5000x2.numel
  slices_S100000x2_S100000x1_0_0 : S100000x2.Slices ![0, 0] S100000x1
  shapeCasts_S100000x1_S100000 : S100000x1.ShapeCasts S100000
  slices_S100000x2_S100000x1_0_1 : S100000x2.Slices ![0, 1] S100000x1
  slices_S2x400000_S1x400000_0_0 : S2x400000.Slices ![0, 0] S1x400000
  shapeCasts_S1x400000_S400000 : S1x400000.ShapeCasts S400000
  slices_S2x400000_S1x400000_1_0 : S2x400000.Slices ![1, 0] S1x400000
  pads_S400000_S401408_014080 : S400000.Pads (![0] : Fin 1 → Nat) ![1408] ![0] S401408
  h_S_ : 0 < S_.numel
  natLt_1_32 : 1 < 32
  bcast_S_S401408 : S_.BroadcastsInDim S401408 (![] : Fin 0 → Fin S401408.rank)
  bcast_S401408_S401408x1_0 : S401408.BroadcastsInDim S401408x1 (![0] : Fin 1 → Fin S401408x1.rank)
  inb_S1x1_S1x1_0_0 : ∀ a, (![0, 0] : Fin 2 → Nat) a + S1x1.size a ≤ S1x1.size a
  h_S1x1 : 0 < S1x1.numel
  inb_S8192_S8192_0 : ∀ a, (![0] : Fin 1 → Nat) a + S8192.size a ≤ S8192.size a
  h_S8192 : 0 < S8192.numel
  shapeCasts_S8192_S8192 : S8192.ShapeCasts S8192
  shapeCasts_S1x1_S1x1 : S1x1.ShapeCasts S1x1
  shapeCasts_S8192_S1x8192 : S8192.ShapeCasts S1x8192
  reduces_S1x8192_S1 : S1x8192.Reduces [1] S1
  shapeCasts_S1_S1x1 : S1.ShapeCasts S1x1
  inpos_S1x1_p0_0 : ∀ a, (![0, 0] : Fin 2 → Nat) a < S1x1.size a
  slices_S401408_S400000_0 : S401408.Slices ![0] S400000
  shapeCasts_S1x1_S_ : S1x1.ShapeCasts S_
  dot_S1x64_S64x256_S1x256_1_0_0_1_n_n_wf : DotDims.WF S1x64 S64x256 S1x256 [1] [0] [0] [1] [] []
  dot_S5000x256_S256x2_S5000x2_1_0_0_1_n_n_wf : DotDims.WF S5000x256 S256x2 S5000x2 [1] [0] [0] [1] [] []
  gather_S100000_S401408x1_S401408_n_0_n_n_0_1_1_wf : GatherDims.WF S100000 S401408x1 S401408 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S256x2.size a
  hwx0_1 : ∀ i : grid0.Coords, EltTy.bits .f32 = 32 ∨ (Rect.block (s := S256x2) S256x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S100000x2.size a
  hwx0_2 : ∀ i : grid0.Coords, EltTy.bits .f32 = 32 ∨ (Rect.block (s := S100000x2) S5000x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S401408.size a
  hwx1_0 : ∀ i : grid1.Coords, EltTy.bits .f32 = 32 ∨ (Rect.block (s := S401408) S8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S401408.size a
  hwx1_1 : ∀ i : grid1.Coords, EltTy.bits .f32 = 32 ∨ (Rect.block (s := S401408) S8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192.size a ≤ S401408.size a
  hwx1_2 : ∀ i : grid1.Coords, EltTy.bits .i32 = 32 ∨ (Rect.block (s := S401408) S8192.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192.size a ≤ S401408.size a
  hwx1_3 : ∀ i : grid1.Coords, EltTy.bits .i32 = 32 ∨ (Rect.block (s := S401408) S8192.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192.size a ≤ S401408.size a
  hwx1_4 : ∀ i : grid1.Coords, EltTy.bits .f32 = 32 ∨ (Rect.block (s := S401408) S8192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

def dot_S1x64_S64x256_S1x256_1_0_0_1_n_n : DotDims S1x64 S64x256 S1x256 where
  lhsContracting := [1]
  rhsContracting := [0]
  lhsNonContracting := [0]
  rhsNonContracting := [1]
  lhsBatch := []
  rhsBatch := []
  wf := dot_S1x64_S64x256_S1x256_1_0_0_1_n_n_wf
def dot_S5000x256_S256x2_S5000x2_1_0_0_1_n_n : DotDims S5000x256 S256x2 S5000x2 where
  lhsContracting := [1]
  rhsContracting := [0]
  lhsNonContracting := [0]
  rhsNonContracting := [1]
  lhsBatch := []
  rhsBatch := []
  wf := dot_S5000x256_S256x2_S5000x2_1_0_0_1_n_n_wf
def gather_S100000_S401408x1_S401408_n_0_n_n_0_1_1 : GatherDims S100000 S401408x1 S401408 where
  offsetDims := []
  collapsedSliceDims := [0]
  operandBatchingDims := []
  startIndicesBatchingDims := []
  startIndexMap := [0]
  indexVectorDim := 1
  sliceSizes := ![1]
  wf := gather_S100000_S401408x1_S401408_n_0_n_n_0_1_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S8192.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v37_0) S8192.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v37_1) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37_2) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x256 : Shape := ⟨2, ![100000, 256]⟩
abbrev S64x256 : Shape := ⟨2, ![64, 256]⟩
abbrev S1x192 : Shape := ⟨2, ![1, 192]⟩
abbrev S2x400000 : Shape := ⟨2, ![2, 400000]⟩
abbrev S400000 : Shape := ⟨1, ![400000]⟩
abbrev S256x64 : Shape := ⟨2, ![256, 64]⟩
abbrev S100000x64 : Shape := ⟨2, ![100000, 64]⟩
abbrev S1x400000 : Shape := ⟨2, ![1, 400000]⟩
abbrev S_ : Shape := ⟨0, ![]⟩
abbrev S400000x1 : Shape := ⟨2, ![400000, 1]⟩
abbrev S400000x64 : Shape := ⟨2, ![400000, 64]⟩
abbrev S400000x192 : Shape := ⟨2, ![400000, 192]⟩
abbrev S192x1 : Shape := ⟨2, ![192, 1]⟩

abbrev nBuf : Space → Nat
  | .hbm => 83
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S64x256, .f32⟩
  | .hbm, ⟨2, _⟩ => ⟨S1x192, .f32⟩
  | .hbm, ⟨3, _⟩ => ⟨S2x400000, .i32⟩
  | .hbm, ⟨4, _⟩ => ⟨S400000, .i32⟩
  | .hbm, ⟨5, _⟩ => ⟨S400000, .i1⟩
  | .hbm, ⟨6, _⟩ => ⟨S256x64, .f32⟩
  | .hbm, ⟨7, _⟩ => ⟨S100000x64, .f32⟩
  | .hbm, ⟨8, _⟩ => ⟨S1x400000, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x64, .f32⟩
  | .hbm, ⟨19, _⟩ => ⟨S1x400000, .i32⟩
  | .hbm, ⟨20, _⟩ => ⟨S400000, .i32⟩
  | .hbm, ⟨21, _⟩ => ⟨S_, .i32⟩
  | .hbm, ⟨22, _⟩ => ⟨S400000, .i32⟩
  | .hbm, ⟨23, _⟩ => ⟨S400000, .i1⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .i32⟩
  | .hbm, ⟨28, _⟩ => ⟨S400000x1, .i32⟩
  | .hbm, ⟨29, _⟩ => ⟨S400000x64, .f32⟩
  | .hbm, ⟨30, _⟩ => ⟨S400000x64, .f32⟩
  | .hbm, ⟨31, _⟩ => ⟨S400000x192, .f32⟩
  | .hbm, ⟨32, _⟩ => ⟨S192x1, .f32⟩
  | .hbm, ⟨33, _⟩ => ⟨S400000x1, .f32⟩
  | .hbm, ⟨34, _⟩ => ⟨S400000, .f32⟩
  | .hbm, ⟨35, _⟩ => ⟨S400000, .f32⟩
  | .hbm, ⟨36, _⟩ => ⟨S400000, .f32⟩
  | .hbm, ⟨37, _⟩ => ⟨S_, .f32⟩
  | .hbm, ⟨38, _⟩ => ⟨S400000, .f32⟩
  | .hbm, ⟨39, _⟩ => ⟨S400000, .f32⟩
  | .hbm, ⟨40, _⟩ => ⟨S_, .f32⟩
  | .hbm, ⟨41, _⟩ => ⟨S400000, .f32⟩
  | .hbm, ⟨42, _⟩ => ⟨S400000, .f32⟩
  | .hbm, ⟨43, _⟩ => ⟨S400000, .f32⟩
  | .hbm, ⟨44, _⟩ => ⟨S400000, .f32⟩
  | .hbm, ⟨45, _⟩ => ⟨S_, .f32⟩
  | .hbm, ⟨46, _⟩ => ⟨S400000, .f32⟩
  | .hbm, ⟨47, _⟩ => ⟨S400000, .f32⟩
  | .hbm, ⟨48, _⟩ => ⟨S_, .f32⟩
  | .hbm, ⟨49, _⟩ => ⟨S400000, .f32⟩
  | .hbm, ⟨50, _⟩ => ⟨S400000, .f32⟩
  | .hbm, ⟨51, _⟩ => ⟨S_, .i32⟩
  | .hbm, ⟨52, _⟩ => ⟨S400000, .i32⟩
  | .hbm, ⟨53, _⟩ => ⟨S400000, .i1⟩
  | .hbm, ⟨54, _⟩ => ⟨S400000, .f32⟩
  | .hbm, ⟨55, _⟩ => ⟨S_, .f32⟩
  | .hbm, ⟨56, _⟩ => ⟨S400000, .f32⟩
  | .hbm, ⟨57, _⟩ => ⟨S400000, .f32⟩
  | .hbm, ⟨58, _⟩ => ⟨S400000, .f32⟩
  | .hbm, ⟨59, _⟩ => ⟨S400000, .f32⟩
  | .hbm, ⟨60, _⟩ => ⟨S400000, .f32⟩
  | .hbm, ⟨61, _⟩ => ⟨S_, .f32⟩
  | .hbm, ⟨62, _⟩ => ⟨S_, .f32⟩
  | .hbm, ⟨63, _⟩ => ⟨S400000, .f32⟩
  | .hbm, ⟨64, _⟩ => ⟨S400000, .f32⟩
  | .hbm, ⟨65, _⟩ => ⟨S400000, .f32⟩
  | .hbm, ⟨66, _⟩ => ⟨S400000, .f32⟩
  | .hbm, ⟨67, _⟩ => ⟨S400000, .f32⟩
  | .hbm, ⟨68, _⟩ => ⟨S_, .f32⟩
  | .hbm, ⟨69, _⟩ => ⟨S400000, .f32⟩
  | .hbm, ⟨70, _⟩ => ⟨S400000, .f32⟩
  | .hbm, ⟨71, _⟩ => ⟨S_, .f32⟩
  | .hbm, ⟨72, _⟩ => ⟨S400000, .f32⟩
  | .hbm, ⟨73, _⟩ => ⟨S400000, .f32⟩
  | .hbm, ⟨74, _⟩ => ⟨S400000, .f32⟩
  | .hbm, ⟨75, _⟩ => ⟨S400000, .f32⟩
  | .hbm, ⟨76, _⟩ => ⟨S400000, .f32⟩
  | .hbm, ⟨77, _⟩ => ⟨S400000, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_cst_9 : Ref sig .tc := ⟨.hbm, 62, rfl⟩
abbrev main_call1_v0 : Ref sig .tc := ⟨.hbm, 63, rfl⟩
abbrev main_call1_v1 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  transposes_S64x256_S256x64_1_0 : S64x256.Transposes [1, 0] S256x64
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  concatenates_S400000x64_S400000x64_S400000x64_S400000x192_d1 : Shape.Concatenates [S400000x64, S400000x64, S400000x64] S400000x192 1
  transposes_S1x192_S192x1_1_0 : S1x192.Transposes [1, 0] S192x1
  shapeCasts_S400000x1_S400000 : S400000x1.ShapeCasts S400000
  reducesTo_S400000_S_d0 : S400000.ReducesTo [0] S_
  h_S_ : 0 < S_.numel
  dot_S100000x256_S256x64_S100000x64_1_0_0_1_n_n_wf : DotDims.WF S100000x256 S256x64 S100000x64 [1] [0] [0] [1] [] []
  gather_S100000x64_S400000x1_S400000x64_1_0_n_n_0_1_164_wf : GatherDims.WF S100000x64 S400000x1 S400000x64 [1] [0] [] [0] [] 1 ![1, 64]
  dot_S400000x192_S192x1_S400000x1_1_0_0_1_n_n_wf : DotDims.WF S400000x192 S192x1 S400000x1 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def dot_S400000x192_S192x1_S400000x1_1_0_0_1_n_n : DotDims S400000x192 S192x1 S400000x1 where
  lhsContracting := [1]
  rhsContracting := [0]
  lhsNonContracting := [0]
  rhsNonContracting := [1]
  lhsBatch := []
  rhsBatch := []
  wf := dot_S400000x192_S192x1_S400000x1_1_0_0_1_n_n_wf

class Facts : Prop extends Facts₀ where

variable [Facts]
-- ==== Proof.KernelRun.lean ====
/-
  The kernel program's run with its two results named: every weakly fair execution ends with the score result and the
  mean result holding what the last segment boundary's contents say, and the six arguments as launched. The contents at
  the last boundary are a fold through the program's segments (host stretches and the two regions), so the results are
  whatever that fold leaves in the two result buffers.
-/
import proofs.«117142_j87205015978654_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two results end at the last boundary's
    contents and the arguments end unchanged. -/
theorem run_main : θ_run defs (onTc (τ := τ) (main (F := F))) ⟨m, fun _ => 0, ρ⟩ (fun r => ∀ c : Dev nD,
      r.2.mem ((c.tc : Thread nD τ).loc main_v38) = W14 m ρ c (Proc.devRef .tc main_v38)
      ∧ r.2.mem ((c.tc : Thread nD τ).loc main_v43) = W14 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v38 (by decide)),
       h c _ (mem_uc main_v43 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KernelIdeal.Run

end
-- ==== Proof.Spec.lean ====
/-
  The edge scorer and its focal loss, as mathematics over the extended reals.

  N = 100000 nodes carry 256 features each (the array X); a linear map W_d : 256 → 64 projects them, and an edge
  (i, j) is scored from the projected rows h_i, h_j by a second linear map W_f on the 192 numbers (h_i, h_j, h_i − h_j),
  followed by the logistic function. Because both maps are linear, the pre-activation of an edge is also
  a(i) + b(j), where a = X·u and b = X·v for the two folded 256-vectors u = (w1 + w3)·W_d and v = (w2 − w3)·W_d
  (w1, w2, w3 the three 64-wide thirds of W_f). This file states both spellings, the per-edge focal loss in the two ways
  the programs write it (a square as a product or as a power with exponent 2; a negation as 0 − · or as −·), and the two
  spellings of the masked mean: over the 400000 edges, or over the 401408 entries of the arrays lengthened by 1408 zero
  words so that they cut into 49 blocks of 8192.
-/
import Idealize.ShloMosaic.PureOps.Ideal
import Idealize.ShloMosaic.Lib.ValueIdx

noncomputable section

open scoped BigOperators

namespace Cert.EdgeFocal

open Idealize.ShloMosaic Idealize.ShloMosaic.ValueIdx

/-- The node an index word names: a negative word counts from the end (the node count is added to it), and the word,
    read as a signed integer, is then clamped into [0, 99999]. -/
def node (w : BitVec 32) : Fin 100000 :=
  ⟨min (Scalar.select (IntOp.cmpi .slt w 0#32) (IntOp.addi w 100000#32) w).toInt.toNat 99999, by omega⟩

/-- An array of 400000 words lengthened to 401408 entries by zero words. -/
def padW {w : Nat} (v : Fin 400000 → BitVec w) (e : Fin 401408) : BitVec w :=
  if h : e.val < 400000 then v ⟨e.val, h⟩ else 0

/-- Position c of the first, second and third 64-wide third of the 192 scoring weights. -/
abbrev third0 (c : Fin 64) : Fin 192 := ⟨c.val, by omega⟩
abbrev third1 (c : Fin 64) : Fin 192 := ⟨64 + c.val, by omega⟩
abbrev third2 (c : Fin 64) : Fin 192 := ⟨128 + c.val, by omega⟩

section Arrays
variable (x : FVec Ideal ⟨2, ![100000, 256]⟩ .f32) (wd : FVec Ideal ⟨2, ![64, 256]⟩ .f32) (wf : FVec Ideal ⟨2, ![1, 192]⟩ .f32)
  (ei : IVec ⟨2, ![2, 400000]⟩ 32) (lab : IVec ⟨1, ![400000]⟩ 32) (msk : IVec ⟨1, ![400000]⟩ 1)

/-! ## The folded spelling -/

/-- The folded weights: column 0 is (w1 + w3)·W_d, column 1 is (w2 − w3)·W_d, each a 256-vector. -/
def foldedW (k : Fin 256) (q : Fin 2) : EReal :=
  if q.val = 0 then ∑ c : Fin 64, (wf (ix2 0 (third0 c)) + wf (ix2 0 (third2 c))) * wd (ix2 c k)
  else ∑ c : Fin 64, (wf (ix2 0 (third1 c)) - wf (ix2 0 (third2 c))) * wd (ix2 c k)

/-- The two per-node scalars: a(r) in column 0 and b(r) in column 1. -/
def nodeScalar (r : Fin 100000) (q : Fin 2) : EReal := ∑ k : Fin 256, x (ix2 r k) * foldedW wd wf k q

/-- The end-point words of entry e of the lengthened edge list: row 0 the source, row 1 the target. -/
def endWord (row : Fin 2) (e : Fin 401408) : BitVec 32 := padW (fun e' => ei (ix2 row e')) e

/-- The score of entry e of the lengthened edge list, folded spelling. -/
def scoreK (e : Fin 401408) : EReal :=
  Ideal.logistic (nodeScalar x wd wf (node (endWord ei 0 e)) 0 + nodeScalar x wd wf (node (endWord ei 1 e)) 1)

/-! ## The spelling through the projected rows -/

/-- Row r of the projection h = X·W_dᵀ. -/
def projected (r : Fin 100000) (c : Fin 64) : EReal := ∑ k : Fin 256, x (ix2 r k) * wd (ix2 c k)

/-- The 192 numbers an edge is scored from: h_i, h_j and h_i − h_j side by side. -/
def edgeFeature (e : Fin 400000) (j : Fin 192) : EReal :=
  if h0 : j.val < 64 then projected x wd (node (ei (ix2 0 e))) ⟨j.val, h0⟩
  else if h1 : j.val < 128 then projected x wd (node (ei (ix2 1 e))) ⟨j.val - 64, by omega⟩
  else projected x wd (node (ei (ix2 0 e))) ⟨j.val - 128, by omega⟩ - projected x wd (node (ei (ix2 1 e))) ⟨j.val - 128, by omega⟩

/-- The score of edge e, spelt through the projected rows. -/
def scoreR (e : Fin 400000) : EReal := Ideal.logistic (∑ j : Fin 192, edgeFeature x wd ei e j * wf (ix2 0 j))

end Arrays

/-! ## One edge's focal loss -/

/-- The log-probability of the labelled class from an edge's score s: p is the logistic of s once more, and the class is
    "label word equals 1". -/
def logPt (s : EReal) (lab : BitVec 32) : EReal :=
  Scalar.select (IntOp.cmpi .eq lab 1#32) (Ideal.log (Ideal.logistic s))
    (Ideal.log (Ideal.ofBits .f32 0x3F800000#32 - Ideal.logistic s))

/-- The class weight: 0.75 for the class "label word equals 1", else 0.25. -/
def classW (lab : BitVec 32) : EReal :=
  Scalar.select (IntOp.cmpi .eq lab 1#32) (Ideal.ofBits .f32 0x3F400000#32) (Ideal.ofBits .f32 0x3E800000#32)

/-- The loss with the square written as a product and the negation as 0 − ·. -/
def lossK (s : EReal) (lab : BitVec 32) : EReal :=
  (Ideal.ofBits .f32 0x00000000#32
      - (Ideal.ofBits .f32 0x3F800000#32 - Ideal.exp (logPt s lab)) * (Ideal.ofBits .f32 0x3F800000#32 - Ideal.exp (logPt s lab)))
    * (logPt s lab * classW lab)

/-- The loss with the square written as a power with exponent 2 and the negation as −·. -/
def lossR (s : EReal) (lab : BitVec 32) : EReal :=
  (-(Ideal.pow (Ideal.ofBits .f32 0x3F800000#32 - Ideal.exp (logPt s lab)) (Ideal.ofBits .f32 0x40000000#32)))
    * (logPt s lab * classW lab)

/-! ## The masked mean, in the two spellings -/

section Means
variable (x : FVec Ideal ⟨2, ![100000, 256]⟩ .f32) (wd : FVec Ideal ⟨2, ![64, 256]⟩ .f32) (wf : FVec Ideal ⟨2, ![1, 192]⟩ .f32)
  (ei : IVec ⟨2, ![2, 400000]⟩ 32) (lab : IVec ⟨1, ![400000]⟩ 32) (msk : IVec ⟨1, ![400000]⟩ 1)

/-- The label word of entry e of the lengthened list. -/
def labWord (e : Fin 401408) : BitVec 32 := padW (fun e' => lab (ix1 e')) e
/-- The mask of entry e of the lengthened list, as a 32-bit word (0 or 1). -/
def maskWord (e : Fin 401408) : BitVec 32 := padW (fun e' => (msk (ix1 e')).setWidth 32) e
/-- That word as a number. -/
def maskNum (e : Fin 401408) : EReal := (((maskWord msk e).toInt : ℝ) : EReal)

/-- The sum of the masked losses over the lengthened list. -/
def lossSumK : EReal := ∑ e : Fin 401408, lossK (scoreK x wd wf ei e) (labWord lab e) * maskNum msk e
/-- The number of masked entries of the lengthened list. -/
def maskSumK : EReal := ∑ e : Fin 401408, maskNum msk e
/-- The mean over the masked entries, guarded: 0 when no entry is masked. -/
def meanK : EReal :=
  Scalar.select (Ideal.cmp .ogt (maskSumK msk) (Ideal.ofBits .f32 0x00000000#32))
    (Ideal.div (lossSumK x wd wf ei lab msk) (maskSumK msk)) (Ideal.ofBits .f32 0x00000000#32)

/-- The mean over the masked edges, unguarded, each sum started from the zero word. -/
def meanR : EReal :=
  Ideal.div
    (Ideal.ofBits .f32 0x00000000#32
      + ∑ e : Fin 400000, lossR (scoreR x wd wf ei e) (lab (ix1 e)) * (((msk (ix1 e)).toNat : ℝ) : EReal))
    (Ideal.ofBits .f32 0x00000000#32 + ∑ e : Fin 400000, (((msk (ix1 e)).toNat : ℝ) : EReal))

end Means

/-! ## The same, as whole arrays

Each function below names one array that a program holds at some stage, as a function of the arrays before it. -/

section WholeArrays

/-- The coordinate of a rank-1 index, as a number below the literal extent. -/
abbrev co1 {n : Nat} (e : (⟨1, ![n]⟩ : Shape).Idx) : Fin n := ⟨(e 0).val, (e 0).isLt⟩
/-- The two coordinates of a rank-2 index. -/
abbrev co2a {n0 n1 : Nat} (j : (⟨2, ![n0, n1]⟩ : Shape).Idx) : Fin n0 := ⟨(j 0).val, idx2_lt0 j⟩
abbrev co2b {n0 n1 : Nat} (j : (⟨2, ![n0, n1]⟩ : Shape).Idx) : Fin n1 := ⟨(j 1).val, idx2_lt1 j⟩

/-- The product of the 100000×256 features with a 256×2 weight matrix. -/
def prodAB (x : FVec Ideal ⟨2, ![100000, 256]⟩ .f32) (w : FVec Ideal ⟨2, ![256, 2]⟩ .f32) : FVec Ideal ⟨2, ![100000, 2]⟩ .f32 :=
  fun j => ∑ k : Fin 256, x (ix2 (co2a j) k) * w (ix2 k (co2b j))

/-- The folded weights as a 256×2 array. -/
def foldedArr (wd : FVec Ideal ⟨2, ![64, 256]⟩ .f32) (wf : FVec Ideal ⟨2, ![1, 192]⟩ .f32) : FVec Ideal ⟨2, ![256, 2]⟩ .f32 :=
  fun j => foldedW wd wf (co2a j) (co2b j)

/-- Column q of a 100000×2 array read at the node each entry of the lengthened edge list names in the given row. -/
def gatherCol (ab : FVec Ideal ⟨2, ![100000, 2]⟩ .f32) (ei : IVec ⟨2, ![2, 400000]⟩ 32) (row q : Fin 2) : FVec Ideal ⟨1, ![401408]⟩ .f32 :=
  fun e => ab (ix2 (node (endWord ei row (co1 e))) q)

/-- The lengthened label array. -/
def labArr (lab : IVec ⟨1, ![400000]⟩ 32) : IVec ⟨1, ![401408]⟩ 32 := fun e => labWord lab (co1 e)
/-- The lengthened mask array, in 32-bit words. -/
def maskArr (msk : IVec ⟨1, ![400000]⟩ 1) : IVec ⟨1, ![401408]⟩ 32 := fun e => maskWord msk (co1 e)

/-- The scores of the lengthened list from the two gathered scalars of each entry. -/
def edgeScores (ag bg : FVec Ideal ⟨1, ![401408]⟩ .f32) : FVec Ideal ⟨1, ![401408]⟩ .f32 :=
  fun e => Ideal.logistic (ag e + bg e)

/-- The sum over the lengthened list of loss × mask, as a 1×1 array. -/
def edgeLossSum (ag bg : FVec Ideal ⟨1, ![401408]⟩ .f32) (lb mk : IVec ⟨1, ![401408]⟩ 32) : FVec Ideal ⟨2, ![1, 1]⟩ .f32 :=
  fun _ => ∑ e : Fin 401408, lossK (Ideal.logistic (ag (ix1 e) + bg (ix1 e))) (lb (ix1 e)) * ((((mk (ix1 e)).toInt : ℝ)) : EReal)

/-- The sum over the lengthened list of the mask, as a 1×1 array. -/
def edgeMaskSum (mk : IVec ⟨1, ![401408]⟩ 32) : FVec Ideal ⟨2, ![1, 1]⟩ .f32 :=
  fun _ => ∑ e : Fin 401408, ((((mk (ix1 e)).toInt : ℝ)) : EReal)

/-- The first 400000 entries of a 401408-long array. -/
def firstEdges (sc : FVec Ideal ⟨1, ![401408]⟩ .f32) : FVec Ideal ⟨1, ![400000]⟩ .f32 :=
  fun e => sc (ix1 ⟨(e 0).val, Nat.lt_trans (e 0).isLt (by decide)⟩)

/-- The guarded quotient of two 1×1 arrays, as a scalar array: 0 unless the divisor is positive. -/
def guardedMean (ls ms : FVec Ideal ⟨2, ![1, 1]⟩ .f32) : FVec Ideal ⟨0, ![]⟩ .f32 :=
  fun _ => Scalar.select (Ideal.cmp .ogt (ms (ix2 0 0)) (Ideal.ofBits .f32 0x00000000#32))
    (Ideal.div (ls (ix2 0 0)) (ms (ix2 0 0))) (Ideal.ofBits .f32 0x00000000#32)

variable (x : FVec Ideal ⟨2, ![100000, 256]⟩ .f32) (wd : FVec Ideal ⟨2, ![64, 256]⟩ .f32) (wf : FVec Ideal ⟨2, ![1, 192]⟩ .f32)
  (ei : IVec ⟨2, ![2, 400000]⟩ 32) (lab : IVec ⟨1, ![400000]⟩ 32) (msk : IVec ⟨1, ![400000]⟩ 1)

/-- The 400000 scores, folded spelling. -/
def scoresK : FVec Ideal ⟨1, ![400000]⟩ .f32 := fun e => scoreK x wd wf ei ⟨(e 0).val, Nat.lt_trans (e 0).isLt (by decide)⟩
/-- The guarded mean, folded spelling, as a scalar array. -/
def meanArrK : FVec Ideal ⟨0, ![]⟩ .f32 := fun _ => meanK x wd wf ei lab msk
/-- The 400000 scores, spelt through the projected rows. -/
def scoresR : FVec Ideal ⟨1, ![400000]⟩ .f32 := fun e => scoreR x wd wf ei (co1 e)
/-- The unguarded mean, as a scalar array. -/
def meanArrR : FVec Ideal ⟨0, ![]⟩ .f32 := fun _ => meanR x wd wf ei lab msk

end WholeArrays

end Cert.EdgeFocal

end
-- ==== Proof.LibPlainMatmul.lean ====
/-
  A matrix product with plain dimension numbers, read at an entry, at the exact reading of floats as extended reals.

  `tpu.matmul` of an m×k by a k×n matrix (contracting the left operand's axis 1 with the right operand's axis 0, no
  batch axes) accumulated into the zero splat is, at entry (a, b), the sum over c of A(a, c)·B(c, b): the accumulator
  contributes `0 + ·` and nothing else, so the equation holds at the infinities too. Beside it, the one float word a
  bias row of ones needs: the f32 pattern of 1.0 reads as the number 1.
-/
import Idealize.ShloMosaic.Lib.StackMember
import Idealize.ShloMosaic.PureOps.IdealRules

noncomputable section

open scoped BigOperators

namespace Idealize.ShloMosaic.PlainMatmul

open Idealize.ShloMosaic Idealize.ShloMosaic.ValueIdx

/-- The product of an m×k by a k×n matrix accumulated into the zero splat, at entry (a, b), is the sum over the
    contracted coordinate c of A(a, c)·B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The f32 word of 1.0 denotes the number 1. -/
theorem ofBits_one_f32 : Ideal.ofBits .f32 0x3F800000#32 = 1 :=
  IdealRules.sign_bit.ideal_onePat .f32

end Idealize.ShloMosaic.PlainMatmul

end
-- ==== Proof.LibRowBlockProduct.lean ====
/-
  A block of rows of a matrix product, at the exact reading of floats as extended reals.

  Let X be an M×K matrix, W a K×N matrix, and let xb be a B×K matrix whose row p is row r of X. Then row p of the
  product xb·W, accumulated into the zero splat as a kernel's matrix unit does, is row r of the whole product X·W as
  the host's `dot_general` computes it: both are the sum over the contracted coordinate c of X(r, c)·W(c, b). The
  element formats of the operands play no part (a change of float format is the identity on extended reals), so the
  block may carry narrower formats than the whole matrices.
-/
import proofs.«117142_j87205015978654_2_alg».proof.Proof.LibPlainMatmul

noncomputable section

open scoped BigOperators

namespace Idealize.ShloMosaic.RowBlockProduct

open Idealize.ShloMosaic Idealize.ShloMosaic.ValueIdx

/-- Row `p` of `xb·wb` into the zero splat is row `r` of `X·W`, when row `p` of `xb` is row `r` of `X` and
    column `b` of `wb` is column `b` of `W`. -/
theorem matmul_rows_eq_dotGeneral {M K N B : Nat} {φ₁ φ₂ ψ₁ ψ₂ : FTy} (prec prec' : Option ContractPrecision)
    (X : FVec Ideal ⟨2, ![M, K]⟩ ψ₁) (W : FVec Ideal ⟨2, ![K, N]⟩ ψ₂)
    (xb : FVec Ideal ⟨2, ![B, K]⟩ φ₁) (wb : FVec Ideal ⟨2, ![K, N]⟩ φ₂)
    (p : Fin B) (r : Fin M) (b : Fin N)
    (hx : ∀ c : Fin K, (xb (ix2 p c) : EReal) = X (ix2 r c))
    (hw : ∀ c : Fin K, (wb (ix2 c b) : EReal) = W (ix2 c b)) :
    (matmul (DotDims.plain B K N) prec xb wb (constant ⟨2, ![B, N]⟩ .f32 0x00000000#32) (ix2 p b) : EReal)
      = Host.dotGeneral (DotDims.plain M K N) prec' X W (ix2 r b) := by
  rw [PlainMatmul.matmul_plain_zero_apply, StackMember.dotGeneral_plain_apply]
  exact Finset.sum_congr rfl fun c _ => by rw [hx c, hw c]

end Idealize.ShloMosaic.RowBlockProduct

end
-- ==== Proof.Region0.lean ====
/-
  The first kernel region: twenty blocks of 5000 rows of the node features, each multiplied by the 256×2 folded
  weights, written back block by block, leave the whole 100000×2 product.
-/
import proofs.«117142_j87205015978654_2_alg».proof.Proof.Gen.KernelIdeal.Frame
import proofs.«117142_j87205015978654_2_alg».proof.Proof.Spec
import proofs.«117142_j87205015978654_2_alg».proof.Proof.LibRowBlockProduct
import Idealize.ShloMosaic.Lib.Pipeline.Value
import Idealize.ShloMosaic.PureOps.Ideal.Laws

noncomputable section

open scoped BigOperators

namespace Cert.KernelIdeal.RegionAB

open Cert.KernelIdeal Cert.KernelIdeal.Gen Cert.EdgeFocal
open Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-block access. -/
theorem zero_offsets : (![0, 0] : Fin 2 → Nat) = fun _ => 0 := funext fun a => by fin_cases a <;> rfl

/-- The product's dimension numbers are the plain ones: rows by columns, one contracted axis. -/
theorem dims_plain : dot_S5000x256_S256x2_S5000x2_1_0_0_1_n_n = DotDims.plain 5000 256 2 := rfl

/-- One entry of a block's product: the sum over the contracted coordinate. -/
theorem pay_apply (x0 : Vec Ideal S5000x256 .f32) (x1 : Vec Ideal S256x2 .f32) (p : Fin 5000) (q : Fin 2) :
    k0_pay1 (F := Ideal) x0 x1 (ix2 p q) = ∑ k : Fin 256, x0 (ix2 p k) * x1 (ix2 k q) := by
  unfold k0_pay1
  rw [shapeCast_self, dims_plain]
  exact PlainMatmul.matmul_plain_zero_apply none _ _ p q

/-- A block's product is rows 5000·n … 5000·n + 4999 of the whole product, when the block of features is those rows of
    the features and the block of weights is the weights. -/
theorem pay_eq_prod (X : FVec Ideal ⟨2, ![100000, 256]⟩ .f32) (W : FVec Ideal ⟨2, ![256, 2]⟩ .f32)
    (x0 : Vec Ideal S5000x256 .f32) (x1 : Vec Ideal S256x2 .f32) (n : Nat)
    (hx0 : ∀ (y : S5000x256.Idx) (i : S100000x256.Idx), (i 0).val = n * 5000 + (y 0).val → (i 1).val = (y 1).val → x0 y = X i)
    (hx1 : ∀ y : S256x2.Idx, x1 y = W y)
    (j : S5000x2.Idx) (i : S100000x2.Idx) (hi0 : (i 0).val = n * 5000 + (j 0).val) (hi1 : (i 1).val = (j 1).val) :
    k0_pay1 (F := Ideal) x0 x1 j = prodAB X W i := by
  obtain ⟨p, q, rfl⟩ : ∃ (p : Fin 5000) (q : Fin 2), j = ix2 p q := ⟨j 0, j 1, eq_ix2 j⟩
  rw [pay_apply]
  unfold prodAB
  refine Finset.sum_congr rfl fun k _ => ?_
  rw [hx0 (ix2 p k) (ix2 (co2a i) k) hi0 rfl, hx1]
  have hq : q = co2b i := Fin.ext hi1.symm
  rw [hq]

/-- The block indices at each of the twenty points: the feature and product blocks move down with the point, the
    weight block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t is rows 5000·t … of the features. -/
theorem blk_x (c : Dev nD) (t : Fin cfg0.N) (y : S5000x256.Idx) (i : S100000x256.Idx)
    (h0 : (i 0).val = t.val * 5000 + (y 0).val) (h1 : (i 1).val = (y 1).val) :
    (iblk0 (F := Ideal) V c 0 t : Vec Ideal S5000x256 .f32) y = (V c main_arg0 : S100000x256.Idx → Elt Ideal .f32) i := by
  obtain ⟨e0, e1, -⟩ := idx_facts t
  unfold iblk0
  rw [View.read_apply]
  show V c main_arg0 (((cfg0.win 0).blk t).view.emb y) = V c main_arg0 i
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 256 + 1 * (y 1).val = (i 1).val; rw [e1, h1]; omega

/-- The weight block at every point is the weights. -/
theorem blk_w (c : Dev nD) (t : Fin cfg0.N) (y : S256x2.Idx) :
    (iblk0 (F := Ideal) V c 1 t : Vec Ideal S256x2 .f32) y = (V c main_v8 : S256x2.Idx → Elt Ideal .f32) y := by
  obtain ⟨-, -, e2, e3, -⟩ := idx_facts t
  unfold iblk0
  rw [View.read_apply]
  show V c main_v8 (((cfg0.win 1).blk t).view.emb y) = V c main_v8 y
  congr 1
  funext a
  apply Fin.ext
  match a with
  | ⟨0, _⟩ => show win0_1.index t (0 : Fin 2) * 256 + 1 * (y 0).val = (y 0).val; rw [e2]; omega
  | ⟨1, _⟩ => show win0_1.index t (1 : Fin 2) * 2 + 1 * (y 1).val = (y 1).val; rw [e3]; omega

/-- What point t writes back is block t of the whole product. -/
theorem flushed_eq (c : Dev nD) (t : Fin cfg0.N) :
    (dat0 (F := Ideal) V c).flushed 2 t = ((cfg0.win 2).blk t).view.read (Elt Ideal) (prodAB (V c main_arg0) (V c main_v8)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x2) zero_offsets]
  obtain ⟨-, -, -, -, e4, e5⟩ := idx_facts t
  funext j
  show k0_pay1 (iblk0 V c 0 t) (iblk0 V c 1 t) j = prodAB (V c main_arg0) (V c main_v8) (((cfg0.win 2).blk t).view.emb j)
  refine pay_eq_prod _ _ _ _ t.val (fun y i h0 h1 => blk_x V c t y i h0 h1) (fun y => blk_w V c t y) j _ ?_ ?_
  · show win0_2.index t (0 : Fin 2) * 5000 + 1 * (j 0).val = _; rw [e4]; omega
  · show win0_2.index t (1 : Fin 2) * 2 + 1 * (j 1).val = _; rw [e5]; omega

/-- An index of the product array is in point t's block iff each coordinate is in the block's range on its axis. -/
theorem mem_blk (t : Fin cfg0.N) (i : S100000x2.Idx) :
    i ∈ ((cfg0.win 2).blk t).view.set ↔ ∀ a : Fin 2, win0_2.index t a * S5000x2.size a ≤ (i a).val ∧ (i a).val < win0_2.index t a * S5000x2.size a + S5000x2.size a := by
  show i ∈ ((View.whole main_v9).slice (win0_2.rect t)).set ↔ _
  rw [View.set_slice_whole, Rect.mem_set_unit]
  exact Iff.rfl

/-- Row r of the product array is in the block of point r / 5000. -/
theorem cover (i : S100000x2.Idx) : ∃ t : Fin cfg0.N, (cfg0.win 2).flush t = true ∧ i ∈ ((cfg0.win 2).blk t).view.set := by
  have hi0 : (i 0).val < 100000 := (i 0).isLt
  have hi1 : (i 1).val < 2 := (i 1).isLt
  have hN : grid0.N = 20 := N_0
  have ht : (i 0).val / 5000 < cfg0.N := by show _ < grid0.N; rw [hN]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 2 ≤ (i 1).val ∧ (i 1).val < win0_2.index ⟨(i 0).val / 5000, ht⟩ (1 : Fin 2) * 2 + 2
    rw [e5]; omega

/-- After the first region the product array holds, at (r, q), the sum over k of X(r, k)·W(k, q): block t of the
    array is rows 5000·t … 5000·t + 4999 of the product, and the twenty blocks cover it. -/
theorem arr_ab (c : Dev nD) :
    (dat0 (F := Ideal) V c).arrAt 2 cfg0.N = prodAB (V c main_arg0) (V c main_v8) :=
  (dat0 V c).arrAt_eq_of_cover 2 (prodAB (V c main_arg0) (V c main_v8)) (fun t _ => flushed_eq V c t) cover

end Cert.KernelIdeal.RegionAB

end
-- ==== Proof.Region1Pay.lean ====
/-
  Regrouping a sum over the 401408 entries of the lengthened edge list into its 49 blocks of 8192: the sum over the
  first n blocks, entry by entry, grows by one block's sum at a time, and after 49 blocks it is the whole sum.
-/
import Mathlib.Data.EReal.Operations
import Mathlib.Algebra.BigOperators.Fin
import Mathlib.Algebra.BigOperators.Intervals

noncomputable section

open scoped BigOperators

namespace Cert.KernelIdeal.EdgePay

/-- A function on the 401408 entries continued by zero to every natural number. -/
def ext0 (f : Fin 401408 → EReal) (e : ℕ) : EReal := if h : e < 401408 then f ⟨e, h⟩ else 0

/-- Below 401408 the continuation is the function. -/
theorem ext0_of_lt (f : Fin 401408 → EReal) {e : ℕ} (h : e < 401408) : ext0 f e = f ⟨e, h⟩ := dif_pos h

/-- The sum over the first n blocks plus the sum over block n is the sum over the first n + 1 blocks. -/
theorem ext0_block (f : Fin 401408 → EReal) (n : ℕ) (hn : n < 49) :
    (∑ e ∈ Finset.range (n * 8192), ext0 f e) + ∑ k : Fin 8192, f ⟨8192 * n + k.val, by omega⟩
      = ∑ e ∈ Finset.range ((n + 1) * 8192), ext0 f e := by
  have hb : ∑ k : Fin 8192, f ⟨8192 * n + k.val, by omega⟩ = ∑ k ∈ Finset.range 8192, ext0 f (n * 8192 + k) := by
    rw [← Fin.sum_univ_eq_sum_range (fun k => ext0 f (n * 8192 + k)) 8192]
    refine Finset.sum_congr rfl fun k _ => ?_
    have hk : n * 8192 + k.val < 401408 := by omega
    rw [ext0_of_lt f hk]
    exact congrArg f (Fin.ext (by show 8192 * n + k.val = n * 8192 + k.val; omega))
  rw [hb, Nat.add_mul, Nat.one_mul, Finset.sum_range_add]

/-- The first block's sum, started from zero, is the sum over the first 8192 entries. -/
theorem ext0_first (f : Fin 401408 → EReal) :
    (0 : EReal) + ∑ k : Fin 8192, f ⟨8192 * 0 + k.val, by omega⟩ = ∑ e ∈ Finset.range ((0 + 1) * 8192), ext0 f e := by
  have h := ext0_block f 0 (by omega)
  have h0 : ∑ e ∈ Finset.range (0 * 8192), ext0 f e = 0 := Finset.sum_range_zero _
  rw [h0] at h
  exact h

/-- The sum over all 49 blocks is the sum over the 401408 entries. -/
theorem ext0_total (f : Fin 401408 → EReal) :
    ∑ e ∈ Finset.range ((48 + 1) * 8192), ext0 f e = ∑ e : Fin 401408, f e := by
  rw [show (48 + 1) * 8192 = 401408 from rfl, ← Fin.sum_univ_eq_sum_range (ext0 f) 401408]
  exact Finset.sum_congr rfl fun e _ => ext0_of_lt f e.isLt

/-- The sum over the first n blocks, block by block, is the sum over their entries. -/
theorem sum_range_blocks (f : Fin 401408 → EReal) (n : ℕ) (hn : n ≤ 49) :
    ∑ t ∈ Finset.range n, ∑ k : Fin 8192, ext0 f (8192 * t + k.val) = ∑ e ∈ Finset.range (n * 8192), ext0 f e := by
  induction n with
  | zero => rw [Nat.zero_mul, Finset.range_zero, Finset.sum_empty, Finset.sum_empty]
  | succ n ih =>
    rw [Finset.sum_range_succ, ih (by omega), ← ext0_block f n (by omega)]
    refine congrArg _ (Finset.sum_congr rfl fun k _ => ?_)
    exact ext0_of_lt f (by omega)

/-- The 49 blocks' sums add up to the sum over the 401408 entries. -/
theorem sum_blocks (f : Fin 401408 → EReal) :
    ∑ t : Fin 49, ∑ k : Fin 8192, f ⟨8192 * t.val + k.val, by omega⟩ = ∑ e : Fin 401408, f e := by
  rw [← ext0_total f, ← sum_range_blocks f (48 + 1) (by omega),
    ← Fin.sum_univ_eq_sum_range (fun t => ∑ k : Fin 8192, ext0 f (8192 * t + k.val)) 49]
  refine Finset.sum_congr rfl fun t _ => Finset.sum_congr rfl fun k _ => ?_
  exact (ext0_of_lt f (by omega)).symm

end Cert.KernelIdeal.EdgePay

end
-- ==== Proof.Region1Pieces.lean ====
/-
  The second kernel region's body, read as values: what each of its two control cases leaves in the three output
  buffers, as a function of the four input blocks and the old accumulators; and that arithmetic at the extended reals,
  entry by entry.
-/
import proofs.«117142_j87205015978654_2_alg».proof.Proof.Gen.KernelIdeal.Frame
import proofs.«117142_j87205015978654_2_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.RegionEdges

open Cert.KernelIdeal Cert.KernelIdeal.Gen Cert.EdgeFocal
open Idealize.ShloMosaic Idealize.ShloMosaic.TcCoe Idealize.ShloMosaic.ValueIdx Idealize.SL.Sem

section Pieces
variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl

/-- At the first block the score buffer is left at the block's scores. -/
theorem outA4 (c : Dev nD) (i : grid1.Coords) (a1 : Memref sig .tc .vmem S8192 .f32) (h1 : a1.IsWhole) (a2 : Memref sig .tc .vmem S8192 .f32) (h2 : a2.IsWhole) (a3 : Memref sig .tc .vmem S8192 .i32) (h3 : a3.IsWhole) (a4 : Memref sig .tc .vmem S8192 .i32) (h4 : a4.IsWhole) (a5 : Memref sig .tc .vmem S8192 .f32) (h5 : a5.IsWhole) (a6 : Memref sig .tc .vmem S1x1 .f32) (h6 : a6.IsWhole) (a7 : Memref sig .tc .vmem S1x1 .f32) (h7 : a7.IsWhole) (hc : cond1_0 i)
    (x0 x1 : Vec F S8192 .f32) (x2 x3 : Vec F S8192 .i32) :
    out1_A_4 c i a1 h1 a2 h2 a3 h3 a4 h4 a5 h5 a6 h6 a7 h7 hc x0 x1 x2 x3 = k1_pay4 x0 x1 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  sl_unfold_words
  rw [View.canon_unit_zero hz1]
  simp only [View.readAt_eq_ld, h1.read_unread, h2.read_unread, View.ld_unit_zero (S := S8192) hz1]

/-- At the first block the loss accumulator is left at the block's masked loss sum added to the zero just stored. -/
theorem outA5 (c : Dev nD) (i : grid1.Coords) (a1 : Memref sig .tc .vmem S8192 .f32) (h1 : a1.IsWhole) (a2 : Memref sig .tc .vmem S8192 .f32) (h2 : a2.IsWhole) (a3 : Memref sig .tc .vmem S8192 .i32) (h3 : a3.IsWhole) (a4 : Memref sig .tc .vmem S8192 .i32) (h4 : a4.IsWhole) (a5 : Memref sig .tc .vmem S8192 .f32) (h5 : a5.IsWhole) (a6 : Memref sig .tc .vmem S1x1 .f32) (h6 : a6.IsWhole) (a7 : Memref sig .tc .vmem S1x1 .f32) (h7 : a7.IsWhole) (hc : cond1_0 i)
    (x0 x1 : Vec F S8192 .f32) (x2 x3 : Vec F S8192 .i32) :
    out1_A_5 c i a1 h1 a2 h2 a3 h3 a4 h4 a5 h5 a6 h6 a7 h7 hc x0 x1 x2 x3 = k1_pay6 x0 x1 x2 x3 (k1_pay2 (F := F)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x1) hz2, View.readCov_unit_zero (S := S1x1) _ hz2]
  simp only [View.readAt_eq_ld, h1.read_unread, h2.read_unread, h3.read_unread, h4.read_unread, View.ld_unit_zero (S := S8192) hz1]

/-- At the first block the mask accumulator is left at the block's mask sum added to the zero just stored. -/
theorem outA6 (c : Dev nD) (i : grid1.Coords) (a1 : Memref sig .tc .vmem S8192 .f32) (h1 : a1.IsWhole) (a2 : Memref sig .tc .vmem S8192 .f32) (h2 : a2.IsWhole) (a3 : Memref sig .tc .vmem S8192 .i32) (h3 : a3.IsWhole) (a4 : Memref sig .tc .vmem S8192 .i32) (h4 : a4.IsWhole) (a5 : Memref sig .tc .vmem S8192 .f32) (h5 : a5.IsWhole) (a6 : Memref sig .tc .vmem S1x1 .f32) (h6 : a6.IsWhole) (a7 : Memref sig .tc .vmem S1x1 .f32) (h7 : a7.IsWhole) (hc : cond1_0 i)
    (x0 x1 : Vec F S8192 .f32) (x2 x3 : Vec F S8192 .i32) :
    out1_A_6 c i a1 h1 a2 h2 a3 h3 a4 h4 a5 h5 a6 h6 a7 h7 hc x0 x1 x2 x3 = k1_pay1 (k1_pay5 x3) (k1_pay3 (F := F)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x1) hz2, View.readCov_unit_zero (S := S1x1) _ hz2]
  simp only [View.readAt_eq_ld, h4.read_unread, View.ld_unit_zero (S := S8192) hz1]

/-- At a later block the score buffer is left at the block's scores. -/
theorem outB4 (c : Dev nD) (i : grid1.Coords) (a1 : Memref sig .tc .vmem S8192 .f32) (h1 : a1.IsWhole) (a2 : Memref sig .tc .vmem S8192 .f32) (h2 : a2.IsWhole) (a3 : Memref sig .tc .vmem S8192 .i32) (h3 : a3.IsWhole) (a4 : Memref sig .tc .vmem S8192 .i32) (h4 : a4.IsWhole) (a5 : Memref sig .tc .vmem S8192 .f32) (h5 : a5.IsWhole) (a6 : Memref sig .tc .vmem S1x1 .f32) (h6 : a6.IsWhole) (a7 : Memref sig .tc .vmem S1x1 .f32) (h7 : a7.IsWhole) (hc : ¬cond1_0 i)
    (x0 x1 : Vec F S8192 .f32) (x2 x3 : Vec F S8192 .i32) (xo5 xo6 : Vec F S1x1 .f32) :
    out1_B_4 c i a1 h1 a2 h2 a3 h3 a4 h4 a5 h5 a6 h6 a7 h7 hc x0 x1 x2 x3 xo5 xo6 = k1_pay4 x0 x1 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  sl_unfold_words
  rw [View.canon_unit_zero hz1]
  simp only [View.readAt_eq_ld, h1.read_unread, h2.read_unread, View.ld_unit_zero (S := S8192) hz1]

/-- At a later block the loss accumulator gains the block's masked loss sum. -/
theorem outB5 (c : Dev nD) (i : grid1.Coords) (a1 : Memref sig .tc .vmem S8192 .f32) (h1 : a1.IsWhole) (a2 : Memref sig .tc .vmem S8192 .f32) (h2 : a2.IsWhole) (a3 : Memref sig .tc .vmem S8192 .i32) (h3 : a3.IsWhole) (a4 : Memref sig .tc .vmem S8192 .i32) (h4 : a4.IsWhole) (a5 : Memref sig .tc .vmem S8192 .f32) (h5 : a5.IsWhole) (a6 : Memref sig .tc .vmem S1x1 .f32) (h6 : a6.IsWhole) (a7 : Memref sig .tc .vmem S1x1 .f32) (h7 : a7.IsWhole) (hc : ¬cond1_0 i)
    (x0 x1 : Vec F S8192 .f32) (x2 x3 : Vec F S8192 .i32) (xo5 xo6 : Vec F S1x1 .f32) :
    out1_B_5 c i a1 h1 a2 h2 a3 h3 a4 h4 a5 h5 a6 h6 a7 h7 hc x0 x1 x2 x3 xo5 xo6 = k1_pay6 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  sl_unfold_words
  rw [View.canon_unit_zero hz2]
  simp only [View.readAt_eq_ld, h1.read_unread, h2.read_unread, h3.read_unread, h4.read_unread, h6.read_unread, View.ld_unit_zero (S := S8192) hz1, View.ld_unit_zero (S := S1x1) hz2]

/-- At a later block the mask accumulator gains the block's mask sum. -/
theorem outB6 (c : Dev nD) (i : grid1.Coords) (a1 : Memref sig .tc .vmem S8192 .f32) (h1 : a1.IsWhole) (a2 : Memref sig .tc .vmem S8192 .f32) (h2 : a2.IsWhole) (a3 : Memref sig .tc .vmem S8192 .i32) (h3 : a3.IsWhole) (a4 : Memref sig .tc .vmem S8192 .i32) (h4 : a4.IsWhole) (a5 : Memref sig .tc .vmem S8192 .f32) (h5 : a5.IsWhole) (a6 : Memref sig .tc .vmem S1x1 .f32) (h6 : a6.IsWhole) (a7 : Memref sig .tc .vmem S1x1 .f32) (h7 : a7.IsWhole) (hc : ¬cond1_0 i)
    (x0 x1 : Vec F S8192 .f32) (x2 x3 : Vec F S8192 .i32) (xo5 xo6 : Vec F S1x1 .f32) :
    out1_B_6 c i a1 h1 a2 h2 a3 h3 a4 h4 a5 h5 a6 h6 a7 h7 hc x0 x1 x2 x3 xo5 xo6 = k1_pay1 (k1_pay5 x3) xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  sl_unfold_words
  rw [View.canon_unit_zero hz2]
  simp only [View.readAt_eq_ld, h4.read_unread, h7.read_unread, View.ld_unit_zero (S := S8192) hz1, View.ld_unit_zero (S := S1x1) hz2]

end Pieces

section PayloadsAtIdeal

/-- The one index of a 1×1 array. -/
theorem idx11 (j : S1x1.Idx) : j = ix2 (0 : Fin 1) (0 : Fin 1) := by
  funext d
  apply Fin.ext
  match d with
  | ⟨0, _⟩ => have h : (j 0).val < 1 := (j 0).isLt; show (j 0).val = 0; omega
  | ⟨1, _⟩ => have h : (j 1).val < 1 := (j 1).isLt; show (j 1).val = 0; omega

/-- A vector of 8192 numbers laid as one row, summed along the row, the one sum laid as a 1×1 array and read at its one
    position: the sum of the 8192 numbers. -/
theorem rowTotal (v : FVec Ideal S8192 .f32) (h1 : S8192.ShapeCasts S1x8192) (h2 : S1x8192.Reduces [1] S1)
    (hφ : FKind.Formats .f32) (hacc : (0x00000000#32 : BitVec 32) = FKind.add.neutral .f32 hφ) (h3 : S1.ShapeCasts S1x1)
    (h4 : ∀ a, (![0, 0] : Fin 2 → Nat) a < S1x1.size a) :
    extractAt ![0, 0] (shapeCast S1x1 (multiReduction .add [1] S1 (shapeCast S1x8192 v h1) 0x00000000#32 h2 hφ hacc) h3) h4
      = ∑ k : Fin 8192, v (ix1 k) := by
  unfold extractAt
  have e : (fun a => ⟨(![0, 0] : Fin 2 → Nat) a, h4 a⟩ : S1x1.Idx) = ix2 (0 : Fin 1) (0 : Fin 1) := idx11 _
  rw [e]
  refine (shapeCast_a_1a_apply _ h3 (0 : Fin 1) (0 : Fin 1)).trans ?_
  refine (Ideal.multiReduction_add_single (shapeCast S1x8192 v h1) 0x00000000#32 h2 hφ hacc (ix1 (0 : Fin 1))).trans ?_
  refine Finset.sum_congr rfl fun k _ => ?_
  refine Eq.trans (congrArg (shapeCast S1x8192 v h1) ?_) (shapeCast_a_1a_apply v h1 (0 : Fin 1) k)
  funext d
  apply Fin.ext
  match d with
  | ⟨0, _⟩ => rfl
  | ⟨1, _⟩ => rfl

/-- The scores of a block, entry by entry. -/
theorem pay4_apply (x0 x1 : Vec Ideal S8192 .f32) (j : S8192.Idx) :
    k1_pay4 (F := Ideal) x0 x1 j = Ideal.logistic (x0 j + x1 j) := by
  unfold k1_pay4
  simp only [shapeCast_self]
  rfl

/-- The mask accumulator's step: the old value plus the block's sum of the mask words read as numbers. -/
theorem pay1_apply (x3 : Vec Ideal S8192 .i32) (acc : Vec Ideal S1x1 .f32) (j : S1x1.Idx) :
    k1_pay1 (F := Ideal) (k1_pay5 x3) acc j = acc j + ∑ k : Fin 8192, (((x3 (ix1 k)).toInt : ℝ) : EReal) := by
  unfold k1_pay1
  simp only [shapeCast_self]
  refine congrArg (acc j + ·) ?_
  refine (rowTotal (k1_pay5 (F := Ideal) x3) _ _ _ _ _ _).trans ?_
  refine Finset.sum_congr rfl fun k _ => ?_
  unfold k1_pay5
  simp only [shapeCast_self]
  rfl

/-- The loss accumulator's step: the old value plus the block's sum of loss × mask. -/
theorem pay6_apply (x0 x1 : Vec Ideal S8192 .f32) (x2 x3 : Vec Ideal S8192 .i32) (acc : Vec Ideal S1x1 .f32) (j : S1x1.Idx) :
    k1_pay6 (F := Ideal) x0 x1 x2 x3 acc j
      = acc j + ∑ k : Fin 8192, lossK (Ideal.logistic (x0 (ix1 k) + x1 (ix1 k))) (x2 (ix1 k)) * (((x3 (ix1 k)).toInt : ℝ) : EReal) := by
  unfold k1_pay6
  simp only [shapeCast_self]
  refine congrArg (acc j + ·) ?_
  refine (rowTotal _ _ _ _ _ _ _).trans ?_
  refine Finset.sum_congr rfl fun k _ => ?_
  unfold k1_pay5 k1_pay4
  simp only [shapeCast_self]
  rfl

/-- The zero the first block stores is the number 0. -/
theorem pay2_apply (j : S1x1.Idx) : k1_pay2 (F := Ideal) j = 0 := Ideal.ofBits_zero_f32
theorem pay3_apply (j : S1x1.Idx) : k1_pay3 (F := Ideal) j = 0 := Ideal.ofBits_zero_f32

end PayloadsAtIdeal

end Cert.KernelIdeal.RegionEdges

end
-- ==== Proof.Region1Score.lean ====
/-
  The second kernel region's score array. Each of the forty-nine points writes back its block of 8192 scores; entry k of
  the block of point t is the logistic of the sum of entries 8192·t + k of the two gathered arrays; the forty-nine blocks
  tile the 401408 entries, so the array ends holding the score of every entry.
-/
import proofs.«117142_j87205015978654_2_alg».proof.Proof.Gen.KernelIdeal.Frame
import proofs.«117142_j87205015978654_2_alg».proof.Proof.Spec
import proofs.«117142_j87205015978654_2_alg».proof.Proof.Region1Pieces
import Idealize.ShloMosaic.Lib.Pipeline.Value
import Idealize.ShloMosaic.Lib.ValueLayout
import Idealize.ShloMosaic.PureOps.Ideal.Laws

noncomputable section

open scoped BigOperators

namespace Cert.KernelIdeal.RegionEdges

open Cert.KernelIdeal Cert.KernelIdeal.Gen Cert.EdgeFocal
open Idealize.ShloMosaic Idealize.ShloMosaic.TcCoe Idealize.ShloMosaic.ValueIdx Idealize.SL.Sem

variable (V : (c : Dev nD) → (b : Ref sig .tc) → Buf (Elt Ideal) ((c : Thread nD τ).loc b))

/-- The block indices at each of the forty-nine points: the blocks of the two gathered arrays and of the scores move
    along with the point. -/
theorem score_idx_facts : ∀ t : Fin cfg1.N, win1_0.index t (0 : Fin 1) = t.val ∧ win1_1.index t (0 : Fin 1) = t.val
    ∧ win1_4.index t (0 : Fin 1) = t.val :=
  (by decide +kernel : ∀ t : Fin grid1.N, _)

/-- The block of the first gathered array at point t is its entries 8192·t … 8192·t + 8191. -/
theorem score_blk_a (c : Dev nD) (t : Fin cfg1.N) (y : S8192.Idx) (i : S401408.Idx)
    (h0 : (i 0).val = t.val * 8192 + (y 0).val) :
    (iblk1 (F := Ideal) V c 0 t : Vec Ideal S8192 .f32) y = (V c main_v29 : S401408.Idx → Elt Ideal .f32) i := by
  obtain ⟨e0, -, -⟩ := score_idx_facts t
  unfold iblk1
  rw [View.read_apply]
  show V c main_v29 (((cfg1.win 0).blk t).view.emb y) = V c main_v29 i
  congr 1
  funext a
  apply Fin.ext
  match a with
  | ⟨0, _⟩ => show win1_0.index t (0 : Fin 1) * 8192 + 1 * (y 0).val = (i 0).val; rw [e0, h0]; omega

/-- The block of the second gathered array at point t is its entries 8192·t … 8192·t + 8191. -/
theorem score_blk_b (c : Dev nD) (t : Fin cfg1.N) (y : S8192.Idx) (i : S401408.Idx)
    (h0 : (i 0).val = t.val * 8192 + (y 0).val) :
    (iblk1 (F := Ideal) V c 1 t : Vec Ideal S8192 .f32) y = (V c main_v36 : S401408.Idx → Elt Ideal .f32) i := by
  obtain ⟨-, e1, -⟩ := score_idx_facts t
  unfold iblk1
  rw [View.read_apply]
  show V c main_v36 (((cfg1.win 1).blk t).view.emb y) = V c main_v36 i
  congr 1
  funext a
  apply Fin.ext
  match a with
  | ⟨0, _⟩ => show win1_1.index t (0 : Fin 1) * 8192 + 1 * (y 0).val = (i 0).val; rw [e1, h0]; omega

/-- The first component of a pair known by an equation. -/
theorem score_fst_of_eq {α β : Type} {p : α × β} {a : α} {b : β} (h : p = (a, b)) : p.1 = a := by rw [h]

/-- What the body leaves in the score buffer at point t, first point or later: the scores of the point's two blocks. -/
theorem score_at (c : Dev nD) (t : Fin cfg1.N) :
    (outsAt1 (F := Ideal) V c t.val t.isLt).1 = k1_pay4 (iblk1 V c 0 t) (iblk1 V c 1 t) := by
  by_cases h0 : t.val % 49 = 0
  · exact (score_fst_of_eq (outsAt1_A V c t h0)).trans (outA4 (F := Ideal) _ _ _ _ _ _ _ _ _ _ _ _ _ _ _ _ _ _ _ _ _)
  · exact (score_fst_of_eq (outsAt1_B V c t h0)).trans (outB4 (F := Ideal) _ _ _ _ _ _ _ _ _ _ _ _ _ _ _ _ _ _ _ _ _ _ _)

/-- What point t writes back is block t of the scores of all 401408 entries. -/
theorem score_flushed_eq (c : Dev nD) (t : Fin cfg1.N) :
    (dat1 (F := Ideal) V c).flushed 4 t
      = ((cfg1.win 4).blk t).view.read (Elt Ideal) (edgeScores (V c main_v29) (V c main_v36)) := by
  show (cfg1.win 4).cut (grid1.coords t) ((dat1 V c).after 4 t) = _
  rw [after1_4, score_at]
  obtain ⟨-, -, e4⟩ := score_idx_facts t
  funext j
  show k1_pay4 (iblk1 V c 0 t) (iblk1 V c 1 t) j
    = edgeScores (V c main_v29) (V c main_v36) (((cfg1.win 4).blk t).view.emb j)
  have hj : ((((cfg1.win 4).blk t).view.emb j) 0).val = t.val * 8192 + (j 0).val := by
    show win1_4.index t (0 : Fin 1) * 8192 + 1 * (j 0).val = _
    rw [e4]; omega
  rw [pay4_apply]
  unfold edgeScores
  rw [score_blk_a V c t j _ hj, score_blk_b V c t j _ hj]

/-- An index of the score array is in point t's block iff its coordinate is in the block's range. -/
theorem score_mem_blk (t : Fin cfg1.N) (i : S401408.Idx) :
    i ∈ ((cfg1.win 4).blk t).view.set ↔ ∀ a : Fin 1, win1_4.index t a * S8192.size a ≤ (i a).val
      ∧ (i a).val < win1_4.index t a * S8192.size a + S8192.size a := by
  show i ∈ ((View.whole main_v37_0).slice (win1_4.rect t)).set ↔ _
  rw [View.set_slice_whole, Rect.mem_set_unit]
  exact Iff.rfl

/-- Entry e of the score array is in the block of point e / 8192, which writes back. -/
theorem score_cover (i : S401408.Idx) :
    ∃ t : Fin cfg1.N, (cfg1.win 4).flush t = true ∧ i ∈ ((cfg1.win 4).blk t).view.set := by
  have hi0 : (i 0).val < 401408 := (i 0).isLt
  have hN : grid1.N = 49 := N_1
  have ht : (i 0).val / 8192 < cfg1.N := by show _ < grid1.N; rw [hN]; omega
  obtain ⟨-, -, e4⟩ := score_idx_facts ⟨(i 0).val / 8192, ht⟩
  refine ⟨⟨(i 0).val / 8192, ht⟩, flush1_4 _, ?_⟩
  rw [score_mem_blk]
  intro a
  match a with
  | ⟨0, _⟩ =>
    show win1_4.index ⟨(i 0).val / 8192, ht⟩ (0 : Fin 1) * 8192 ≤ (i 0).val
      ∧ (i 0).val < win1_4.index ⟨(i 0).val / 8192, ht⟩ (0 : Fin 1) * 8192 + 8192
    rw [e4]
    show (i 0).val / 8192 * 8192 ≤ (i 0).val ∧ (i 0).val < (i 0).val / 8192 * 8192 + 8192
    omega

/-- After the second region the score array holds, at entry e, the logistic of the sum of the two gathered scalars of
    entry e: block t of the array is entries 8192·t … 8192·t + 8191, and the forty-nine blocks cover it. -/
theorem arr_score_aux (c : Dev nD) :
    (dat1 (F := Ideal) V c).arrAt 4 cfg1.N = edgeScores (V c main_v29) (V c main_v36) :=
  (dat1 V c).arrAt_eq_of_cover 4 (edgeScores (V c main_v29) (V c main_v36)) (fun t _ => score_flushed_eq V c t) score_cover

end Cert.KernelIdeal.RegionEdges

end
-- ==== Proof.Region1.lean ====
/-
  The second kernel region: forty-nine blocks of 8192 entries of the lengthened edge list. Each block's scores are
  the logistic of the sum of its two gathered scalars; the two 1×1 accumulators start at zero at the first block and
  gain each block's sum of loss × mask and of mask, so that after the last block they hold the sums over all
  401408 entries.
-/
import proofs.«117142_j87205015978654_2_alg».proof.Proof.Gen.KernelIdeal.Frame
import proofs.«117142_j87205015978654_2_alg».proof.Proof.Spec
import proofs.«117142_j87205015978654_2_alg».proof.Proof.Region1Pay
import proofs.«117142_j87205015978654_2_alg».proof.Proof.Region1Pieces
import proofs.«117142_j87205015978654_2_alg».proof.Proof.Region1Score
import Idealize.ShloMosaic.Lib.Pipeline.Value
import Idealize.ShloMosaic.Lib.ValueLayout
import Idealize.ShloMosaic.PureOps.Ideal.Laws

noncomputable section

open scoped BigOperators

namespace Cert.KernelIdeal.RegionEdges

open Cert.KernelIdeal Cert.KernelIdeal.Gen Cert.EdgeFocal Cert.KernelIdeal.EdgePay
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The scores -/

/-- The score array after the region: entry e is the logistic of the sum of the two gathered scalars of entry e. -/
theorem arr_score (c : Dev nD) :
    (dat1 (F := Ideal) V c).arrAt 4 cfg1.N = edgeScores (V c main_v29) (V c main_v36) :=
  arr_score_aux V c

/-! ## The two accumulators -/

/-- One entry's loss × mask, and one entry's mask, from the four arrays. -/
def lossTerm (ag bg : FVec Ideal ⟨1, ![401408]⟩ .f32) (lb mk : IVec ⟨1, ![401408]⟩ 32) (e : Fin 401408) : EReal :=
  lossK (Ideal.logistic (ag (ix1 e) + bg (ix1 e))) (lb (ix1 e)) * ((((mk (ix1 e)).toInt : ℝ)) : EReal)
def maskTerm (mk : IVec ⟨1, ![401408]⟩ 32) (e : Fin 401408) : EReal := ((((mk (ix1 e)).toInt : ℝ)) : EReal)

/-- The block indices at each of the forty-nine points: the four input windows move with the point, the two 1×1 windows stay. -/
theorem idx_facts : ∀ t : Fin cfg1.N, win1_0.index t (0 : Fin 1) = t.val ∧ win1_1.index t (0 : Fin 1) = t.val
    ∧ win1_2.index t (0 : Fin 1) = t.val ∧ win1_3.index t (0 : Fin 1) = t.val
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The blocks of the four inputs at point t are entries 8192·t … 8192·t + 8191 of their arrays. -/
theorem blk_a (c : Dev nD) (t : Fin cfg1.N) (y : S8192.Idx) (i : S401408.Idx) (h0 : (i 0).val = t.val * 8192 + (y 0).val) :
    (iblk1 (F := Ideal) V c 0 t : Vec Ideal S8192 .f32) y = (V c main_v29 : S401408.Idx → Elt Ideal .f32) i := by
  obtain ⟨e0, -⟩ := idx_facts t
  unfold iblk1
  rw [View.read_apply]
  show V c main_v29 (((cfg1.win 0).blk t).view.emb y) = V c main_v29 i
  congr 1
  funext a
  apply Fin.ext
  match a with
  | ⟨0, _⟩ => show win1_0.index t (0 : Fin 1) * 8192 + 1 * (y 0).val = (i 0).val; rw [e0, h0]; omega

theorem blk_b (c : Dev nD) (t : Fin cfg1.N) (y : S8192.Idx) (i : S401408.Idx) (h0 : (i 0).val = t.val * 8192 + (y 0).val) :
    (iblk1 (F := Ideal) V c 1 t : Vec Ideal S8192 .f32) y = (V c main_v36 : S401408.Idx → Elt Ideal .f32) i := by
  obtain ⟨-, e1, -⟩ := idx_facts t
  unfold iblk1
  rw [View.read_apply]
  show V c main_v36 (((cfg1.win 1).blk t).view.emb y) = V c main_v36 i
  congr 1
  funext a
  apply Fin.ext
  match a with
  | ⟨0, _⟩ => show win1_1.index t (0 : Fin 1) * 8192 + 1 * (y 0).val = (i 0).val; rw [e1, h0]; omega

theorem blk_l (c : Dev nD) (t : Fin cfg1.N) (y : S8192.Idx) (i : S401408.Idx) (h0 : (i 0).val = t.val * 8192 + (y 0).val) :
    (iblk1 (F := Ideal) V c 2 t : Vec Ideal S8192 .i32) y = (V c main_v20 : S401408.Idx → Elt Ideal .i32) i := by
  obtain ⟨-, -, e2, -⟩ := idx_facts t
  unfold iblk1
  rw [View.read_apply]
  show V c main_v20 (((cfg1.win 2).blk t).view.emb y) = V c main_v20 i
  congr 1
  funext a
  apply Fin.ext
  match a with
  | ⟨0, _⟩ => show win1_2.index t (0 : Fin 1) * 8192 + 1 * (y 0).val = (i 0).val; rw [e2, h0]; omega

theorem blk_m (c : Dev nD) (t : Fin cfg1.N) (y : S8192.Idx) (i : S401408.Idx) (h0 : (i 0).val = t.val * 8192 + (y 0).val) :
    (iblk1 (F := Ideal) V c 3 t : Vec Ideal S8192 .i32) y = (V c main_v22 : S401408.Idx → Elt Ideal .i32) i := by
  obtain ⟨-, -, -, e3, -⟩ := idx_facts t
  unfold iblk1
  rw [View.read_apply]
  show V c main_v22 (((cfg1.win 3).blk t).view.emb y) = V c main_v22 i
  congr 1
  funext a
  apply Fin.ext
  match a with
  | ⟨0, _⟩ => show win1_3.index t (0 : Fin 1) * 8192 + 1 * (y 0).val = (i 0).val; rw [e3, h0]; omega

/-- The loss accumulator's step at point t, over the arrays: the old value plus the sum of loss × mask over entries
    8192·t … 8192·t + 8191. -/
theorem step_loss (c : Dev nD) (t : Fin cfg1.N) (hN : t.val < 49) (acc : Vec Ideal S1x1 .f32) (j : S1x1.Idx) :
    k1_pay6 (F := Ideal) (iblk1 V c 0 t) (iblk1 V c 1 t) (iblk1 V c 2 t) (iblk1 V c 3 t) acc j
      = acc j + ∑ k : Fin 8192, lossTerm (V c main_v29) (V c main_v36) (V c main_v20) (V c main_v22) ⟨8192 * t.val + k.val, by omega⟩ := by
  refine (pay6_apply (iblk1 V c 0 t) (iblk1 V c 1 t) (iblk1 V c 2 t) (iblk1 V c 3 t) acc j).trans ?_
  refine congrArg (acc j + ·) (Finset.sum_congr rfl fun k _ => ?_)
  have hk : 8192 * t.val + k.val < 401408 := by omega
  have hi : ((ix1 (⟨8192 * t.val + k.val, hk⟩ : Fin 401408) : S401408.Idx) 0).val = t.val * 8192 + ((ix1 k : S8192.Idx) 0).val := by
    show 8192 * t.val + k.val = t.val * 8192 + k.val; omega
  rw [blk_a V c t (ix1 k) (ix1 ⟨8192 * t.val + k.val, hk⟩) hi, blk_b V c t (ix1 k) (ix1 ⟨8192 * t.val + k.val, hk⟩) hi,
    blk_l V c t (ix1 k) (ix1 ⟨8192 * t.val + k.val, hk⟩) hi, blk_m V c t (ix1 k) (ix1 ⟨8192 * t.val + k.val, hk⟩) hi]
  rfl

/-- The mask accumulator's step at point t, over the array: the old value plus the sum of the mask over the same entries. -/
theorem step_mask (c : Dev nD) (t : Fin cfg1.N) (hN : t.val < 49) (acc : Vec Ideal S1x1 .f32) (j : S1x1.Idx) :
    k1_pay1 (F := Ideal) (k1_pay5 (iblk1 V c 3 t)) acc j
      = acc j + ∑ k : Fin 8192, maskTerm (V c main_v22) ⟨8192 * t.val + k.val, by omega⟩ := by
  refine (pay1_apply (iblk1 V c 3 t) acc j).trans ?_
  refine congrArg (acc j + ·) (Finset.sum_congr rfl fun k _ => ?_)
  have hk : 8192 * t.val + k.val < 401408 := by omega
  have hi : ((ix1 (⟨8192 * t.val + k.val, hk⟩ : Fin 401408) : S401408.Idx) 0).val = t.val * 8192 + ((ix1 k : S8192.Idx) 0).val := by
    show 8192 * t.val + k.val = t.val * 8192 + k.val; omega
  rw [blk_m V c t (ix1 k) (ix1 ⟨8192 * t.val + k.val, hk⟩) hi]
  rfl

/-- THE INVARIANT: after point n the two accumulators hold the sums over the first (n + 1)·8192 entries. -/
theorem acc_inv (c : Dev nD) : ∀ (n : ℕ) (h : n < cfg1.N),
    (∀ j, (outsAt1 (F := Ideal) V c n h).2.1 j
        = ∑ e ∈ Finset.range ((n + 1) * 8192), ext0 (lossTerm (V c main_v29) (V c main_v36) (V c main_v20) (V c main_v22)) e)
    ∧ (∀ j, (outsAt1 (F := Ideal) V c n h).2.2 j = ∑ e ∈ Finset.range ((n + 1) * 8192), ext0 (maskTerm (V c main_v22)) e)
  | 0, h => by
    rw [show outsAt1 V c 0 h = _ from outsAt1_A V c ⟨0, h⟩ rfl]
    dsimp only
    rw [outA5, outA6]
    have hN : (⟨0, h⟩ : Fin cfg1.N).val < 49 := by show 0 < 49; decide
    refine ⟨fun j => ?_, fun j => ?_⟩
    · rw [step_loss V c ⟨0, h⟩ hN _ j, pay2_apply]; exact ext0_first _
    · rw [step_mask V c ⟨0, h⟩ hN _ j, pay3_apply]; exact ext0_first _
  | n + 1, h => by
    have hN : n + 1 < 49 := lt_of_lt_of_eq h N_1
    have hB : ¬(⟨n + 1, h⟩ : Fin cfg1.N).val % 49 = 0 := by dsimp only; omega
    obtain ⟨ih5, ih6⟩ := acc_inv c n (Nat.lt_of_succ_lt h)
    rw [show outsAt1 V c (n + 1) h = _ from outsAt1_B V c ⟨n + 1, h⟩ hB]
    dsimp only
    rw [outB5, outB6]
    refine ⟨fun j => ?_, fun j => ?_⟩
    · rw [step_loss V c ⟨n + 1, h⟩ hN _ j]
      refine Eq.trans (congrArg (· + _) (ih5 j)) ?_
      exact ext0_block _ (n + 1) hN
    · rw [step_mask V c ⟨n + 1, h⟩ hN _ j]
      refine Eq.trans (congrArg (· + _) (ih6 j)) ?_
      exact ext0_block _ (n + 1) hN

/-- The last of the forty-nine points. -/
theorem last_lt : 48 < cfg1.N := lt_of_lt_of_eq (by decide : (48 : ℕ) < 49) (show 49 = cfg1.N from N_1.symm)

/-- The two sums of the statement are the sums of the entries' terms. -/
theorem edgeLossSum_apply (ag bg : FVec Ideal ⟨1, ![401408]⟩ .f32) (lb mk : IVec ⟨1, ![401408]⟩ 32) (i : (⟨2, ![1, 1]⟩ : Shape).Idx) :
    edgeLossSum ag bg lb mk i = ∑ e : Fin 401408, lossTerm ag bg lb mk e := rfl
theorem edgeMaskSum_apply (mk : IVec ⟨1, ![401408]⟩ 32) (i : (⟨2, ![1, 1]⟩ : Shape).Idx) :
    edgeMaskSum mk i = ∑ e : Fin 401408, maskTerm mk e := rfl

/-- After the last point the accumulators hold the whole sums. -/
theorem last_loss (c : Dev nD) (t : Fin cfg1.N) (h48 : t.val = 48) :
    (outsAt1 (F := Ideal) V c t.val t.isLt).2.1 = edgeLossSum (V c main_v29) (V c main_v36) (V c main_v20) (V c main_v22) := by
  funext j
  rw [(acc_inv V c t.val t.isLt).1 j, h48]
  exact (ext0_total _).trans (edgeLossSum_apply _ _ _ _ j).symm
theorem last_mask (c : Dev nD) (t : Fin cfg1.N) (h48 : t.val = 48) :
    (outsAt1 (F := Ideal) V c t.val t.isLt).2.2 = edgeMaskSum (V c main_v22) := by
  funext j
  rw [(acc_inv V c t.val t.isLt).2 j, h48]
  exact (ext0_total _).trans (edgeMaskSum_apply _ j).symm

/-- What the one write-back of the loss accumulator writes (at the last point) is the whole sum: the 1×1 block at
    zero offsets is the array. -/
theorem flushed_loss (c : Dev nD) (t : Fin cfg1.N) (hf : (cfg1.win 5).flush t = true) :
    (dat1 (F := Ideal) V c).flushed 5 t
      = ((cfg1.win 5).blk t).view.read (Elt Ideal) (edgeLossSum (V c main_v29) (V c main_v36) (V c main_v20) (V c main_v22)) := by
  have hN : t.val < 49 := lt_of_lt_of_eq t.isLt N_1
  have h48 : t.val = 48 := by have := (flush1_5 t).mp hf; omega
  obtain ⟨-, -, -, -, e0, e1, -, -⟩ := idx_facts t
  show (cfg1.win 5).cut (grid1.coords t) ((dat1 V c).after 5 t) = _
  rw [after1_5, last_loss V c t h48]
  generalize edgeLossSum (V c main_v29) (V c main_v36) (V c main_v20) (V c main_v22) = G
  have hz' : (fun a => win1_5.index t a * main_v37_1.ty.shape.size a) = fun _ => 0 := funext fun a => by
    match a with
    | ⟨0, _⟩ => show win1_5.index t (0 : Fin 2) * 1 = 0; rw [e0]
    | ⟨1, _⟩ => show win1_5.index t (1 : Fin 2) * 1 = 0; rw [e1]
  exact (Memref.read_access_unit_zero (Elt Ideal) main_v37_1 hz' (fun a => by rw [congrFun hz' a]; simp) G).symm

/-- The same for the mask accumulator. -/
theorem flushed_mask (c : Dev nD) (t : Fin cfg1.N) (hf : (cfg1.win 6).flush t = true) :
    (dat1 (F := Ideal) V c).flushed 6 t = ((cfg1.win 6).blk t).view.read (Elt Ideal) (edgeMaskSum (V c main_v22)) := by
  have hN : t.val < 49 := lt_of_lt_of_eq t.isLt N_1
  have h48 : t.val = 48 := by have := (flush1_6 t).mp hf; omega
  obtain ⟨-, -, -, -, -, -, e0, e1⟩ := idx_facts t
  show (cfg1.win 6).cut (grid1.coords t) ((dat1 V c).after 6 t) = _
  rw [after1_6, last_mask V c t h48]
  generalize edgeMaskSum (V c main_v22) = G
  have hz' : (fun a => win1_6.index t a * main_v37_2.ty.shape.size a) = fun _ => 0 := funext fun a => by
    match a with
    | ⟨0, _⟩ => show win1_6.index t (0 : Fin 2) * 1 = 0; rw [e0]
    | ⟨1, _⟩ => show win1_6.index t (1 : Fin 2) * 1 = 0; rw [e1]
  exact (Memref.read_access_unit_zero (Elt Ideal) main_v37_2 hz' (fun a => by rw [congrFun hz' a]; simp) G).symm
/-- An index of a 1×1 output array is in a point's block iff each coordinate is in the block's range on its axis. -/
theorem mem_blk5 (t : Fin cfg1.N) (i : S1x1.Idx) :
    i ∈ ((cfg1.win 5).blk t).view.set ↔ ∀ a : Fin 2, win1_5.index t a * S1x1.size a ≤ (i a).val ∧ (i a).val < win1_5.index t a * S1x1.size a + S1x1.size a := by
  show i ∈ ((View.whole main_v37_1).slice (win1_5.rect t)).set ↔ _
  rw [View.set_slice_whole, Rect.mem_set_unit]
  exact Iff.rfl
theorem mem_blk6 (t : Fin cfg1.N) (i : S1x1.Idx) :
    i ∈ ((cfg1.win 6).blk t).view.set ↔ ∀ a : Fin 2, win1_6.index t a * S1x1.size a ≤ (i a).val ∧ (i a).val < win1_6.index t a * S1x1.size a + S1x1.size a := by
  show i ∈ ((View.whole main_v37_2).slice (win1_6.rect t)).set ↔ _
  rw [View.set_slice_whole, Rect.mem_set_unit]
  exact Iff.rfl

/-- The one entry of each 1×1 array is in the block the last point writes back. -/
theorem cover5 (i : S1x1.Idx) : ∃ t : Fin cfg1.N, (cfg1.win 5).flush t = true ∧ i ∈ ((cfg1.win 5).blk t).view.set := by
  have hi0 : (i 0).val < 1 := (i 0).isLt
  have hi1 : (i 1).val < 1 := (i 1).isLt
  obtain ⟨-, -, -, -, e0, e1, -, -⟩ := idx_facts ⟨48, last_lt⟩
  refine ⟨⟨48, last_lt⟩, (flush1_5 _).mpr rfl, ?_⟩
  rw [mem_blk5]
  intro a
  match a with
  | ⟨0, _⟩ =>
    show win1_5.index ⟨48, last_lt⟩ (0 : Fin 2) * 1 ≤ (i 0).val ∧ (i 0).val < win1_5.index ⟨48, last_lt⟩ (0 : Fin 2) * 1 + 1
    rw [e0]; omega
  | ⟨1, _⟩ =>
    show win1_5.index ⟨48, last_lt⟩ (1 : Fin 2) * 1 ≤ (i 1).val ∧ (i 1).val < win1_5.index ⟨48, last_lt⟩ (1 : Fin 2) * 1 + 1
    rw [e1]; omega
theorem cover6 (i : S1x1.Idx) : ∃ t : Fin cfg1.N, (cfg1.win 6).flush t = true ∧ i ∈ ((cfg1.win 6).blk t).view.set := by
  have hi0 : (i 0).val < 1 := (i 0).isLt
  have hi1 : (i 1).val < 1 := (i 1).isLt
  obtain ⟨-, -, -, -, -, -, e0, e1⟩ := idx_facts ⟨48, last_lt⟩
  refine ⟨⟨48, last_lt⟩, (flush1_6 _).mpr rfl, ?_⟩
  rw [mem_blk6]
  intro a
  match a with
  | ⟨0, _⟩ =>
    show win1_6.index ⟨48, last_lt⟩ (0 : Fin 2) * 1 ≤ (i 0).val ∧ (i 0).val < win1_6.index ⟨48, last_lt⟩ (0 : Fin 2) * 1 + 1
    rw [e0]; omega
  | ⟨1, _⟩ =>
    show win1_6.index ⟨48, last_lt⟩ (1 : Fin 2) * 1 ≤ (i 1).val ∧ (i 1).val < win1_6.index ⟨48, last_lt⟩ (1 : Fin 2) * 1 + 1
    rw [e1]; omega

/-- The loss accumulator after the region: the sum over all 401408 entries of loss × mask. -/
theorem arr_lossSum (c : Dev nD) :
    (dat1 (F := Ideal) V c).arrAt 5 cfg1.N = edgeLossSum (V c main_v29) (V c main_v36) (V c main_v20) (V c main_v22) :=
  (dat1 V c).arrAt_eq_of_cover 5 (edgeLossSum (V c main_v29) (V c main_v36) (V c main_v20) (V c main_v22))
    (fun t hf => flushed_loss V c t hf) cover5

/-- The mask accumulator after the region: the sum over all 401408 entries of the mask. -/
theorem arr_maskSum (c : Dev nD) :
    (dat1 (F := Ideal) V c).arrAt 6 cfg1.N = edgeMaskSum (V c main_v22) :=
  (dat1 V c).arrAt_eq_of_cover 6 (edgeMaskSum (V c main_v22)) (fun t hf => flushed_mask V c t hf) cover6

end Cert.KernelIdeal.RegionEdges

end
-- ==== Proof.HostEnds.lean ====
/-
  The host operations before the first region and after the second: the folded 256×2 weights from the two weight
  arrays, and the two results from what the second region leaves (the first 400000 scores; the guarded quotient of the
  two accumulators).
-/
import proofs.«117142_j87205015978654_2_alg».proof.Proof.Gen.KernelIdeal.Frame
import proofs.«117142_j87205015978654_2_alg».proof.Proof.Spec
import Idealize.ShloMosaic.Lib.Pipeline.Value
import Idealize.ShloMosaic.Lib.ValueLayout
import Idealize.ShloMosaic.Lib.StableHlo.Run
import Idealize.ShloMosaic.PureOps.Ideal.Laws

noncomputable section

open scoped BigOperators

namespace Cert.KernelIdeal.HostEnds

open Cert.KernelIdeal Cert.KernelIdeal.Gen Cert.EdgeFocal
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## A row times the 64×256 matrix, read at an index -/

theorem dot_lhs_0 (i : S1x256.Idx) (q : dot_S1x64_S64x256_S1x256_1_0_0_1_n_n.contr.Idx) :
    (dot_S1x64_S64x256_S1x256_1_0_0_1_n_n.lhsIdx i q 0).val = (i 0).val := by
  unfold DotDims.lhsIdx
  rw [dif_neg (show ¬(0 : Fin S1x64.rank) ∈ dot_S1x64_S64x256_S1x256_1_0_0_1_n_n.lhsBatch by decide),
    dif_pos (show (0 : Fin S1x64.rank) ∈ dot_S1x64_S64x256_S1x256_1_0_0_1_n_n.lhsNonContracting by decide)]
  rfl
theorem dot_lhs_1 (i : S1x256.Idx) (q : dot_S1x64_S64x256_S1x256_1_0_0_1_n_n.contr.Idx) :
    (dot_S1x64_S64x256_S1x256_1_0_0_1_n_n.lhsIdx i q 1).val = (q ⟨0, by decide⟩).val :=
  dot_S1x64_S64x256_S1x256_1_0_0_1_n_n.lhsIdx_val_of_single rfl i q
theorem dot_rhs_0 (i : S1x256.Idx) (q : dot_S1x64_S64x256_S1x256_1_0_0_1_n_n.contr.Idx) :
    (dot_S1x64_S64x256_S1x256_1_0_0_1_n_n.rhsIdx i q 0).val = (q ⟨0, by decide⟩).val :=
  dot_S1x64_S64x256_S1x256_1_0_0_1_n_n.rhsIdx_val_of_single rfl i q
theorem dot_rhs_1 (i : S1x256.Idx) (q : dot_S1x64_S64x256_S1x256_1_0_0_1_n_n.contr.Idx) :
    (dot_S1x64_S64x256_S1x256_1_0_0_1_n_n.rhsIdx i q 1).val = (i 1).val := by
  unfold DotDims.rhsIdx
  rw [dif_neg (show ¬(1 : Fin S64x256.rank) ∈ dot_S1x64_S64x256_S1x256_1_0_0_1_n_n.rhsBatch by decide),
    dif_pos (show (1 : Fin S64x256.rank) ∈ dot_S1x64_S64x256_S1x256_1_0_0_1_n_n.rhsNonContracting by decide)]
  rfl

/-- Entry (0, k) of the product of a 1×64 row with the 64×256 matrix is the sum over the 64 shared positions. -/
theorem dot_row_apply (l : FVec Ideal ⟨2, ![1, 64]⟩ .f32) (wd : FVec Ideal ⟨2, ![64, 256]⟩ .f32) (k : Fin 256) :
    Host.dotGeneral (F := Ideal) dot_S1x64_S64x256_S1x256_1_0_0_1_n_n none l wd (ix2 0 k)
      = ∑ c : Fin 64, l (ix2 0 c) * wd (ix2 c k) := by
  simp only [Host.dotGeneral]
  rw [Ideal.dotGeneral_apply, ← Equiv.sum_comp (ValueIdx.contrEquiv1 dot_S1x64_S64x256_S1x256_1_0_0_1_n_n 64 rfl rfl).symm]
  refine Finset.sum_congr rfl fun c _ => ?_
  have hk := ValueIdx.contrEquiv1_symm_val dot_S1x64_S64x256_S1x256_1_0_0_1_n_n 64 rfl rfl c
  have el : dot_S1x64_S64x256_S1x256_1_0_0_1_n_n.lhsIdx (ix2 0 k) ((ValueIdx.contrEquiv1 dot_S1x64_S64x256_S1x256_1_0_0_1_n_n 64 rfl rfl).symm c) = ix2 0 c := funext fun a => Fin.ext (by
    match a with
    | ⟨0, _⟩ => exact dot_lhs_0 _ _
    | ⟨1, _⟩ => exact (dot_lhs_1 _ _).trans hk)
  have er : dot_S1x64_S64x256_S1x256_1_0_0_1_n_n.rhsIdx (ix2 0 k) ((ValueIdx.contrEquiv1 dot_S1x64_S64x256_S1x256_1_0_0_1_n_n 64 rfl rfl).symm c) = ix2 c k := funext fun a => Fin.ext (by
    match a with
    | ⟨0, _⟩ => exact (dot_rhs_0 _ _).trans hk
    | ⟨1, _⟩ => exact dot_rhs_1 _ _)
  rw [el, er]

/-! ## The folded weights from the host operations' term -/

/-- The three 64-wide slices added and subtracted, multiplied into the 64×256 matrix, joined as two rows and turned:
    the folded 256×2 weights. -/
theorem transpose_foldedArr (wd : FVec Ideal ⟨2, ![64, 256]⟩ .f32) (wf : FVec Ideal ⟨2, ![1, 192]⟩ .f32) :
    transpose S256x2 [1, 0]
      (concatenate S2x256 0
        [⟨S1x256, Host.dotGeneral (F := Ideal) dot_S1x64_S64x256_S1x256_1_0_0_1_n_n none
            (addf (extractStridedSlice S1x64 ![0, 0] wf slices_S1x192_S1x64_0_0)
              (extractStridedSlice S1x64 ![0, 128] wf slices_S1x192_S1x64_0_128)) wd⟩,
         ⟨S1x256, Host.dotGeneral (F := Ideal) dot_S1x64_S64x256_S1x256_1_0_0_1_n_n none
            (subf (extractStridedSlice S1x64 ![0, 64] wf slices_S1x192_S1x64_0_64)
              (extractStridedSlice S1x64 ![0, 128] wf slices_S1x192_S1x64_0_128)) wd⟩]
        concatenates_S1x256_S1x256_S2x256_d0)
      transposes_S2x256_S256x2_1_0 = foldedArr wd wf := by
  funext j
  obtain ⟨k, q, rfl⟩ : ∃ (k : Fin 256) (q : Fin 2), j = ix2 k q := ⟨_, _, eq_ix2 j⟩
  refine (transpose_ix2_apply _ transposes_S2x256_S256x2_1_0 k q).trans ?_
  have h0 : ∀ c : Fin 64, extractStridedSlice S1x64 ![0, 0] wf slices_S1x192_S1x64_0_0 (ix2 0 c) = wf (ix2 0 (third0 c)) :=
    fun c => slice2_axis1_apply 0 wf slices_S1x192_S1x64_0_0 0 c (third0 c) (by show c.val = 0 + c.val; omega)
  have h1 : ∀ c : Fin 64, extractStridedSlice S1x64 ![0, 64] wf slices_S1x192_S1x64_0_64 (ix2 0 c) = wf (ix2 0 (third1 c)) :=
    fun c => slice2_axis1_apply 64 wf slices_S1x192_S1x64_0_64 0 c (third1 c) rfl
  have h2 : ∀ c : Fin 64, extractStridedSlice S1x64 ![0, 128] wf slices_S1x192_S1x64_0_128 (ix2 0 c) = wf (ix2 0 (third2 c)) :=
    fun c => slice2_axis1_apply 128 wf slices_S1x192_S1x64_0_128 0 c (third2 c) rfl
  show _ = foldedW wd wf k q
  unfold foldedW
  match q with
  | ⟨0, _⟩ =>
    rw [if_pos rfl]
    refine (concatenate_pair_apply_left (0 : Fin S2x256.rank) _ _ concatenates_S1x256_S1x256_S2x256_d0 _ rfl (ix2 0 k)
      (fun b => match b with | ⟨0, _⟩ => rfl | ⟨1, _⟩ => rfl)).trans ?_
    rw [dot_row_apply]
    refine Finset.sum_congr rfl fun c _ => ?_
    rw [addf_apply, h0, h2]
  | ⟨1, _⟩ =>
    rw [if_neg Nat.one_ne_zero]
    refine (concatenate_pair_apply_right (0 : Fin S2x256.rank) _ _ concatenates_S1x256_S1x256_S2x256_d0 _ rfl rfl (ix2 0 k)
      (fun b hb => match b, hb with | ⟨0, _⟩, hb => absurd rfl hb | ⟨1, _⟩, _ => rfl) rfl).trans ?_
    rw [dot_row_apply]
    refine Finset.sum_congr rfl fun c _ => ?_
    rw [subf_apply, h1, h2]

/-! ## The two results from what the second region leaves -/

/-- A slice from offset 0 of a 401408-long array keeps the first 400000 entries. -/
theorem slice_firstEdges (X : FVec Ideal ⟨1, ![401408]⟩ .f32) :
    extractStridedSlice S400000 ![0] X slices_S401408_S400000_0 = firstEdges X := by
  funext e
  unfold firstEdges
  exact extractStridedSlice_apply ![0] X slices_S401408_S400000_0 e _ (fun a => match a with
    | ⟨0, _⟩ => by show (e 0).val = 0 + (e 0).val; omega)

/-- The two 1×1 arrays read as scalars, compared, divided and selected: the guarded quotient. -/
theorem select_guardedMean (L M : FVec Ideal ⟨2, ![1, 1]⟩ .f32) :
    (select (cmpf .ogt (shapeCast S_ M shapeCasts_S1x1_S_) (constant (F := Ideal) S_ .f32 0x00000000#32))
        (Host.divf (shapeCast S_ L shapeCasts_S1x1_S_) (shapeCast S_ M shapeCasts_S1x1_S_))
        (constant (F := Ideal) S_ .f32 0x00000000#32) : FVec Ideal S_ .f32) = guardedMean L M := by
  funext i
  have hM : shapeCast S_ M shapeCasts_S1x1_S_ i = M (ix2 0 0) :=
    shapeCast_apply M shapeCasts_S1x1_S_ i (ix2 0 0) (by rw [Shape.rowMajor_val_two]; rfl)
  have hL : shapeCast S_ L shapeCasts_S1x1_S_ i = L (ix2 0 0) :=
    shapeCast_apply L shapeCasts_S1x1_S_ i (ix2 0 0) (by rw [Shape.rowMajor_val_two]; rfl)
  unfold guardedMean
  rw [select_apply, cmpf_apply, constant_apply]
  show Scalar.select (Ideal.cmp .ogt (shapeCast S_ M shapeCasts_S1x1_S_ i) _)
    (Ideal.div (shapeCast S_ L shapeCasts_S1x1_S_ i) (shapeCast S_ M shapeCasts_S1x1_S_ i)) _ = _
  rw [hM, hL]

/-! ## The four statements -/

/-- Entering the first region, the weight operand holds the folded weights: column 0 is (w1 + w3)·W_d and column 1 is
    (w2 − w3)·W_d, the two rows joined and turned. -/
theorem v8_eq (c : Dev nD) :
    V1 m ρ c main_v8 = foldedArr (m ((c : Thread nD τ).loc main_arg1)) (m ((c : Thread nD τ).loc main_arg2)) := by
  show StableHlo.after hostOps0 (W0 m ρ c) (Proc.devRef .tc main_v8) = _
  after_results
  exact transpose_foldedArr _ _

/-- Entering the first region, the feature array is the argument. -/
theorem v1_arg0 (c : Dev nD) : V1 m ρ c main_arg0 = m ((c : Thread nD τ).loc main_arg0) :=
  calc V1 m ρ c main_arg0
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The first result is the first 400000 entries of the score array the second region leaves. -/
theorem v38_eq (c : Dev nD) :
    W14 m ρ c (Proc.devRef .tc main_v38) = firstEdges (W12 m ρ c (Proc.devRef .tc main_v37_0)) := by
  show StableHlo.after hostOps2_1 (StableHlo.after hostOps2 (W12 m ρ c)) (Proc.devRef .tc main_v38) = _
  generalize W12 m ρ c = V
  after_results
  exact slice_firstEdges _

/-- The second result is the guarded quotient of the two accumulators the second region leaves. -/
theorem v43_eq (c : Dev nD) :
    W14 m ρ c (Proc.devRef .tc main_v43)
      = guardedMean (W12 m ρ c (Proc.devRef .tc main_v37_1)) (W12 m ρ c (Proc.devRef .tc main_v37_2)) := by
  show StableHlo.after hostOps2_1 (StableHlo.after hostOps2 (W12 m ρ c)) (Proc.devRef .tc main_v43) = _
  generalize W12 m ρ c = V
  after_results
  exact select_guardedMean _ _

end Cert.KernelIdeal.HostEnds

end
-- ==== Proof.LibHostKeepdims.lean ====
/-
  The host program's side of a row-wise normalisation read at an index given by coordinates: the keepdims column and
  the column laid along the features, both spelt `broadcast_in_dim`; the host's sum along the features; its quotient and
  square root. General over the extents: nothing here names a kernel. (The kernel's side — the same column spelt as a
  shape cast and a trailing-axes broadcast, and the vector unit's sum — is LibKeepdims.lean.)
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibHostKeepdims

open Idealize.ShloMosaic Idealize.ShloMosaic.ValueIdx
open scoped BigOperators

section Layout
variable {α : Type}

/-- An `[a]` vector laid out as the column `[a, 1]` by a `broadcast_in_dim` along axis 0 reads, at `(p, u)`, the vector
    at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A column `[a, 1]` repeated along `b` features by a `broadcast_in_dim` along axes 0 and 1 reads, at `(p, c)`, the
    column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- At the ideal values the host's f32 sum along the second axis of an `[a, b]` array is, at row `p`, the initial value
    plus the sum over the `b` entries of that row: the index the reduction inserts coordinate `k` into, over `p`, is
    `(p, k)`. -/
theorem hostLaneSum_apply {a b : ℕ} (src : FVec Ideal ⟨2, ![a, b]⟩ .f32) (init : (⟨0, ![]⟩ : Shape).Idx → Ideal .f32)
    (h' : (⟨2, ![a, b]⟩ : Shape).ReducesTo [1] ⟨1, ![a]⟩) (hr : (⟨2, ![a, b]⟩ : Shape).Reduces [1] ⟨1, ![a]⟩)
    (hu : 0 < (⟨0, ![]⟩ : Shape).numel) (p : Fin a) :
    Host.reduceAdd (F := Ideal) src init h' hu (ix1 p) = init (Shape.Idx.first hu) + ∑ k : Fin b, src (ix2 p k) := by
  simp only [Host.reduceAdd, Ideal.hostReduceAdd_def]
  rw [Ideal.hostReduceAdd_single h' hr]
  refine congrArg (_ + ·) (Finset.sum_congr rfl fun k _ => ?_)
  exact congrArg src (funext fun d => Fin.ext (by match d with | ⟨0, _⟩ => rfl | ⟨1, _⟩ => rfl))

/-- The host's quotient at an index is the ideal quotient of the elements. -/
theorem hostDivf_apply {s : Shape} {φ : FTy} (a b : FVec Ideal s φ) (i : s.Idx) :
    Host.divf (F := Ideal) a b i = Ideal.div (a i) (b i) := rfl

/-- The host's square root at an index is the ideal square root of the element. -/
theorem hostSqrt_apply {s : Shape} {φ : FTy} (a : FVec Ideal s φ) (i : s.Idx) :
    Host.sqrt (F := Ideal) a i = Ideal.sqrt (a i) := rfl

end Cert.LibHostKeepdims

end
-- ==== Proof.HostBetween.lean ====
/-
  The host operations between the two regions: the two columns of the product array are read at the node each entry
  of the lengthened edge list names (source in row 0, target in row 1), and the label and mask arrays are lengthened
  by zero words.
-/
import proofs.«117142_j87205015978654_2_alg».proof.Proof.Gen.KernelIdeal.Frame
import proofs.«117142_j87205015978654_2_alg».proof.Proof.Spec
import proofs.«117142_j87205015978654_2_alg».proof.Proof.LibHostKeepdims
import Idealize.ShloMosaic.Lib.Pipeline.Value
import Idealize.ShloMosaic.Lib.ValueLayout
import Idealize.ShloMosaic.Lib.StableHlo.Run
import Idealize.ShloMosaic.Lib.KernelVsHost
import Idealize.ShloMosaic.Lib.IdealHost

noncomputable section

open scoped BigOperators

namespace Cert.KernelIdeal.HostBetween

open Cert.KernelIdeal Cert.KernelIdeal.Gen Cert.EdgeFocal
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## General readings at an index -/

section Generic
variable {α : Type}

/-- The dimension numbers of a gather of single entries of a vector: the vector's one axis is collapsed and named by
    the one start index, and the positions come as an [E, 1] array. -/
abbrev entryGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of entries at e: the vector at the position word of e, read signed and clamped into [0, N − 1]. -/
theorem entryGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (entryGatherDims N E wf).start (ix1 e) idx 0 + (entryGatherDims N E wf).batchCoord (ix1 e) 0
    + (entryGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGatherDims N E wf).startIndexMap from List.mem_singleton.mpr rfl)]
  have hsi : (entryGatherDims N E wf).siIdx (ix1 e) ⟨List.idxOf (0 : Fin 1) (entryGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- [a, 1] → [a]: entry i is entry (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i 0) :=
  shapeCast_apply x h _ _ (by
    rw [Shape.rowMajor_val_two, Shape.rowMajor_val_one]
    show i.val * 1 + 0 = i.val
    rw [Nat.mul_one, Nat.add_zero])

/-- A vector of n entries lengthened at its high end by p copies of a scalar: entry e is the vector's below n and the
    scalar from n on. -/
theorem pad_high_apply {n p L : Nat} (x : (⟨1, ![n]⟩ : Shape).Idx → α) (v : (⟨0, ![]⟩ : Shape).Idx → α)
    (h : (⟨1, ![n]⟩ : Shape).Pads ![0] ![p] ![0] ⟨1, ![L]⟩) (hu : 0 < (⟨0, ![]⟩ : Shape).numel) (e : Fin L) :
    pad ⟨1, ![L]⟩ ![0] ![p] ![0] x v h hu (ix1 e) = if he : e.val < n then x (ix1 ⟨e.val, he⟩) else v ix0 := by
  by_cases he : e.val < n
  · rw [dif_pos he]
    refine pad_apply_of_inside _ _ _ x v h hu (ix1 e) (ix1 ⟨e.val, he⟩) fun a => ?_
    match a with
    | ⟨0, _⟩ =>
      show e.val = 0 + e.val * (0 + 1)
      omega
  · rw [dif_neg he]
    refine (pad_apply_of_not_inside _ _ _ x v h hu (ix1 e) 0 ?_).trans (congrArg v (eq_ix0 _))
    intro hin
    have h3 : (e.val - 0) / (0 + 1) < n := hin.2.2
    omega

end Generic

/-! ## The chains of operations between the regions, read at an entry -/

section Chains

/-- The lengthened row of end-point words: row `row` of the edge list cut out, flattened, and lengthened by zero words. -/
theorem endChain_apply (ei : IVec S2x400000 32) (o : Nat) (row : Fin 2) (ho : row.val = o + (0 : Fin 1).val)
    (hs : S2x400000.Slices ![o, 0] S1x400000) (hc : S1x400000.ShapeCasts S400000)
    (hp : S400000.Pads (![0] : Fin 1 → Nat) ![1408] ![0] S401408) (hu : 0 < S_.numel) (e : Fin 401408) :
    pad S401408 ![0] ![1408] ![0] (shapeCast S400000 (extractStridedSlice S1x400000 ![o, 0] ei hs) hc)
      (constantI S_ 32 0#32) hp hu (ix1 e) = endWord ei row e := by
  refine (pad_high_apply _ _ hp hu e).trans ?_
  unfold endWord padW
  by_cases he : e.val < 400000
  · rw [dif_pos he, dif_pos he, shapeCast_1a_a_apply, slice2_axis0_apply o ei hs 0 ⟨e.val, he⟩ row ho]
  · rw [dif_neg he, dif_neg he]; rfl

/-- The position word handed to the gather for entry e: a negative word has the node count added to it. -/
theorem nodeChain_apply (P : IVec S401408 32) (hb0 : S_.BroadcastsInDim S401408 (![] : Fin 0 → Fin S401408.rank))
    (hb1 : S401408.BroadcastsInDim S401408x1 (![0] : Fin 1 → Fin S401408x1.rank)) (e : Fin 401408) :
    broadcastInDim S401408x1 ![0] hb1
        (select (cmpi .slt P (broadcastInDim S401408 ![] hb0 (constantI S_ 32 0#32)))
          (addi P (broadcastInDim S401408 ![] hb0 (constantI S_ 32 100000#32))) P) (ix2 e 0)
      = Scalar.select (IntOp.cmpi .slt (P (ix1 e)) 0#32) (IntOp.addi (P (ix1 e)) 100000#32) (P (ix1 e)) := by
  rw [Cert.LibHostKeepdims.broadcastInDim_a_a1_apply]
  show Scalar.select (IntOp.cmpi .slt (P (ix1 e)) (broadcastInDim S401408 ![] hb0 (constantI S_ 32 0#32) (ix1 e)))
      (IntOp.addi (P (ix1 e)) (broadcastInDim S401408 ![] hb0 (constantI S_ 32 100000#32) (ix1 e))) (P (ix1 e)) = _
  rw [broadcastInDim_scalar_apply, broadcastInDim_scalar_apply]
  rfl

/-- Column q of the product, flattened, gathered at position words: entry e is the product at (the clamped word, q). -/
theorem gatherChain_apply (ab : FVec Ideal S100000x2 .f32) (idx : IVec S401408x1 32) (o : Nat) (q : Fin 2)
    (ho : q.val = o + (0 : Fin 1).val) (hs : S100000x2.Slices ![0, o] S100000x1) (hc : S100000x1.ShapeCasts S100000)
    (e : Fin 401408) (wd : BitVec 32) (hw : idx (ix2 e 0) = wd) :
    Host.gather gather_S100000_S401408x1_S401408_n_0_n_n_0_1_1
        (shapeCast S100000 (extractStridedSlice S100000x1 ![0, o] ab hs) hc) idx (ix1 e)
      = ab (ix2 ⟨min wd.toInt.toNat 99999, by omega⟩ q) := by
  subst hw
  refine (entryGather_apply (N := 100000) (E := 401408) (by decide)
    gather_S100000_S401408x1_S401408_n_0_n_n_0_1_1_wf _ idx e).trans ?_
  rw [shapeCast_a1_a_apply, slice2_axis1_apply o ab hs _ 0 q ho]

/-- The whole chain: column q of the product at the node that entry e of row `row` of the lengthened edge list names. -/
theorem colChain_apply (ab : FVec Ideal S100000x2 .f32) (ei : IVec S2x400000 32) (o : Nat) (q : Fin 2)
    (ho : q.val = o + (0 : Fin 1).val) (hs : S100000x2.Slices ![0, o] S100000x1) (hc : S100000x1.ShapeCasts S100000)
    (o' : Nat) (row : Fin 2) (ho' : row.val = o' + (0 : Fin 1).val)
    (hs' : S2x400000.Slices ![o', 0] S1x400000) (hc' : S1x400000.ShapeCasts S400000)
    (hp : S400000.Pads (![0] : Fin 1 → Nat) ![1408] ![0] S401408) (hu : 0 < S_.numel)
    (hb0 : S_.BroadcastsInDim S401408 (![] : Fin 0 → Fin S401408.rank))
    (hb1 : S401408.BroadcastsInDim S401408x1 (![0] : Fin 1 → Fin S401408x1.rank)) (e : Fin 401408) :
    Host.gather gather_S100000_S401408x1_S401408_n_0_n_n_0_1_1
        (shapeCast S100000 (extractStridedSlice S100000x1 ![0, o] ab hs) hc)
        (broadcastInDim S401408x1 ![0] hb1
          (select
            (cmpi .slt
              (pad S401408 ![0] ![1408] ![0] (shapeCast S400000 (extractStridedSlice S1x400000 ![o', 0] ei hs') hc')
                (constantI S_ 32 0#32) hp hu)
              (broadcastInDim S401408 ![] hb0 (constantI S_ 32 0#32)))
            (addi
              (pad S401408 ![0] ![1408] ![0] (shapeCast S400000 (extractStridedSlice S1x400000 ![o', 0] ei hs') hc')
                (constantI S_ 32 0#32) hp hu)
              (broadcastInDim S401408 ![] hb0 (constantI S_ 32 100000#32)))
            (pad S401408 ![0] ![1408] ![0] (shapeCast S400000 (extractStridedSlice S1x400000 ![o', 0] ei hs') hc')
              (constantI S_ 32 0#32) hp hu)))
        (ix1 e)
      = gatherCol ab ei row q (ix1 e) := by
  have hw := nodeChain_apply
    (pad S401408 ![0] ![1408] ![0] (shapeCast S400000 (extractStridedSlice S1x400000 ![o', 0] ei hs') hc')
      (constantI S_ 32 0#32) hp hu) hb0 hb1 e
  rw [endChain_apply ei o' row ho' hs' hc' hp hu e] at hw
  exact gatherChain_apply ab _ o q ho hs hc e _ hw

end Chains

/-! ## What the buffers hold when the second region is entered -/

section Frames

/-- Nothing before the first region's exit writes the edge list. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c : Thread nD τ).loc main_arg3) := rfl

/-- Nothing before the first region's exit writes the labels. -/
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c : Thread nD τ).loc main_arg4) := rfl

/-- Nothing before the first region's exit writes the mask. -/
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c : Thread nD τ).loc main_arg5) := rfl

/-- The operations that end in the first gather, over any contents before them. -/
theorem ops8_v29 (F : Valuation τ sig (Elt Ideal)) :
    StableHlo.after hostOps1_8 F (Proc.devRef .tc main_v29)
      = (Host.gather gather_S100000_S401408x1_S401408_n_0_n_n_0_1_1 (F (Proc.devRef .tc main_v11))
          (broadcastInDim S401408x1 ![0] bcast_S401408_S401408x1_0
            (select (cmpi .slt (F (Proc.devRef .tc main_v18)) (broadcastInDim S401408 ![] bcast_S_S401408 (constantI S_ 32 0#32)))
              (addi (F (Proc.devRef .tc main_v18)) (broadcastInDim S401408 ![] bcast_S_S401408 (constantI S_ 32 100000#32)))
              (F (Proc.devRef .tc main_v18)))) : FVec Ideal S401408 .f32) := by
  after_results_simp

/-- The operations that end in the second gather, over any contents before them. -/
theorem ops8_v36 (F : Valuation τ sig (Elt Ideal)) :
    StableHlo.after hostOps1_8 F (Proc.devRef .tc main_v36)
      = (Host.gather gather_S100000_S401408x1_S401408_n_0_n_n_0_1_1 (F (Proc.devRef .tc main_v13))
          (broadcastInDim S401408x1 ![0] bcast_S401408_S401408x1_0
            (select (cmpi .slt (F (Proc.devRef .tc main_v19)) (broadcastInDim S401408 ![] bcast_S_S401408 (constantI S_ 32 0#32)))
              (addi (F (Proc.devRef .tc main_v19)) (broadcastInDim S401408 ![] bcast_S_S401408 (constantI S_ 32 100000#32)))
              (F (Proc.devRef .tc main_v19)))) : FVec Ideal S401408 .f32) := by
  after_results_simp

/-- Column 0 of the product, flattened, as the last stretch of operations finds it. -/
theorem W10_v11 (c : Dev nD) :
    W10 m ρ c (Proc.devRef .tc main_v11)
      = (shapeCast S100000 (extractStridedSlice S100000x1 ![0, 0] (W2 m ρ c (Proc.devRef .tc main_v9))
          slices_S100000x2_S100000x1_0_0) shapeCasts_S100000x1_S100000 : FVec Ideal S100000 .f32) := by
  dsimp only [W10, W9, W8, W7, W6, W5, W4, W3]
  after_results_simp <;> rfl

/-- Column 1 of the product, flattened, as the last stretch of operations finds it. -/
theorem W10_v13 (c : Dev nD) :
    W10 m ρ c (Proc.devRef .tc main_v13)
      = (shapeCast S100000 (extractStridedSlice S100000x1 ![0, 1] (W2 m ρ c (Proc.devRef .tc main_v9))
          slices_S100000x2_S100000x1_0_1) shapeCasts_S100000x1_S100000 : FVec Ideal S100000 .f32) := by
  dsimp only [W10, W9, W8, W7, W6, W5, W4, W3]
  after_results_simp <;> rfl

/-- The lengthened row 0 of the edge list, as the last stretch of operations finds it. -/
theorem W10_v18 (c : Dev nD) :
    W10 m ρ c (Proc.devRef .tc main_v18)
      = (pad S401408 ![0] ![1408] ![0]
          (shapeCast S400000 (extractStridedSlice S1x400000 ![0, 0] (W2 m ρ c (Proc.devRef .tc main_arg3))
            slices_S2x400000_S1x400000_0_0) shapeCasts_S1x400000_S400000)
          (constantI S_ 32 0#32) pads_S400000_S401408_014080 h_S_ : IVec S401408 32) := by
  dsimp only [W10, W9, W8, W7, W6, W5, W4, W3]
  after_results_simp <;> rfl

/-- The lengthened row 1 of the edge list, as the last stretch of operations finds it. -/
theorem W10_v19 (c : Dev nD) :
    W10 m ρ c (Proc.devRef .tc main_v19)
      = (pad S401408 ![0] ![1408] ![0]
          (shapeCast S400000 (extractStridedSlice S1x400000 ![1, 0] (W2 m ρ c (Proc.devRef .tc main_arg3))
            slices_S2x400000_S1x400000_1_0) shapeCasts_S1x400000_S400000)
          (constantI S_ 32 0#32) pads_S400000_S401408_014080 h_S_ : IVec S401408 32) := by
  dsimp only [W10, W9, W8, W7, W6, W5, W4, W3]
  after_results_simp <;> rfl

end Frames

/-! ## The four arrays the second region reads -/

/-- The first gathered scalar array: column 0 of the product at the source node of each entry. -/
theorem v29_eq (c : Dev nD) :
    V11 m ρ c main_v29 = gatherCol (W2 m ρ c (Proc.devRef .tc main_v9)) (m ((c : Thread nD τ).loc main_arg3)) 0 0 := by
  show StableHlo.after hostOps1_8 (W10 m ρ c) (Proc.devRef .tc main_v29) = _
  rw [ops8_v29, W10_v11, W10_v18, W2_main_arg3]
  funext j
  obtain ⟨e0, rfl⟩ : ∃ e0, j = ix1 e0 := ⟨_, eq_ix1 j⟩
  exact colChain_apply _ _ 0 0 rfl _ _ 0 0 rfl _ _ _ _ _ _ e0

/-- The second gathered scalar array: column 1 of the product at the target node of each entry. -/
theorem v36_eq (c : Dev nD) :
    V11 m ρ c main_v36 = gatherCol (W2 m ρ c (Proc.devRef .tc main_v9)) (m ((c : Thread nD τ).loc main_arg3)) 1 1 := by
  show StableHlo.after hostOps1_8 (W10 m ρ c) (Proc.devRef .tc main_v36) = _
  rw [ops8_v36, W10_v13, W10_v19, W2_main_arg3]
  funext j
  obtain ⟨e0, rfl⟩ : ∃ e0, j = ix1 e0 := ⟨_, eq_ix1 j⟩
  exact colChain_apply _ _ 1 1 rfl _ _ 1 1 rfl _ _ _ _ _ _ e0

/-- The lengthened label array. -/
theorem v20_eq (c : Dev nD) :
    V11 m ρ c main_v20 = labArr (m ((c : Thread nD τ).loc main_arg4)) := by
  have e : (V11 m ρ c main_v20 : IVec S401408 32)
      = pad S401408 ![0] ![1408] ![0] (W2 m ρ c (Proc.devRef .tc main_arg4)) (constantI S_ 32 0#32)
          pads_S400000_S401408_014080 h_S_ := by
    dsimp only [V11, W11, W10, W9, W8, W7, W6, W5, W4, W3]
    after_results_simp <;> rfl
  rw [e, W2_main_arg4]
  funext j
  obtain ⟨e0, rfl⟩ : ∃ e0, j = ix1 e0 := ⟨_, eq_ix1 j⟩
  refine (pad_high_apply _ _ _ _ e0).trans ?_
  rfl

/-- The lengthened mask array, in 32-bit words. -/
theorem v22_eq (c : Dev nD) :
    V11 m ρ c main_v22 = maskArr (m ((c : Thread nD τ).loc main_arg5)) := by
  have e : (V11 m ρ c main_v22 : IVec S401408 32)
      = pad S401408 ![0] ![1408] ![0] (extui 32 (W2 m ρ c (Proc.devRef .tc main_arg5)) natLt_1_32) (constantI S_ 32 0#32)
          pads_S400000_S401408_014080 h_S_ := by
    dsimp only [V11, W11, W10, W9, W8, W7, W6, W5, W4, W3]
    after_results_simp <;> rfl
  rw [e, W2_main_arg5]
  funext j
  obtain ⟨e0, rfl⟩ : ∃ e0, j = ix1 e0 := ⟨_, eq_ix1 j⟩
  refine (pad_high_apply _ _ _ _ e0).trans ?_
  rfl

end Cert.KernelIdeal.HostBetween

end
-- ==== Proof.SpecGlue.lean ====
/-
  The whole-array functions composed: the scores cut from the scores of the gathered columns of the product with the
  folded weights are the folded spelling of the scores, and the guarded quotient of the two sums over the lengthened
  list is the guarded mean. Both are the definitions unfolded: a coordinate taken from an index built from coordinates
  is that coordinate.
-/
import proofs.«117142_j87205015978654_2_alg».proof.Proof.Spec

noncomputable section

open scoped BigOperators

namespace Cert.EdgeFocal

open Idealize.ShloMosaic Idealize.ShloMosaic.ValueIdx

variable (x : FVec Ideal ⟨2, ![100000, 256]⟩ .f32) (wd : FVec Ideal ⟨2, ![64, 256]⟩ .f32) (wf : FVec Ideal ⟨2, ![1, 192]⟩ .f32)
  (ei : IVec ⟨2, ![2, 400000]⟩ 32) (lab : IVec ⟨1, ![400000]⟩ 32) (msk : IVec ⟨1, ![400000]⟩ 1)

/-- Entry (r, q) of the product with the folded weights is the per-node scalar. -/
theorem prodAB_folded (r : Fin 100000) (q : Fin 2) :
    prodAB x (foldedArr wd wf) (ix2 r q) = nodeScalar x wd wf r q := rfl

/-- A gathered column of that product at entry e is the per-node scalar of the node the entry names. -/
theorem gatherCol_folded (row q : Fin 2) (e : Fin 401408) :
    gatherCol (prodAB x (foldedArr wd wf)) ei row q (ix1 e) = nodeScalar x wd wf (node (endWord ei row e)) q := rfl

/-- The scores of the lengthened list from the gathered columns, at entry e, are the folded spelling's. -/
theorem edgeScores_folded (e : Fin 401408) :
    edgeScores (gatherCol (prodAB x (foldedArr wd wf)) ei 0 0) (gatherCol (prodAB x (foldedArr wd wf)) ei 1 1) (ix1 e)
      = scoreK x wd wf ei e := rfl

/-- The first 400000 of those scores are the scores of the folded spelling. -/
theorem firstEdges_scores :
    firstEdges (edgeScores (gatherCol (prodAB x (foldedArr wd wf)) ei 0 0) (gatherCol (prodAB x (foldedArr wd wf)) ei 1 1))
      = scoresK x wd wf ei := by
  funext e
  exact edgeScores_folded x wd wf ei _

/-- The sum of loss × mask over the lengthened list, from the gathered columns and the lengthened label and mask arrays. -/
theorem edgeLossSum_folded (j : (⟨2, ![1, 1]⟩ : Shape).Idx) :
    edgeLossSum (gatherCol (prodAB x (foldedArr wd wf)) ei 0 0) (gatherCol (prodAB x (foldedArr wd wf)) ei 1 1)
        (labArr lab) (maskArr msk) j
      = lossSumK x wd wf ei lab msk := rfl

/-- The sum of the mask over the lengthened list. -/
theorem edgeMaskSum_folded (j : (⟨2, ![1, 1]⟩ : Shape).Idx) : edgeMaskSum (maskArr msk) j = maskSumK msk := rfl

/-- The guarded quotient of the two sums is the guarded mean. -/
theorem guardedMean_folded :
    guardedMean
        (edgeLossSum (gatherCol (prodAB x (foldedArr wd wf)) ei 0 0) (gatherCol (prodAB x (foldedArr wd wf)) ei 1 1)
          (labArr lab) (maskArr msk))
        (edgeMaskSum (maskArr msk))
      = meanArrK x wd wf ei lab msk := rfl

end Cert.EdgeFocal

end
-- ==== Proof.KernelValue.lean ====
/-
  The kernel program's two results as mathematics. The contents of the two result buffers at the last segment boundary
  are walked back through the segments: the host tail reads what the second region leaves; the second region's arrays
  are the scores and the two sums of its input arrays; those are the gathered columns of what the first region leaves
  and the lengthened label and mask arrays; the first region leaves the product of the features with the folded
  weights. Composed, the first result is the folded spelling of the scores and the second the guarded mean.
-/
import proofs.«117142_j87205015978654_2_alg».proof.Proof.Region0
import proofs.«117142_j87205015978654_2_alg».proof.Proof.Region1
import proofs.«117142_j87205015978654_2_alg».proof.Proof.HostEnds
import proofs.«117142_j87205015978654_2_alg».proof.Proof.HostBetween
import proofs.«117142_j87205015978654_2_alg».proof.Proof.SpecGlue

noncomputable section

open scoped BigOperators

namespace Cert.KernelIdeal.Results

open Cert.KernelIdeal Cert.KernelIdeal.Gen Cert.EdgeFocal
open Idealize.ShloMosaic Idealize.ShloMosaic.TcCoe Idealize.ShloMosaic.ValueIdx Idealize.SL.Sem

variable (m : (ℓ : Loc nD τ sig) → Buf (Elt Ideal) ℓ) (ρ : Dev nD → PrngReg)

/-- What the first region leaves in the product array: the features times the folded weights. -/
theorem product_eq (c : Dev nD) :
    W2 m ρ c (Proc.devRef .tc main_v9)
      = prodAB (m ((c : Thread nD τ).loc main_arg0)) (foldedArr (m ((c : Thread nD τ).loc main_arg1)) (m ((c : Thread nD τ).loc main_arg2))) := by
  have h := (W2_arr m ρ c 2).trans (RegionAB.arr_ab (V1 m ρ) c)
  rw [HostEnds.v1_arg0 m ρ c, HostEnds.v8_eq m ρ c] at h
  exact h

/-- The score array the second region leaves. -/
theorem scores_pad_eq (c : Dev nD) :
    W12 m ρ c (Proc.devRef .tc main_v37_0)
      = edgeScores
          (gatherCol (prodAB (m ((c : Thread nD τ).loc main_arg0)) (foldedArr (m ((c : Thread nD τ).loc main_arg1)) (m ((c : Thread nD τ).loc main_arg2)))) (m ((c : Thread nD τ).loc main_arg3)) 0 0)
          (gatherCol (prodAB (m ((c : Thread nD τ).loc main_arg0)) (foldedArr (m ((c : Thread nD τ).loc main_arg1)) (m ((c : Thread nD τ).loc main_arg2)))) (m ((c : Thread nD τ).loc main_arg3)) 1 1) := by
  have h := (W12_arr m ρ c 4).trans (RegionEdges.arr_score (V11 m ρ) c)
  rw [HostBetween.v29_eq m ρ c, HostBetween.v36_eq m ρ c, product_eq m ρ c] at h
  exact h

/-- The loss accumulator the second region leaves. -/
theorem lossSum_eq (c : Dev nD) :
    W12 m ρ c (Proc.devRef .tc main_v37_1)
      = edgeLossSum
          (gatherCol (prodAB (m ((c : Thread nD τ).loc main_arg0)) (foldedArr (m ((c : Thread nD τ).loc main_arg1)) (m ((c : Thread nD τ).loc main_arg2)))) (m ((c : Thread nD τ).loc main_arg3)) 0 0)
          (gatherCol (prodAB (m ((c : Thread nD τ).loc main_arg0)) (foldedArr (m ((c : Thread nD τ).loc main_arg1)) (m ((c : Thread nD τ).loc main_arg2)))) (m ((c : Thread nD τ).loc main_arg3)) 1 1)
          (labArr (m ((c : Thread nD τ).loc main_arg4))) (maskArr (m ((c : Thread nD τ).loc main_arg5))) := by
  have h := (W12_arr m ρ c 5).trans (RegionEdges.arr_lossSum (V11 m ρ) c)
  rw [HostBetween.v29_eq m ρ c, HostBetween.v36_eq m ρ c, HostBetween.v20_eq m ρ c, HostBetween.v22_eq m ρ c, product_eq m ρ c] at h
  exact h

/-- The mask accumulator the second region leaves. -/
theorem maskSum_eq (c : Dev nD) :
    W12 m ρ c (Proc.devRef .tc main_v37_2) = edgeMaskSum (maskArr (m ((c : Thread nD τ).loc main_arg5))) := by
  have h := (W12_arr m ρ c 6).trans (RegionEdges.arr_maskSum (V11 m ρ) c)
  rw [HostBetween.v22_eq m ρ c] at h
  exact h

/-- The first result: the folded spelling of the 400000 scores of the arguments. -/
theorem scores_eq (c : Dev nD) :
    W14 m ρ c (Proc.devRef .tc main_v38)
      = scoresK (m ((c : Thread nD τ).loc main_arg0)) (m ((c : Thread nD τ).loc main_arg1)) (m ((c : Thread nD τ).loc main_arg2))
          (m ((c : Thread nD τ).loc main_arg3)) := by
  rw [HostEnds.v38_eq m ρ c, scores_pad_eq m ρ c]
  exact firstEdges_scores _ _ _ _

/-- The second result: the guarded mean of the arguments. -/
theorem mean_eq (c : Dev nD) :
    W14 m ρ c (Proc.devRef .tc main_v43)
      = meanArrK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [HostEnds.v43_eq m ρ c, lossSum_eq m ρ c, maskSum_eq m ρ c]
  exact guardedMean_folded _ _ _ _ _ _

end Cert.KernelIdeal.Results

end
-- ==== Proof.LibRowGatherScatter.lean ====
/-
  A gather of rows and an accumulating scatter of rows, read at an entry.

  `x[idx]` on a [N, C] array with E row numbers gathers row idx(e) of x into row e of an [E, C] array; the row number is
  read as a signed integer and clamped into [0, N − 1]. The accumulating scatter `zeros.at[idx].add(u)` adds row e of an
  [E, C] array of updates onto row idx(e) of a [N, C] array; there the row number is read signed and NOT clamped, and an
  update whose row number is outside [0, N) is dropped. At the exact reading of floats as extended reals the scatter's
  entry (r, q) is the operand's entry plus the sum of the update entries (e, q) over the e with idx(e) = r.
-/
import Idealize.ShloMosaic.PureOps.Ideal
import Idealize.ShloMosaic.Lib.ValueIdx

noncomputable section

open scoped BigOperators

namespace Cert.RowIndexed

open Idealize.ShloMosaic Idealize.ShloMosaic.ValueIdx

variable {α : Type}

/-- The dimension numbers of a gather of whole rows: the row axis is collapsed and named by the one start index, the
    column axis is the offset axis, the row numbers come as an [E, 1] array. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a gather reads for position e: the row number read signed, clamped into [0, N − 1]. -/
def gatherRow (N : Nat) (hN : 0 < N) {E w : Nat} (idx : IVec ⟨2, ![E, 1]⟩ w) (e : Fin E) : Fin N :=
  ⟨min (idx (ix2 e 0)).toInt.toNat (N - 1), by omega⟩

/-- The gather of rows at (e, q): the operand at (the clamped row number of e, q). -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (gatherRow N hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = _
    rw [GatherDims.batchCoord_eq_zero _ _ _ List.not_mem_nil]
    have hst : (rowGatherDims N E C wf).start (ix2 e q) idx 1 = 0 := by
      unfold GatherDims.start
      rw [dif_neg (show (1 : Fin 2) ∉ (rowGatherDims N E C wf).startIndexMap from
        (by decide : (1 : Fin 2) ∉ ([0] : List (Fin 2))))]
    rw [hst]
    simp only [Nat.add_zero, Nat.zero_add]
    unfold GatherDims.offCoord
    rw [dif_pos (show (1 : Fin 2) ∈ (rowGatherDims N E C wf).sKept from
      (GatherDims.mem_sKept _ _).mpr ⟨(by decide : (1 : Fin 2) ∉ ([0] : List (Fin 2))), List.not_mem_nil⟩)]
    rfl

/-- The dimension numbers of a scatter of whole rows: the updates' column axis is the window axis, the operand's row
    axis is inserted and named by the one start index, the row numbers come as an [E, 1] array. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's row axis the window starts at the row number of position e, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e q) ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis the window starts at 0: the start index does not name that axis. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 1 = 0 := by
  unfold ScatterDims.start
  rw [dif_neg (show (1 : Fin 2) ∉ (rowScatterDims N E C wf).scatterDimsToOperandDims from
    (by decide : (1 : Fin 2) ∉ ([0] : List (Fin 2))))]

/-- The row axis is inserted: its window coordinate is 0. -/
theorem rowScatter_window0 {N E C : Nat} (wf : ScatterDims.WF ⟨2, ![N, C]⟩ ⟨2, ![E, 1]⟩ ⟨2, ![E, C]⟩ [1] [0] [0] 1)
    (e : Fin E) (q : Fin C) :
    (rowScatterDims N E C wf).window (ix2 e q) 0 = 0 := by
  unfold ScatterDims.window
  rw [dif_neg (show (0 : Fin 2) ∉ (rowScatterDims N E C wf).sKept from
    (by decide : (0 : Fin 2) ∉ ([1] : List (Fin 2))))]

/-- The column axis is the window axis: its window coordinate is the update's column. -/
theorem rowScatter_window1 {N E C : Nat} (wf : ScatterDims.WF ⟨2, ![N, C]⟩ ⟨2, ![E, 1]⟩ ⟨2, ![E, C]⟩ [1] [0] [0] 1)
    (e : Fin E) (q : Fin C) :
    (rowScatterDims N E C wf).window (ix2 e q) 1 = q.val := by
  unfold ScatterDims.window
  rw [dif_pos (show (1 : Fin 2) ∈ (rowScatterDims N E C wf).sKept from
    (by decide : (1 : Fin 2) ∈ ([1] : List (Fin 2))))]
  rfl

/-- Update entry (e, q) lands on (r, q') exactly when its row number, read signed, is r and q = q'. -/
theorem rowScatter_resultIdx {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) (r : Fin N) (q' : Fin C) :
    (rowScatterDims N E C wf).resultIdx? (ix2 e q) idx = some (ix2 r q') ↔ (idx (ix2 e 0)).toInt = (r.val : ℤ) ∧ q = q' := by
  unfold ScatterDims.resultIdx?
  constructor
  · intro h
    split at h
    · have h' := Option.some.inj h
      have h0 : ((rowScatterDims N E C wf).start (ix2 e q) idx 0 + (rowScatterDims N E C wf).window (ix2 e q) 0).toNat = r.val :=
        congrArg Fin.val (congrFun h' 0)
      have h1 : ((rowScatterDims N E C wf).start (ix2 e q) idx 1 + (rowScatterDims N E C wf).window (ix2 e q) 1).toNat = q'.val :=
        congrArg Fin.val (congrFun h' 1)
      rename_i hall
      have ha0 := hall 0
      rw [rowScatter_start0, rowScatter_window0] at h0 ha0
      rw [rowScatter_start1, rowScatter_window1] at h1
      refine ⟨?_, Fin.ext ?_⟩
      · omega
      · omega
    · exact absurd h (by simp)
  · rintro ⟨hr, rfl⟩
    have hall : ∀ a, 0 ≤ (rowScatterDims N E C wf).start (ix2 e q) idx a + (rowScatterDims N E C wf).window (ix2 e q) a ∧
        (rowScatterDims N E C wf).start (ix2 e q) idx a + (rowScatterDims N E C wf).window (ix2 e q) a
          < ((⟨2, ![N, C]⟩ : Shape).size a : ℤ) := by
      intro a
      match a with
      | ⟨0, _⟩ =>
        show 0 ≤ (rowScatterDims N E C wf).start (ix2 e q) idx 0 + (rowScatterDims N E C wf).window (ix2 e q) 0 ∧
          (rowScatterDims N E C wf).start (ix2 e q) idx 0 + (rowScatterDims N E C wf).window (ix2 e q) 0 < (N : ℤ)
        rw [rowScatter_start0, rowScatter_window0]
        have := r.isLt
        omega
      | ⟨1, _⟩ =>
        show 0 ≤ (rowScatterDims N E C wf).start (ix2 e q) idx 1 + (rowScatterDims N E C wf).window (ix2 e q) 1 ∧
          (rowScatterDims N E C wf).start (ix2 e q) idx 1 + (rowScatterDims N E C wf).window (ix2 e q) 1 < (C : ℤ)
        rw [rowScatter_start1, rowScatter_window1]
        have := q.isLt
        omega
    rw [dif_pos hall]
    congr 1
    funext a
    refine Fin.ext ?_
    match a with
    | ⟨0, _⟩ =>
      show ((rowScatterDims N E C wf).start (ix2 e q) idx 0 + (rowScatterDims N E C wf).window (ix2 e q) 0).toNat = r.val
      rw [rowScatter_start0, rowScatter_window0]
      omega
    | ⟨1, _⟩ =>
      show ((rowScatterDims N E C wf).start (ix2 e q) idx 1 + (rowScatterDims N E C wf).window (ix2 e q) 1).toNat = q.val
      rw [rowScatter_start1, rowScatter_window1]
      omega

/-- The accumulating scatter of rows at (r, q), at the exact reading: the operand's entry plus the sum of the update
    entries (e, q) over the positions e whose row number is r. -/
theorem rowScatterAdd_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (q : Fin C) :
    Ideal.hostScatterAdd (rowScatterDims N E C wf) x idx upd (ix2 r q)
      = x (ix2 r q) + ∑ e ∈ Finset.univ.filter (fun e : Fin E => (idx (ix2 e 0)).toInt = (r.val : ℤ)), upd (ix2 e q) := by
  unfold Ideal.hostScatterAdd
  congr 1
  symm
  refine Finset.sum_bij (fun e _ => ix2 e q) ?_ ?_ ?_ ?_
  · intro e he
    rw [Finset.mem_filter] at he ⊢
    exact ⟨Finset.mem_univ _, (rowScatter_resultIdx wf idx e q r q).mpr ⟨he.2, rfl⟩⟩
  · intro e₁ _ e₂ _ h
    exact congrFun h 0
  · intro j hj
    obtain ⟨e', c', rfl⟩ : ∃ (e' : Fin E) (c' : Fin C), j = ix2 e' c' := ⟨j 0, j 1, eq_ix2 j⟩
    rw [Finset.mem_filter, rowScatter_resultIdx] at hj
    obtain ⟨_, hrow, rfl⟩ := hj
    exact ⟨e', Finset.mem_filter.mpr ⟨Finset.mem_univ _, hrow⟩, rfl⟩
  · intro e _
    rfl

end Cert.RowIndexed

end
-- ==== Proof.LibMoments.lean ====
/-
  Extended reals that are real numbers, and the two-moment law.

  An extended real is REAL when it is the image of a real number. Sums, differences, products and
  maxima of real entries are real; a quotient of a real entry by a real number that is not zero is
  real; the reciprocal square root of a real entry that is not negative, shifted by a positive real,
  is real. The f32 words of zero, one, one hundred thousand and a small positive constant denote the
  reals they spell.

  The law that joins two ways of computing a variance: over a finite index type with N entries,
  all real, the mean of the squares minus the square of the mean is the mean of the squared
  deviations from the mean. A mean of squared deviations of real entries from a real centre is real
  and is not negative.
-/
import Mathlib.Data.EReal.Inv
import Mathlib.Data.EReal.Operations
import Mathlib.Algebra.BigOperators.Field
import Mathlib.Tactic
import Idealize.ShloMosaic.PureOps.Ideal
import Idealize.ShloMosaic.PureOps.Ideal.Laws
import Idealize.ShloMosaic.PureOps.IdealRules

open scoped BigOperators

namespace Cert.LibMoments

open Idealize.ShloMosaic

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, by norm_cast⟩

theorem isReal_one : IsReal 1 := ⟨1, by norm_cast⟩

theorem IsReal.add {x y : EReal} : IsReal x → IsReal y → IsReal (x + y) := by
  rintro ⟨a, rfl⟩ ⟨b, rfl⟩; exact ⟨a + b, by norm_cast⟩

theorem IsReal.sub {x y : EReal} : IsReal x → IsReal y → IsReal (x - y) := by
  rintro ⟨a, rfl⟩ ⟨b, rfl⟩; exact ⟨a - b, by norm_cast⟩

theorem IsReal.mul {x y : EReal} : IsReal x → IsReal y → IsReal (x * y) := by
  rintro ⟨a, rfl⟩ ⟨b, rfl⟩; exact ⟨a * b, by norm_cast⟩

theorem IsReal.max {x y : EReal} : IsReal x → IsReal y → IsReal (max x y) := by
  rintro ⟨a, rfl⟩ ⟨b, rfl⟩; exact ⟨Max.max a b, by norm_cast⟩

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) :
    (∀ i ∈ s, IsReal (f i)) → IsReal (∑ i ∈ s, f i) := by
  classical
  induction s using Finset.induction_on with
  | empty => intro _; simpa using isReal_zero
  | insert a s ha ih =>
    intro h
    rw [Finset.sum_insert ha]
    exact IsReal.add (h a (Finset.mem_insert_self a s))
      (ih fun i hi => h i (Finset.mem_insert_of_mem hi))

/-! ### The words of four constants -/

theorem ofBits_zero : Ideal.ofBits .f32 0x00000000#32 = 0 := Ideal.ofBits_zero_f32

theorem ofBits_one : Ideal.ofBits .f32 0x3F800000#32 = 1 :=
  IdealRules.sign_bit.ideal_onePat .f32

/-- Sign 0, exponent 143, significand `2^23 + 4411392`: `12800000 · 2^(-7)`. -/
theorem ofBits_count : Ideal.ofBits .f32 0x47C35000#32 = ((100000 : ℝ) : EReal) := by
  simp [Ideal.ofBits, Ideal.ieee, -EReal.coe_mul]; norm_num

/-- Sign 0, exponent 110, significand `2^23 + 2606508`: a positive real. -/
theorem ofBits_eps : ∃ e : ℝ, 0 < e ∧ Ideal.ofBits .f32 0x3727C5AC#32 = (e : EReal) := by
  refine ⟨((2 ^ 23 + 2606508 : ℕ) : ℝ) * (2 : ℝ) ^ (-40 : ℤ), by positivity, ?_⟩
  simp [Ideal.ofBits, Ideal.ieee, -EReal.coe_mul]

/-! ### Quotients and the reciprocal square root -/

/-- A quotient of reals by a real that is not zero, as the image of the real quotient. -/
theorem div_coe_coe (a : ℝ) {d : ℝ} (hd : d ≠ 0) :
    Ideal.div (a : EReal) (d : EReal) = ((a / d : ℝ) : EReal) := by
  rw [Ideal.div_coe hd, ← EReal.coe_mul, mul_one_div]

theorem div_isReal {x : EReal} {d : ℝ} (hd : d ≠ 0) : IsReal x → IsReal (Ideal.div x (d : EReal)) := by
  rintro ⟨a, rfl⟩; exact ⟨a / d, div_coe_coe a hd⟩

theorem one_div_mul (a d : EReal) (hd : d ≠ 0) : a * Ideal.div 1 d = Ideal.div a d := by
  unfold Ideal.div; rw [if_neg hd, if_neg hd, one_mul]

theorem max_one_ne_zero (x : EReal) : max x 1 ≠ 0 := by
  intro e
  have h : (1 : EReal) ≤ max x 1 := le_max_right _ _
  rw [e] at h
  exact absurd h (not_le.mpr zero_lt_one)

theorem max_one_isReal {x : EReal} : IsReal x → IsReal (max x 1) := fun h => IsReal.max h isReal_one

theorem one_div_isReal {d : EReal} : IsReal d → d ≠ 0 → IsReal (Ideal.div 1 d) := by
  rintro ⟨r, rfl⟩ hd
  have hr : r ≠ 0 := by rintro rfl; exact hd EReal.coe_zero
  exact div_isReal hr isReal_one

theorem rsqrt_isReal {v : EReal} {e : ℝ} (he : 0 < e) :
    IsReal v → 0 ≤ v → IsReal (Ideal.rsqrt (v + (e : EReal))) := by
  rintro ⟨r, rfl⟩ h0
  have hr : 0 ≤ r := EReal.coe_nonneg.mp h0
  have hpos : 0 < r + e := by linarith
  rw [← EReal.coe_add, Ideal.rsqrt_coe, if_neg (not_lt.mpr hpos.le), if_neg hpos.ne']
  exact isReal_coe _

/-! ### The two-moment law -/

/-- A sum of products of differences of real entries from a real centre, as the image of the real sum. -/
theorem coe_sum_dev {ι : Type*} (s : Finset ι) (f : ι → ℝ) (u : ℝ) :
    ∑ i ∈ s, ((f i : EReal) - (u : EReal)) * ((f i : EReal) - (u : EReal))
      = ((∑ i ∈ s, (f i - u) * (f i - u) : ℝ) : EReal) := by
  rw [coe_finset_sum]
  exact Finset.sum_congr rfl fun i _ => by rw [← EReal.coe_sub, ← EReal.coe_mul]

/-- A sum of squares of real entries, as the image of the real sum. -/
theorem coe_sum_sq {ι : Type*} (s : Finset ι) (f : ι → ℝ) :
    ∑ i ∈ s, (f i : EReal) * (f i : EReal) = ((∑ i ∈ s, f i * f i : ℝ) : EReal) := by
  rw [coe_finset_sum]
  exact Finset.sum_congr rfl fun i _ => (EReal.coe_mul _ _).symm

/-- In the reals: the sum of the squared deviations from a centre `u`, expanded. -/
theorem real_sum_dev {ι : Type*} [Fintype ι] (f : ι → ℝ) (u : ℝ) :
    ∑ i, (f i - u) * (f i - u)
      = (∑ i, f i * f i) - 2 * u * (∑ i, f i) + (Fintype.card ι : ℝ) * (u * u) := by
  have h : ∀ i, (f i - u) * (f i - u) = f i * f i - 2 * u * f i + u * u := fun i => by ring
  simp only [h, Finset.sum_add_distrib, Finset.sum_sub_distrib, ← Finset.mul_sum, Finset.sum_const,
    Finset.card_univ, nsmul_eq_mul]
  ring

/-- In the reals: the mean of the squares minus the squared mean is the mean of the squared deviations
    from the mean. -/
theorem real_moment_law {ι : Type*} [Fintype ι] (f : ι → ℝ) (N : ℝ) (hN : (Fintype.card ι : ℝ) = N)
    (hN0 : N ≠ 0) :
    (∑ i, f i * f i) / N - (∑ i, f i) / N * ((∑ i, f i) / N)
      = (∑ i, (f i - (∑ i, f i) / N) * (f i - (∑ i, f i) / N)) / N := by
  rw [real_sum_dev, hN]
  field_simp
  ring

theorem moment_law {ι : Type*} [Fintype ι] (z : ι → EReal) (hz : ∀ i, IsReal (z i)) (N : ℝ)
    (hN : (Fintype.card ι : ℝ) = N) (hN0 : N ≠ 0) :
    Ideal.div (∑ i, z i * z i) (N : EReal) - Ideal.div (∑ i, z i) (N : EReal) * Ideal.div (∑ i, z i) (N : EReal)
      = Ideal.div (∑ i, (z i - Ideal.div (∑ i, z i) (N : EReal)) * (z i - Ideal.div (∑ i, z i) (N : EReal))) (N : EReal) := by
  choose f hf using hz
  obtain rfl : z = fun i => (f i : EReal) := funext hf
  rw [coe_sum_sq, ← coe_finset_sum, div_coe_coe _ hN0, div_coe_coe _ hN0, coe_sum_dev, div_coe_coe _ hN0,
    ← EReal.coe_mul, ← EReal.coe_sub, real_moment_law f N hN hN0]

theorem deviations_nonneg {ι : Type*} [Fintype ι] (z : ι → EReal) (hz : ∀ i, IsReal (z i)) (μ : EReal)
    (hμ : IsReal μ) (N : ℝ) (hN0 : 0 < N) :
    0 ≤ Ideal.div (∑ i, (z i - μ) * (z i - μ)) (N : EReal)
      ∧ IsReal (Ideal.div (∑ i, (z i - μ) * (z i - μ)) (N : EReal)) := by
  choose f hf using hz
  obtain rfl : z = fun i => (f i : EReal) := funext hf
  obtain ⟨u, rfl⟩ := hμ
  rw [coe_sum_dev, div_coe_coe _ hN0.ne']
  exact ⟨EReal.coe_nonneg.mpr (div_nonneg (Finset.sum_nonneg fun i _ => mul_self_nonneg _) hN0.le),
    isReal_coe _⟩

end Cert.LibMoments
-- ==== Proof.RefValue.lean ====
/-
  The reference program's two results as mathematics: the scores through the projected rows, and the unguarded mean
  of the masked losses.
-/
import proofs.«117142_j87205015978654_2_alg».proof.Proof.Gen.ReferenceIdeal.Read
import proofs.«117142_j87205015978654_2_alg».proof.Proof.Spec
import proofs.«117142_j87205015978654_2_alg».proof.Proof.LibRowGatherScatter
import proofs.«117142_j87205015978654_2_alg».proof.Proof.LibMoments

noncomputable section

open scoped BigOperators

namespace Cert.ReferenceIdeal.RefValue

open Cert.ReferenceIdeal Cert.ReferenceIdeal.Gen Cert.EdgeFocal
open Idealize.ShloMosaic Idealize.ShloMosaic.TcCoe Idealize.ShloMosaic.ValueIdx Idealize.SL.Sem

/-! ## The projection and the two gathers -/

/-- An entry of the product of the features with the transposed projection weights is an entry of the projection. -/
theorem projected_apply (x0 : (⟨S100000x256, .f32⟩ : BufTy).Contents (Elt Ideal)) (x1 : (⟨S64x256, .f32⟩ : BufTy).Contents (Elt Ideal))
    (r : Fin 100000) (c : Fin 64) :
    Read.val_main_v1 (F := Ideal) x0 x1 (ix2 r c) = projected x0 x1 r c := by
  rw [Read.val_main_v1_apply]
  unfold projected
  refine Finset.sum_congr rfl fun k _ => ?_
  rw [Read.val_main_v0_apply]
  have e1 : Read.lidx_main_v1 (ix2 r c) k = ix2 r k :=
    funext fun a => Fin.ext (by match a with | ⟨0, _⟩ => rfl | ⟨1, _⟩ => rfl)
  have e2 : Read.idx_main_v0 (Read.ridx_main_v1 (ix2 r c) k) = ix2 c k :=
    funext fun a => Fin.ext (by match a with | ⟨0, _⟩ => rfl | ⟨1, _⟩ => rfl)
  rw [e1, e2]

/-- The start index the first gather takes for edge e: the source word after the wrap of a negative word. -/
theorem start0_apply (x3 : (⟨S2x400000, .i32⟩ : BufTy).Contents (Elt Ideal)) (e : Fin 400000) :
    Read.val_main_v9 (F := Ideal) x3 (ix2 e (0 : Fin 1))
      = Scalar.select (IntOp.cmpi .slt (x3 (ix2 0 e)) 0#32) (IntOp.addi (x3 (ix2 0 e)) 100000#32) (x3 (ix2 0 e)) := by
  have e1 : Read.idx_main_v2 (Read.idx_main_v3 (Read.idx_main_v9 (ix2 e (0 : Fin 1)))) = ix2 0 e :=
    funext fun a => Fin.ext (by
      match a with
      | ⟨0, _⟩ => rfl
      | ⟨1, _⟩ => exact Nat.mod_eq_of_lt e.isLt)
  rw [Read.val_main_v9_apply, Read.val_main_v8_apply, Read.val_main_v5_apply, Read.val_main_v7_apply,
    Read.val_main_v3_apply, Read.val_main_v2_apply, Read.val_main_v4_apply, Read.val_main_c_apply,
    Read.val_main_v6_apply, Read.val_main_c_0_apply, e1]

/-- The start index the second gather takes for edge e: the target word after the wrap of a negative word. -/
theorem start1_apply (x3 : (⟨S2x400000, .i32⟩ : BufTy).Contents (Elt Ideal)) (e : Fin 400000) :
    Read.val_main_v18 (F := Ideal) x3 (ix2 e (0 : Fin 1))
      = Scalar.select (IntOp.cmpi .slt (x3 (ix2 1 e)) 0#32) (IntOp.addi (x3 (ix2 1 e)) 100000#32) (x3 (ix2 1 e)) := by
  have e1 : Read.idx_main_v11 (Read.idx_main_v12 (Read.idx_main_v18 (ix2 e (0 : Fin 1)))) = ix2 1 e :=
    funext fun a => Fin.ext (by
      match a with
      | ⟨0, _⟩ => rfl
      | ⟨1, _⟩ => exact Nat.mod_eq_of_lt e.isLt)
  rw [Read.val_main_v18_apply, Read.val_main_v17_apply, Read.val_main_v14_apply, Read.val_main_v16_apply,
    Read.val_main_v12_apply, Read.val_main_v11_apply, Read.val_main_v13_apply, Read.val_main_c_1_apply,
    Read.val_main_v15_apply, Read.val_main_c_2_apply, e1]

/-- The row the first gather reads for edge e is the node its source word names. -/
theorem gatherRow0 (x3 : (⟨S2x400000, .i32⟩ : BufTy).Contents (Elt Ideal)) (e : Fin 400000) :
    Cert.RowIndexed.gatherRow 100000 (by decide) (Read.val_main_v9 (F := Ideal) x3) e = node (x3 (ix2 0 e)) := by
  refine Fin.ext ?_
  show min (Read.val_main_v9 (F := Ideal) x3 (ix2 e (0 : Fin 1))).toInt.toNat (100000 - 1) = _
  rw [start0_apply]
  rfl

/-- The row the second gather reads for edge e is the node its target word names. -/
theorem gatherRow1 (x3 : (⟨S2x400000, .i32⟩ : BufTy).Contents (Elt Ideal)) (e : Fin 400000) :
    Cert.RowIndexed.gatherRow 100000 (by decide) (Read.val_main_v18 (F := Ideal) x3) e = node (x3 (ix2 1 e)) := by
  refine Fin.ext ?_
  show min (Read.val_main_v18 (F := Ideal) x3 (ix2 e (0 : Fin 1))).toInt.toNat (100000 - 1) = _
  rw [start1_apply]
  rfl

/-- The first gathered array at (e, q): the projected row of the source node of edge e, at q. -/
theorem gathered0_apply (x0 : (⟨S100000x256, .f32⟩ : BufTy).Contents (Elt Ideal)) (x1 : (⟨S64x256, .f32⟩ : BufTy).Contents (Elt Ideal))
    (x3 : (⟨S2x400000, .i32⟩ : BufTy).Contents (Elt Ideal)) (e : Fin 400000) (q : Fin 64) :
    Read.val_main_v10 (F := Ideal) x0 x1 x3 (ix2 e q) = projected x0 x1 (node (x3 (ix2 0 e))) q := by
  unfold Read.val_main_v10
  refine (Cert.RowIndexed.rowGather_apply (N := 100000) (E := 400000) (C := 64) (by decide)
    gather_S100000x64_S400000x1_S400000x64_1_0_n_n_0_1_164_wf
    (Read.val_main_v1 (F := Ideal) x0 x1) (Read.val_main_v9 (F := Ideal) x3) e q).trans ?_
  rw [gatherRow0, projected_apply]

/-- The second gathered array at (e, q): the projected row of the target node of edge e, at q. -/
theorem gathered1_apply (x0 : (⟨S100000x256, .f32⟩ : BufTy).Contents (Elt Ideal)) (x1 : (⟨S64x256, .f32⟩ : BufTy).Contents (Elt Ideal))
    (x3 : (⟨S2x400000, .i32⟩ : BufTy).Contents (Elt Ideal)) (e : Fin 400000) (q : Fin 64) :
    Read.val_main_v19 (F := Ideal) x0 x1 x3 (ix2 e q) = projected x0 x1 (node (x3 (ix2 1 e))) q := by
  unfold Read.val_main_v19
  refine (Cert.RowIndexed.rowGather_apply (N := 100000) (E := 400000) (C := 64) (by decide)
    gather_S100000x64_S400000x1_S400000x64_1_0_n_n_0_1_164_wf
    (Read.val_main_v1 (F := Ideal) x0 x1) (Read.val_main_v18 (F := Ideal) x3) e q).trans ?_
  rw [gatherRow1, projected_apply]

/-! ## The concatenation, the scoring product and the logistic -/

/-- Three [400000, 64] pieces side by side along the second axis, read at (e, k): the piece that holds column k. -/
theorem concat3_apply {α : Type} (A B D : S400000x64.Idx → α)
    (h : Shape.Concatenates [S400000x64, S400000x64, S400000x64] S400000x192 1) (e : Fin 400000) (k : Fin 192) :
    concatenate S400000x192 1 [⟨S400000x64, A⟩, ⟨S400000x64, B⟩, ⟨S400000x64, D⟩] h (ix2 e k)
      = if h0 : k.val < 64 then A (ix2 e ⟨k.val, h0⟩)
        else if h1 : k.val < 128 then B (ix2 e ⟨k.val - 64, by omega⟩)
        else D (ix2 e ⟨k.val - 128, by omega⟩) := by
  by_cases h0 : k.val < 64
  · rw [dif_pos h0]
    refine concatenate_apply_piece (1 : Fin S400000x192.rank) [⟨S400000x64, A⟩, ⟨S400000x64, B⟩, ⟨S400000x64, D⟩] h (ix2 e k) 0 (by show (0 : Nat) < 3; decide) S400000x64 A rfl rfl 0 rfl
      (ix2 e ⟨k.val, h0⟩) ?_ ?_
    · intro b hb
      match b with
      | ⟨0, _⟩ => rfl
      | ⟨1, _⟩ => exact absurd rfl hb
    · show 0 + k.val = k.val
      omega
  · rw [dif_neg h0]
    by_cases h1 : k.val < 128
    · rw [dif_pos h1]
      refine concatenate_apply_piece (1 : Fin S400000x192.rank) [⟨S400000x64, A⟩, ⟨S400000x64, B⟩, ⟨S400000x64, D⟩] h (ix2 e k) 1 (by show (1 : Nat) < 3; decide) S400000x64 B rfl rfl 64 rfl
        (ix2 e ⟨k.val - 64, by omega⟩) ?_ ?_
      · intro b hb
        match b with
        | ⟨0, _⟩ => rfl
        | ⟨1, _⟩ => exact absurd rfl hb
      · show 64 + (k.val - 64) = k.val
        omega
    · rw [dif_neg h1]
      refine concatenate_apply_piece (1 : Fin S400000x192.rank) [⟨S400000x64, A⟩, ⟨S400000x64, B⟩, ⟨S400000x64, D⟩] h (ix2 e k) 2 (by show (2 : Nat) < 3; decide) S400000x64 D rfl rfl 128 rfl
        (ix2 e ⟨k.val - 128, by omega⟩) ?_ ?_
      · intro b hb
        match b with
        | ⟨0, _⟩ => rfl
        | ⟨1, _⟩ => exact absurd rfl hb
      · show 128 + (k.val - 128) = k.val
        omega

/-- The concatenated array at (e, k): the 192 numbers edge e is scored from. -/
theorem feature_apply (x0 : (⟨S100000x256, .f32⟩ : BufTy).Contents (Elt Ideal)) (x1 : (⟨S64x256, .f32⟩ : BufTy).Contents (Elt Ideal))
    (x3 : (⟨S2x400000, .i32⟩ : BufTy).Contents (Elt Ideal)) (e : Fin 400000) (k : Fin 192) :
    Read.val_main_v21 (F := Ideal) x0 x1 x3 (ix2 e k) = edgeFeature x0 x1 x3 e k := by
  unfold Read.val_main_v21 edgeFeature
  refine (concat3_apply _ _ _ _ e k).trans ?_
  by_cases h0 : k.val < 64
  · rw [dif_pos h0, dif_pos h0, gathered0_apply]
  · rw [dif_neg h0, dif_neg h0]
    by_cases h1 : k.val < 128
    · rw [dif_pos h1, dif_pos h1, gathered1_apply]
    · rw [dif_neg h1, dif_neg h1, Read.val_main_v20_apply, gathered0_apply, gathered1_apply]
      rfl

/-- The pre-activation of edge e: the 192 numbers against the scoring weights. -/
theorem preact_apply (x0 : (⟨S100000x256, .f32⟩ : BufTy).Contents (Elt Ideal)) (x1 : (⟨S64x256, .f32⟩ : BufTy).Contents (Elt Ideal))
    (x2 : (⟨S1x192, .f32⟩ : BufTy).Contents (Elt Ideal)) (x3 : (⟨S2x400000, .i32⟩ : BufTy).Contents (Elt Ideal)) (e : Fin 400000) :
    Read.val_main_v24 (F := Ideal) x0 x1 x2 x3 (ix1 e) = ∑ j : Fin 192, edgeFeature x0 x1 x3 e j * x2 (ix2 0 j) := by
  rw [Read.val_main_v24_apply, Read.val_main_v23_apply]
  refine Finset.sum_congr rfl fun k _ => ?_
  have e1 : Read.lidx_main_v23 (Read.idx_main_v24 (ix1 e)) k = ix2 e k :=
    funext fun a => Fin.ext (by
      match a with
      | ⟨0, _⟩ => exact Nat.div_one _
      | ⟨1, _⟩ => rfl)
  have e2 : Read.idx_main_v22 (Read.ridx_main_v23 (Read.idx_main_v24 (ix1 e)) k) = ix2 0 k :=
    funext fun a => Fin.ext (by match a with | ⟨0, _⟩ => rfl | ⟨1, _⟩ => rfl)
  rw [Read.val_main_v22_apply, e1, e2, feature_apply]

/-- One over one plus the exponential of the negation, with the ones spelt as the f32 word of 1.0, is the logistic. -/
theorem logistic_word (x : EReal) :
    Ideal.div (Ideal.ofBits .f32 0x3F800000#32) (Ideal.ofBits .f32 0x3F800000#32 + Ideal.exp (-x)) = Ideal.logistic x := by
  rw [Cert.LibMoments.ofBits_one]
  rfl

/-- The first result at edge e. -/
theorem score_apply (x0 : (⟨S100000x256, .f32⟩ : BufTy).Contents (Elt Ideal)) (x1 : (⟨S64x256, .f32⟩ : BufTy).Contents (Elt Ideal))
    (x2 : (⟨S1x192, .f32⟩ : BufTy).Contents (Elt Ideal)) (x3 : (⟨S2x400000, .i32⟩ : BufTy).Contents (Elt Ideal)) (e : Fin 400000) :
    Read.val_main_v30 (F := Ideal) x0 x1 x2 x3 (ix1 e) = scoreR x0 x1 x2 x3 e := by
  rw [Read.val_main_v30_apply, Read.val_main_v29_apply, Read.val_main_cst_3_apply, Read.val_main_v28_apply,
    Read.val_main_v27_apply, Read.val_main_cst_apply, Read.val_main_v26_apply, Read.val_main_v25_apply, preact_apply]
  exact logistic_word _

/-- The reference's first result is the score of each edge spelt through the projected rows. -/
theorem ref_scores (x0 : (⟨S100000x256, .f32⟩ : BufTy).Contents (Elt Ideal)) (x1 : (⟨S64x256, .f32⟩ : BufTy).Contents (Elt Ideal))
    (x2 : (⟨S1x192, .f32⟩ : BufTy).Contents (Elt Ideal)) (x3 : (⟨S2x400000, .i32⟩ : BufTy).Contents (Elt Ideal)) :
    Read.val_main_v30 (F := Ideal) x0 x1 x2 x3 = scoresR x0 x1 x2 x3 := by
  funext i
  obtain ⟨e, rfl⟩ : ∃ e : Fin 400000, i = ix1 e := ⟨i 0, eq_ix1 i⟩
  exact score_apply x0 x1 x2 x3 e

/-! ## One edge's loss -/

/-- The class bit of edge e: its label word equals 1. -/
theorem classBit_apply (x4 : (⟨S400000, .i32⟩ : BufTy).Contents (Elt Ideal)) (e : Fin 400000) :
    Read.val_main_v38 (F := Ideal) x4 (ix1 e) = IntOp.cmpi .eq (x4 (ix1 e)) 1#32 := by
  rw [Read.val_main_v38_apply, Read.val_main_v37_apply, Read.val_main_c_6_apply]

/-- The selected log-probability of edge e. -/
theorem logPt_apply (x0 : (⟨S100000x256, .f32⟩ : BufTy).Contents (Elt Ideal)) (x1 : (⟨S64x256, .f32⟩ : BufTy).Contents (Elt Ideal))
    (x2 : (⟨S1x192, .f32⟩ : BufTy).Contents (Elt Ideal)) (x3 : (⟨S2x400000, .i32⟩ : BufTy).Contents (Elt Ideal))
    (x4 : (⟨S400000, .i32⟩ : BufTy).Contents (Elt Ideal)) (e : Fin 400000) :
    Read.val_main_v43 (F := Ideal) x0 x1 x2 x3 x4 (ix1 e) = logPt (scoreR x0 x1 x2 x3 e) (x4 (ix1 e)) := by
  rw [Read.val_main_v43_apply, classBit_apply, Read.val_main_v39_apply, Read.val_main_v42_apply, Read.val_main_v41_apply,
    Read.val_main_v40_apply, Read.val_main_cst_7_apply, Read.val_main_v36_apply, Read.val_main_v35_apply,
    Read.val_main_cst_5_apply, Read.val_main_v34_apply, Read.val_main_v33_apply, Read.val_main_cst_4_apply,
    Read.val_main_v32_apply, Read.val_main_v31_apply, score_apply]
  unfold logPt
  simp only [Ideal.hostDivf_def, Ideal.addf_def, Ideal.subf_def, Ideal.hostUnary_exp_def, Ideal.hostUnary_log_def,
    Ideal.hostNegf_def, Ideal.negf_def, Ideal.ofBits_def, logistic_word]

/-- The class weight of edge e. -/
theorem classW_apply (x4 : (⟨S400000, .i32⟩ : BufTy).Contents (Elt Ideal)) (e : Fin 400000) :
    Read.val_main_v46 (F := Ideal) x4 (ix1 e) = classW (x4 (ix1 e)) := by
  rw [Read.val_main_v46_apply, Read.val_main_v45_apply, classBit_apply, Read.val_main_call1_v0_apply,
    Read.val_main_cst_8_apply, Read.val_main_call1_v1_apply, Read.val_main_cst_9_apply]
  rfl

/-- The loss of edge e. -/
theorem loss_apply (x0 : (⟨S100000x256, .f32⟩ : BufTy).Contents (Elt Ideal)) (x1 : (⟨S64x256, .f32⟩ : BufTy).Contents (Elt Ideal))
    (x2 : (⟨S1x192, .f32⟩ : BufTy).Contents (Elt Ideal)) (x3 : (⟨S2x400000, .i32⟩ : BufTy).Contents (Elt Ideal))
    (x4 : (⟨S400000, .i32⟩ : BufTy).Contents (Elt Ideal)) (e : Fin 400000) :
    Read.val_main_v53 (F := Ideal) x0 x1 x2 x3 x4 (ix1 e) = lossR (scoreR x0 x1 x2 x3 e) (x4 (ix1 e)) := by
  rw [Read.val_main_v53_apply, Read.val_main_v52_apply, Read.val_main_v51_apply, Read.val_main_v50_apply,
    Read.val_main_cst_11_apply, Read.val_main_v49_apply, Read.val_main_v48_apply, Read.val_main_cst_10_apply,
    Read.val_main_v44_apply, Read.val_main_v47_apply, logPt_apply, classW_apply]
  rfl

/-- The masked loss of edge e. -/
theorem masked_apply (x0 : (⟨S100000x256, .f32⟩ : BufTy).Contents (Elt Ideal)) (x1 : (⟨S64x256, .f32⟩ : BufTy).Contents (Elt Ideal))
    (x2 : (⟨S1x192, .f32⟩ : BufTy).Contents (Elt Ideal)) (x3 : (⟨S2x400000, .i32⟩ : BufTy).Contents (Elt Ideal))
    (x4 : (⟨S400000, .i32⟩ : BufTy).Contents (Elt Ideal)) (x5 : (⟨S400000, .i1⟩ : BufTy).Contents (Elt Ideal)) (e : Fin 400000) :
    Read.val_main_v55 (F := Ideal) x0 x1 x2 x3 x4 x5 (ix1 e)
      = lossR (scoreR x0 x1 x2 x3 e) (x4 (ix1 e)) * (((x5 (ix1 e)).toNat : ℝ) : EReal) := by
  rw [Read.val_main_v55_apply, Read.val_main_v54_apply, loss_apply]
  rfl

/-! ## The two sums and the quotient -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum of the masked losses. -/
theorem lossSum_apply (x0 : (⟨S100000x256, .f32⟩ : BufTy).Contents (Elt Ideal)) (x1 : (⟨S64x256, .f32⟩ : BufTy).Contents (Elt Ideal))
    (x2 : (⟨S1x192, .f32⟩ : BufTy).Contents (Elt Ideal)) (x3 : (⟨S2x400000, .i32⟩ : BufTy).Contents (Elt Ideal))
    (x4 : (⟨S400000, .i32⟩ : BufTy).Contents (Elt Ideal)) (x5 : (⟨S400000, .i1⟩ : BufTy).Contents (Elt Ideal)) (i : S_.Idx) :
    Read.val_main_v56 (F := Ideal) x0 x1 x2 x3 x4 x5 i
      = Ideal.ofBits .f32 0x00000000#32
        + ∑ e : Fin 400000, lossR (scoreR x0 x1 x2 x3 e) (x4 (ix1 e)) * (((x5 (ix1 e)).toNat : ℝ) : EReal) := by
  rw [Read.val_main_v56_apply, Read.val_main_cst_12_apply, sum_idx1]
  simp only [masked_apply]
  rfl

/-- The number of masked edges. -/
theorem maskSum_apply (x5 : (⟨S400000, .i1⟩ : BufTy).Contents (Elt Ideal)) (i : S_.Idx) :
    Read.val_main_v57 (F := Ideal) x5 i
      = Ideal.ofBits .f32 0x00000000#32 + ∑ e : Fin 400000, (((x5 (ix1 e)).toNat : ℝ) : EReal) := by
  rw [Read.val_main_v57_apply, Read.val_main_cst_13_apply, sum_idx1]
  rfl

/-- The reference's second result is the unguarded mean of the masked losses. -/
theorem ref_mean (x0 : (⟨S100000x256, .f32⟩ : BufTy).Contents (Elt Ideal)) (x1 : (⟨S64x256, .f32⟩ : BufTy).Contents (Elt Ideal))
    (x2 : (⟨S1x192, .f32⟩ : BufTy).Contents (Elt Ideal)) (x3 : (⟨S2x400000, .i32⟩ : BufTy).Contents (Elt Ideal))
    (x4 : (⟨S400000, .i32⟩ : BufTy).Contents (Elt Ideal)) (x5 : (⟨S400000, .i1⟩ : BufTy).Contents (Elt Ideal)) :
    Read.val_main_v58 (F := Ideal) x0 x1 x2 x3 x4 x5 = meanArrR x0 x1 x2 x3 x4 x5 := by
  funext i
  rw [Read.val_main_v58_apply, lossSum_apply, maskSum_apply]
  rfl

end Cert.ReferenceIdeal.RefValue

end
-- ==== Proof.Algebra.lean ====
/-
  The two spellings agree on real inputs. Linearity: for real features and weights the pre-activation
  Σ_j f(e, j)·W_f(j) over the 192 numbers (h_i, h_j, h_i − h_j) is a(i) + b(j) with a = X·u, b = X·v, u = (w1 + w3)·W_d,
  v = (w2 − w3)·W_d. The loss: the score is the logistic of a real, hence a real in (0, 1), so p, both logarithms, pt
  and 1 − pt are reals, the power with exponent 2 is the product, and −z = 0 − z. The sums: the 1408 appended entries
  carry mask 0, so each contributes loss·0 = 0 and the sums over 401408 entries are the sums over the 400000 edges; with
  at least one masked edge the mask count is a positive real, so the guard selects the quotient.
-/
import proofs.«117142_j87205015978654_2_alg».proof.Proof.Spec
import proofs.«117142_j87205015978654_2_alg».proof.Proof.LibMoments
import Mathlib.Tactic

noncomputable section

open scoped BigOperators

namespace Cert.EdgeFocal

open Cert.LibMoments Idealize.ShloMosaic Idealize.ShloMosaic.ValueIdx

variable (x : FVec Ideal ⟨2, ![100000, 256]⟩ .f32) (wd : FVec Ideal ⟨2, ![64, 256]⟩ .f32) (wf : FVec Ideal ⟨2, ![1, 192]⟩ .f32)
  (ei : IVec ⟨2, ![2, 400000]⟩ 32) (lab : IVec ⟨1, ![400000]⟩ 32) (msk : IVec ⟨1, ![400000]⟩ 1)

/-! ## Linearity -/

/-- A sum over 192 positions is the sum over its three 64-wide thirds. -/
theorem sum_thirds {M : Type*} [AddCommMonoid M] (g : Fin 192 → M) :
    ∑ j : Fin 192, g j = ∑ c : Fin 64, g (third0 c) + ∑ c : Fin 64, g (third1 c) + ∑ c : Fin 64, g (third2 c) := by
  have h1 : ∑ j : Fin 192, g j
      = ∑ c : Fin 64, g (Fin.castAdd 128 c) + ∑ d : Fin 128, g (Fin.natAdd 64 d) := Fin.sum_univ_add (a := 64) (b := 128) g
  have h2 : ∑ d : Fin 128, g (Fin.natAdd 64 d)
      = ∑ c : Fin 64, g (Fin.natAdd 64 (Fin.castAdd 64 c)) + ∑ c : Fin 64, g (Fin.natAdd 64 (Fin.natAdd 64 c)) :=
    Fin.sum_univ_add (a := 64) (b := 64) fun d : Fin 128 => g (Fin.natAdd 64 d)
  rw [h1, h2, add_assoc]
  refine congrArg₂ (· + ·) (Finset.sum_congr rfl fun c _ => congrArg g (Fin.ext rfl)) (congrArg₂ (· + ·) ?_ ?_)
  · exact Finset.sum_congr rfl fun c _ => congrArg g (Fin.ext rfl)
  · exact Finset.sum_congr rfl fun c _ => congrArg g (Fin.ext (by simp [Fin.natAdd]; omega))

/-- In the reals: a feature row against a weight row folded through the projection. -/
theorem real_fold_one (X : Fin 256 → ℝ) (D : Fin 64 → Fin 256 → ℝ) (V : Fin 64 → ℝ) :
    ∑ k, X k * ∑ c, V c * D c k = ∑ c, V c * ∑ k, X k * D c k := by
  simp only [Finset.mul_sum]
  rw [Finset.sum_comm]
  exact Finset.sum_congr rfl fun c _ => Finset.sum_congr rfl fun k _ => by ring

/-- In the reals: a(i) + b(j) is the 192 numbers (h_i, h_j, h_i − h_j) against the three thirds of the weights. -/
theorem real_fold (Xa Xb : Fin 256 → ℝ) (D : Fin 64 → Fin 256 → ℝ) (W0 W1 W2 : Fin 64 → ℝ) :
    ∑ k, Xa k * ∑ c, (W0 c + W2 c) * D c k + ∑ k, Xb k * ∑ c, (W1 c - W2 c) * D c k
      = ∑ c, (∑ k, Xa k * D c k) * W0 c + ∑ c, (∑ k, Xb k * D c k) * W1 c
        + ∑ c, (∑ k, Xa k * D c k - ∑ k, Xb k * D c k) * W2 c := by
  rw [real_fold_one, real_fold_one, ← Finset.sum_add_distrib, ← Finset.sum_add_distrib, ← Finset.sum_add_distrib]
  exact Finset.sum_congr rfl fun c _ => by ring

/-- The same law on images of reals in the extended reals. -/
theorem ereal_fold (Xa Xb : Fin 256 → ℝ) (D : Fin 64 → Fin 256 → ℝ) (W0 W1 W2 : Fin 64 → ℝ) :
    ∑ k, (Xa k : EReal) * ∑ c, ((W0 c : EReal) + (W2 c : EReal)) * (D c k : EReal)
        + ∑ k, (Xb k : EReal) * ∑ c, ((W1 c : EReal) - (W2 c : EReal)) * (D c k : EReal)
      = ∑ c, (∑ k, (Xa k : EReal) * (D c k : EReal)) * (W0 c : EReal)
        + ∑ c, (∑ k, (Xb k : EReal) * (D c k : EReal)) * (W1 c : EReal)
        + ∑ c, (∑ k, (Xa k : EReal) * (D c k : EReal) - ∑ k, (Xb k : EReal) * (D c k : EReal)) * (W2 c : EReal) := by
  have h := congrArg Real.toEReal (real_fold Xa Xb D W0 W1 W2)
  simpa only [coe_finset_sum, EReal.coe_add, EReal.coe_mul, EReal.coe_sub] using h

/-- An entry below 400000 of a lengthened array is the entry of the array. -/
theorem padW_lt {w : Nat} (v : Fin 400000 → BitVec w) (e : Fin 401408) (h : e.val < 400000) :
    padW v e = v ⟨e.val, h⟩ := dif_pos h

/-- An entry from 400000 on of a lengthened array is the zero word. -/
theorem padW_ge {w : Nat} (v : Fin 400000 → BitVec w) (e : Fin 401408) (h : ¬ e.val < 400000) :
    padW v e = 0 := dif_neg h

/-- Column 0 of the folded weights. -/
theorem foldedW_zero (k : Fin 256) :
    foldedW wd wf k 0 = ∑ c : Fin 64, (wf (ix2 0 (third0 c)) + wf (ix2 0 (third2 c))) * wd (ix2 c k) := by
  unfold foldedW; exact if_pos rfl

/-- Column 1 of the folded weights. -/
theorem foldedW_one (k : Fin 256) :
    foldedW wd wf k 1 = ∑ c : Fin 64, (wf (ix2 0 (third1 c)) - wf (ix2 0 (third2 c))) * wd (ix2 c k) := by
  unfold foldedW; exact if_neg (by decide)

/-- The first third of an edge's 192 numbers is the projected row of its source. -/
theorem edgeFeature_third0 (e : Fin 400000) (c : Fin 64) :
    edgeFeature x wd ei e (third0 c) = projected x wd (node (ei (ix2 0 e))) c := by
  unfold edgeFeature
  rw [dif_pos (show (third0 c).val < 64 from c.isLt)]

/-- The second third is the projected row of its target. -/
theorem edgeFeature_third1 (e : Fin 400000) (c : Fin 64) :
    edgeFeature x wd ei e (third1 c) = projected x wd (node (ei (ix2 1 e))) c := by
  have h0 : ¬ (third1 c).val < 64 := by show ¬ 64 + c.val < 64; omega
  have h1 : (third1 c).val < 128 := by show 64 + c.val < 128; omega
  unfold edgeFeature
  rw [dif_neg h0, dif_pos h1]
  exact congrArg _ (Fin.ext (by show 64 + c.val - 64 = c.val; omega))

/-- The last third is the difference of the two projected rows. -/
theorem edgeFeature_third2 (e : Fin 400000) (c : Fin 64) :
    edgeFeature x wd ei e (third2 c)
      = projected x wd (node (ei (ix2 0 e))) c - projected x wd (node (ei (ix2 1 e))) c := by
  have h0 : ¬ (third2 c).val < 64 := by show ¬ 128 + c.val < 64; omega
  have h1 : ¬ (third2 c).val < 128 := by show ¬ 128 + c.val < 128; omega
  have hc : (⟨(third2 c).val - 128, by show 128 + c.val - 128 < 64; omega⟩ : Fin 64) = c :=
    Fin.ext (by show 128 + c.val - 128 = c.val; omega)
  unfold edgeFeature
  rw [dif_neg h0, dif_neg h1, hc]

/-- One edge: on real features and weights the folded score is the score through the projected rows. -/
theorem scoreK_eq_scoreR (hx : ∀ i, IsReal (x i)) (hwd : ∀ i, IsReal (wd i)) (hwf : ∀ i, IsReal (wf i))
    (e : Fin 400000) (h : e.val < 401408) :
    scoreK x wd wf ei ⟨e.val, h⟩ = scoreR x wd wf ei e := by
  choose fx hfx using hx
  choose fd hfd using hwd
  choose fw hfw using hwf
  have e0 : endWord ei 0 ⟨e.val, h⟩ = ei (ix2 0 e) := padW_lt _ _ e.isLt
  have e1 : endWord ei 1 ⟨e.val, h⟩ = ei (ix2 1 e) := padW_lt _ _ e.isLt
  unfold scoreK scoreR
  rw [e0, e1, sum_thirds]
  simp only [edgeFeature_third0, edgeFeature_third1, edgeFeature_third2]
  unfold nodeScalar projected
  simp only [foldedW_zero, foldedW_one, hfx, hfd, hfw]
  exact congrArg Ideal.logistic (ereal_fold _ _ _ _ _ _)

/-- On real features and weights the folded spelling of the scores is the spelling through the projected rows. -/
theorem scoresK_eq_scoresR (hx : ∀ i, IsReal (x i)) (hwd : ∀ i, IsReal (wd i)) (hwf : ∀ i, IsReal (wf i)) :
    scoresK x wd wf ei = scoresR x wd wf ei := by
  funext e
  exact scoreK_eq_scoreR x wd wf ei hx hwd hwf (co1 e) _

/-! ## One edge's loss on a real score -/

/-- The logistic of a real is a real strictly between 0 and 1. -/
theorem logistic_real (r : ℝ) : ∃ p : ℝ, 0 < p ∧ p < 1 ∧ Ideal.logistic (r : EReal) = (p : EReal) := by
  have h1 : (1 : ℝ) < 1 + Real.exp (-r) := by linarith [Real.exp_pos (-r)]
  exact ⟨(1 + Real.exp (-r))⁻¹, by positivity, inv_lt_one_of_one_lt₀ h1, Ideal.logistic_coe r⟩

/-- Sign 0, exponent 128, significand 2^23: the number 2. -/
theorem ofBits_two : Ideal.ofBits .f32 0x40000000#32 = ((2 : ℝ) : EReal) := by
  simp [Ideal.ofBits, Ideal.ieee, -EReal.coe_mul]; norm_num

/-- On a real score the log-probability of the labelled class is real: p and 1 − p lie strictly between 0 and 1. -/
theorem logPt_real (s : ℝ) (lb : BitVec 32) : ∃ l : ℝ, logPt (s : EReal) lb = (l : EReal) := by
  obtain ⟨p, hp0, hp1, hp⟩ := logistic_real s
  unfold logPt
  rw [hp, ofBits_one]
  rcases BitVec.eq_zero_or_eq_one (IntOp.cmpi .eq lb 1#32) with hc | hc
  · rw [hc, select_zero, ← EReal.coe_one, ← EReal.coe_sub, Ideal.log_coe, if_neg (not_le.mpr (by linarith))]
    exact ⟨_, rfl⟩
  · rw [hc, select_one, Ideal.log_coe, if_neg (not_le.mpr hp0)]
    exact ⟨_, rfl⟩

/-- On a real score the two spellings of the loss agree: the power with exponent 2 is the product, and −z = 0 − z. -/
theorem lossK_eq_lossR (s : ℝ) (lb : BitVec 32) : lossK (s : EReal) lb = lossR (s : EReal) lb := by
  obtain ⟨l, hl⟩ := logPt_real s lb
  unfold lossK lossR
  rw [hl, ofBits_zero, ofBits_one, ofBits_two, Ideal.exp_coe, ← EReal.coe_one, ← EReal.coe_sub, Ideal.pow_coe_coe,
    ← EReal.coe_mul, ← EReal.coe_zero, ← EReal.coe_sub, ← EReal.coe_neg]
  congr 2
  show (0 : ℝ) - (1 - Real.exp l) * (1 - Real.exp l) = -((1 - Real.exp l) ^ (2 : ℝ))
  rw [Real.rpow_two]; ring

/-! ## The sums over the lengthened list -/

/-- A sum over the 401408 entries is the sum over the first 400000 and the sum over the 1408 appended ones. -/
theorem sum_lengthened {M : Type*} [AddCommMonoid M] (g : Fin 401408 → M) :
    ∑ e : Fin 401408, g e
      = ∑ e : Fin 400000, g ⟨e.val, Nat.lt_trans e.isLt (by decide)⟩
        + ∑ d : Fin 1408, g ⟨400000 + d.val, by have := d.isLt; omega⟩ :=
  Fin.sum_univ_add (a := 400000) (b := 1408) g

/-- The mask number of an edge is its mask bit, 0 or 1. -/
theorem maskNum_lt (e : Fin 401408) (h : e.val < 400000) :
    maskNum msk e = (((msk (ix1 ⟨e.val, h⟩)).toNat : ℝ) : EReal) := by
  have hb : ∀ b : BitVec 1, (b.setWidth 32).toInt = (b.toNat : ℤ) := fun b => by
    rcases BitVec.eq_zero_or_eq_one b with hb | hb <;> subst hb <;> decide
  unfold maskNum maskWord
  rw [padW_lt _ _ h, hb, Int.cast_natCast]

/-- The mask number of an appended entry is 0. -/
theorem maskNum_ge (e : Fin 401408) (h : ¬ e.val < 400000) : maskNum msk e = 0 := by
  have h0 : (0 : BitVec 32).toInt = 0 := by decide
  unfold maskNum maskWord
  rw [padW_ge _ _ h, h0, Int.cast_zero, EReal.coe_zero]

/-- The label word of an edge. -/
theorem labWord_lt (e : Fin 401408) (h : e.val < 400000) : labWord lab e = lab (ix1 ⟨e.val, h⟩) := padW_lt _ _ h

/-- On real features and weights the score of an edge is real. -/
theorem scoreR_real (hx : ∀ i, IsReal (x i)) (hwd : ∀ i, IsReal (wd i)) (hwf : ∀ i, IsReal (wf i)) (e : Fin 400000) :
    ∃ s : ℝ, scoreR x wd wf ei e = (s : EReal) := by
  have hp : ∀ r c, IsReal (projected x wd r c) := fun r c => IsReal.sum _ _ fun k _ => (hx _).mul (hwd _)
  have hz : IsReal (∑ j : Fin 192, edgeFeature x wd ei e j * wf (ix2 0 j)) := by
    refine IsReal.sum _ _ fun j _ => IsReal.mul ?_ (hwf _)
    unfold edgeFeature
    split_ifs
    · exact hp _ _
    · exact hp _ _
    · exact (hp _ _).sub (hp _ _)
  obtain ⟨z, hz⟩ := hz
  obtain ⟨p, -, -, hp⟩ := logistic_real z
  exact ⟨p, by unfold scoreR; rw [hz, hp]⟩

/-- The masked loss sum over the lengthened list is the masked loss sum over the edges, in the other spelling. -/
theorem lossSumK_eq (hx : ∀ i, IsReal (x i)) (hwd : ∀ i, IsReal (wd i)) (hwf : ∀ i, IsReal (wf i)) :
    lossSumK x wd wf ei lab msk
      = ∑ e : Fin 400000, lossR (scoreR x wd wf ei e) (lab (ix1 e)) * (((msk (ix1 e)).toNat : ℝ) : EReal) := by
  unfold lossSumK
  rw [sum_lengthened, Finset.sum_eq_zero (s := (Finset.univ : Finset (Fin 1408))) fun d _ => by
    rw [maskNum_ge msk _ (by show ¬ 400000 + d.val < 400000; omega), mul_zero], add_zero]
  refine Finset.sum_congr rfl fun e _ => ?_
  obtain ⟨s, hs⟩ := scoreR_real x wd wf ei hx hwd hwf e
  rw [scoreK_eq_scoreR x wd wf ei hx hwd hwf e, maskNum_lt msk _ e.isLt, labWord_lt lab _ e.isLt, hs, lossK_eq_lossR]

/-- The mask count over the lengthened list is the mask count over the edges. -/
theorem maskSumK_eq : maskSumK msk = ∑ e : Fin 400000, (((msk (ix1 e)).toNat : ℝ) : EReal) := by
  unfold maskSumK
  rw [sum_lengthened, Finset.sum_eq_zero (s := (Finset.univ : Finset (Fin 1408))) fun d _ =>
    maskNum_ge msk _ (by show ¬ 400000 + d.val < 400000; omega), add_zero]
  exact Finset.sum_congr rfl fun e _ => maskNum_lt msk _ e.isLt

/-- With one masked edge the mask count is positive. -/
theorem maskCount_pos (hm : ∃ e : Fin 400000, msk (ix1 e) = 1#1) :
    (0 : EReal) < ∑ e : Fin 400000, (((msk (ix1 e)).toNat : ℝ) : EReal) := by
  obtain ⟨e0, he0⟩ := hm
  have h1 : (1 : ℝ) ≤ ∑ e : Fin 400000, ((msk (ix1 e)).toNat : ℝ) := by
    have h := Finset.single_le_sum (f := fun e : Fin 400000 => ((msk (ix1 e)).toNat : ℝ))
      (fun i _ => Nat.cast_nonneg _) (Finset.mem_univ e0)
    have h' : ((msk (ix1 e0)).toNat : ℝ) = 1 := by rw [he0]; norm_num
    rw [← h']; exact h
  rw [← coe_finset_sum]
  exact EReal.coe_pos.mpr (lt_of_lt_of_le one_pos h1)

/-- The two spellings of the mean agree. -/
theorem meanK_eq_meanR (hx : ∀ i, IsReal (x i)) (hwd : ∀ i, IsReal (wd i)) (hwf : ∀ i, IsReal (wf i))
    (hm : ∃ e : Fin 400000, msk (ix1 e) = 1#1) :
    meanK x wd wf ei lab msk = meanR x wd wf ei lab msk := by
  have hc : Ideal.cmp .ogt (∑ e : Fin 400000, (((msk (ix1 e)).toNat : ℝ) : EReal)) 0 = 1#1 := by
    show BitVec.ofBool (decide ((0 : EReal) < ∑ e : Fin 400000, (((msk (ix1 e)).toNat : ℝ) : EReal))) = 1#1
    rw [decide_eq_true (maskCount_pos msk hm)]; rfl
  unfold meanK meanR
  rw [lossSumK_eq x wd wf ei lab msk hx hwd hwf, maskSumK_eq, ofBits_zero, zero_add, zero_add, hc, select_one]

/-- On real features and weights, with at least one masked edge, the guarded mean over the lengthened list is the
    unguarded mean over the edges. -/
theorem meanArrK_eq_meanArrR (hx : ∀ i, IsReal (x i)) (hwd : ∀ i, IsReal (wd i)) (hwf : ∀ i, IsReal (wf i))
    (hm : ∃ e : Fin 400000, msk (ix1 e) = 1#1) :
    meanArrK x wd wf ei lab msk = meanArrR x wd wf ei lab msk := by
  funext _
  exact meanK_eq_meanR x wd wf ei lab msk hx hwd hwf hm

end Cert.EdgeFocal

end
-- ==== Proof.PreDecode.lean ====
/-
  What the precondition says of the argument arrays. It is a conjunction of four tests, each a reduction to one bit:
  three "every entry's absolute value is below +∞" (a conjunction over the entries, so every entry is a real number) and
  one "some mask bit is set" (a disjunction over the 400000 mask bits, started from 0, so some bit is 1).
-/
import proofs.«117142_j87205015978654_2_alg».proof.Pre_finite_inputs
import proofs.«117142_j87205015978654_2_alg».proof.Proof.Gen.Pre_finite_inputs
import proofs.«117142_j87205015978654_2_alg».proof.Proof.LibMoments
import Idealize.ShloMosaic.Lib.ReduceAll
import Idealize.ShloMosaic.Lib.ValueIdx

noncomputable section

namespace Cert.Pre_finite_inputs.Decode

open Cert.Pre_finite_inputs Cert.Pre_finite_inputs.Gen Cert.LibMoments
open Idealize.ShloMosaic Idealize.ShloMosaic.ValueIdx

instance : Subsingleton S_.Idx := ⟨fun a b => funext fun d => d.elim0⟩

/-- A left fold by "or" over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- The f32 word of +∞ denotes the top of the extended reals. -/
theorem ofBits_inf : Ideal.ofBits .f32 0x7F800000#32 = ⊤ := by
  simp [Ideal.ofBits, Ideal.ieee]

/-- An extended real whose absolute value is below +∞ is a real number. -/
theorem isReal_of_abs_lt (x : EReal) (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The precondition read back: the three float arrays hold real numbers and some mask bit is set. -/
theorem decode (a0 : FVec Ideal S100000x256 .f32) (a1 : FVec Ideal S64x256 .f32) (a2 : FVec Ideal S1x192 .f32)
    (a3 : IVec S2x400000 32) (a4 : IVec S400000 32) (a5 : IVec S400000 1)
    (h : fn (F := Ideal) a0 a1 a2 a3 a4 a5 = fun _ => 1#1) :
    (∀ i, IsReal (a0 i)) ∧ (∀ i, IsReal (a1 i)) ∧ (∀ i, IsReal (a2 i)) ∧ ∃ e : Fin 400000, a5 (ix1 e) = 1#1 := by
  have h0 := congrFun h ix0
  dsimp only [fn] at h0
  obtain ⟨h13, h14⟩ := IntOp.andi_eq_one.1 h0
  obtain ⟨h8, h12⟩ := IntOp.andi_eq_one.1 h13
  obtain ⟨h3, h7⟩ := IntOp.andi_eq_one.1 h8
  refine ⟨fun i => ?_, fun i => ?_, fun i => ?_, ?_⟩
  · exact isReal_of_abs_lt _ (Host.reduce_andi_all _ _ _ _ _ h3 i)
  · exact isReal_of_abs_lt _ (Host.reduce_andi_all _ _ _ _ _ h7 i)
  · exact isReal_of_abs_lt _ (Host.reduce_andi_all _ _ _ _ _ h12 i)
  · rw [Host.reduce_eq_foldl] at h14
    rcases foldl_ori_eq_one a5 _ _ h14 with hi | ⟨n, -, hn⟩
    · exact absurd hi (by decide)
    · exact ⟨⟨(n 0).val, (n 0).isLt⟩, by rw [← hn]; exact congrArg a5 (eq_ix1 n).symm⟩

end Cert.Pre_finite_inputs.Decode

end
-- ==== Proof.lean ====
/-
  The certificate's proof. The three frames: the two kernel programs' are the generated frame proofs; the reference's is
  its generated run with the results dropped. The kernel was idealized without any rewrite, so nothing is owed for
  that step. The value claim: under the precondition the three float arrays hold real numbers and some mask bit is set;
  the kernel program's results are the folded spelling of the scores and the guarded mean over the lengthened edge list,
  the reference's are the scores through the projected rows and the unguarded mean over the edges; on real inputs with a
  masked edge the two spellings are equal (linearity of the two maps; the power with exponent 2 is the product; the
  appended entries carry mask 0; the mask count is positive, so the guard selects the quotient).
-/
import proofs.«117142_j87205015978654_2_alg».proof.Defs
import proofs.«117142_j87205015978654_2_alg».proof.Proof.Gen.Kernel
import proofs.«117142_j87205015978654_2_alg».proof.Proof.Gen.Kernel.Skeleton
import proofs.«117142_j87205015978654_2_alg».proof.Proof.Gen.Kernel.Launch
import proofs.«117142_j87205015978654_2_alg».proof.Proof.Gen.Kernel.Points
import proofs.«117142_j87205015978654_2_alg».proof.Proof.Gen.Kernel.Frame
import proofs.«117142_j87205015978654_2_alg».proof.Proof.Gen.KernelIdeal
import proofs.«117142_j87205015978654_2_alg».proof.Proof.Gen.KernelIdeal.Skeleton
import proofs.«117142_j87205015978654_2_alg».proof.Proof.Gen.KernelIdeal.Launch
import proofs.«117142_j87205015978654_2_alg».proof.Proof.Gen.KernelIdeal.Points
import proofs.«117142_j87205015978654_2_alg».proof.Proof.Gen.KernelIdeal.Frame
import proofs.«117142_j87205015978654_2_alg».proof.Proof.Gen.ReferenceIdeal
import proofs.«117142_j87205015978654_2_alg».proof.Proof.Gen.Pre_finite_inputs
import proofs.«117142_j87205015978654_2_alg».proof.Proof.Gen.ReferenceIdeal.Run
import proofs.«117142_j87205015978654_2_alg».proof.Proof.Gen.ReferenceIdeal.Read
import proofs.«117142_j87205015978654_2_alg».proof.Proof.KernelRun
import proofs.«117142_j87205015978654_2_alg».proof.Proof.KernelValue
import proofs.«117142_j87205015978654_2_alg».proof.Proof.RefValue
import proofs.«117142_j87205015978654_2_alg».proof.Proof.Algebra
import proofs.«117142_j87205015978654_2_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs run; the kernel's results are the folded spelling of the scores and the guarded mean, the
    reference's the scores through the projected rows and the unguarded mean, of arguments that agree — one pair of
    arrays, the inputs being real with a masked edge. -/
theorem algebraic : Cert.algebraic_KernelIdeal_ReferenceIdeal := by
  intro m ρ m' ρ' hpre hagree
  refine ⟨fun c => Cert.EdgeFocal.scoresK (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.EdgeFocal.meanArrK (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Run.run_main (F := Ideal) m ρ)
    obtain ⟨h38, h43, hargs⟩ := h c
    exact ⟨h38.trans (Cert.KernelIdeal.Results.scores_eq m ρ c), h43.trans (Cert.KernelIdeal.Results.mean_eq m ρ c), hargs⟩
  · refine (θ_run Cert.ReferenceIdeal.defs _ _).mono (fun r h c => ?_) (Cert.ReferenceIdeal.Value.run (F := Ideal) m' ρ')
    obtain ⟨h30, h58, hargs⟩ := h c
    obtain ⟨hx, hwd, hwf, hm⟩ := Cert.Pre_finite_inputs.Decode.decode _ _ _ _ _ _ (hpre c)
    obtain ⟨e0, e1, e2, e3, e4, e5⟩ := hagree c
    refine ⟨h30.trans ?_, h58.trans ?_, hargs⟩
    · rw [Cert.ReferenceIdeal.Read.val_main_v30_eq, Cert.ReferenceIdeal.RefValue.ref_scores, e0, e1, e2, e3]
      exact (Cert.EdgeFocal.scoresK_eq_scoresR _ _ _ _ hx hwd hwf).symm
    · rw [Cert.ReferenceIdeal.Read.val_main_v58_eq, Cert.ReferenceIdeal.RefValue.ref_mean, e0, e1, e2, e3, e4, e5]
      exact (Cert.EdgeFocal.meanArrK_eq_meanArrR _ _ _ _ _ _ hx hwd hwf hm).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
